-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x2048 : Shape := ⟨2, ![2048, 2048]⟩
abbrev S32x32 : Shape := ⟨2, ![32, 32]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S32x32 : S_.BroadcastsInDim S32x32 (![] : Fin 0 → Fin S32x32.rank)
  reducesTo_S32x32_S_d0_1 : S32x32.ReducesTo [0, 1] S_

variable [Facts]

def fn_part1 {F : FTy → Type} [FloatOps F] (main_arg4 : FVec F S2048x2048 .f32) (main_arg5 : FVec F S32x32 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048x2048 .f32 := Host.absf main_arg4
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  let main_v24 : FVec F S32x32 .f32 := Host.absf main_arg5
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  main_v28

def fn {F : FTy → Type} [FloatOps F] (main_arg0 : FVec F S2048x2048 .f32) (main_arg1 : FVec F S2048x2048 .f32) (main_arg2 : FVec F S2048x2048 .f32) (main_arg3 : FVec F S2048x2048 .f32) (main_arg4 : FVec F S2048x2048 .f32) (main_arg5 : FVec F S32x32 .f32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_v13 main_v16
-- ==== Kernel.lean ====
abbrev S2048x2048 : Shape := ⟨2, ![2048, 2048]⟩
abbrev S32x32 : Shape := ⟨2, ![32, 32]⟩
abbrev S2048x6144 : Shape := ⟨2, ![2048, 6144]⟩
abbrev S1024x2048 : Shape := ⟨2, ![1024, 2048]⟩
abbrev S2048x1024 : Shape := ⟨2, ![2048, 1024]⟩
abbrev S1024x1024 : Shape := ⟨2, ![1024, 1024]⟩
abbrev S2048x32x64 : Shape := ⟨3, ![2048, 32, 64]⟩
abbrev S32x2048x64 : Shape := ⟨3, ![32, 2048, 64]⟩
abbrev S2048 : Shape := ⟨1, ![2048]⟩
abbrev S2048x1 : Shape := ⟨2, ![2048, 1]⟩
abbrev S1x2048 : Shape := ⟨2, ![1, 2048]⟩
abbrev S_ : Shape := ⟨0, ![]⟩
abbrev S2048x2048x1 : Shape := ⟨3, ![2048, 2048, 1]⟩
abbrev S32x2048x2048 : Shape := ⟨3, ![32, 2048, 2048]⟩
abbrev S1x256x64 : Shape := ⟨3, ![1, 256, 64]⟩
abbrev S1x2048x64 : Shape := ⟨3, ![1, 2048, 64]⟩
abbrev S1x256x2048 : Shape := ⟨3, ![1, 256, 2048]⟩
abbrev S256x64 : Shape := ⟨2, ![256, 64]⟩
abbrev S2048x64 : Shape := ⟨2, ![2048, 64]⟩
abbrev S256x2048 : Shape := ⟨2, ![256, 2048]⟩
abbrev S256 : Shape := ⟨1, ![256]⟩
abbrev S256x1 : Shape := ⟨2, ![256, 1]⟩

abbrev nBuf : Space → Nat
  | .hbm => 73
  | .vmem => 22
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S32x32, .f32⟩
  | .hbm, ⟨6, _⟩ => ⟨S2048x6144, .f32⟩
  | .hbm, ⟨7, _⟩ => ⟨S2048x6144, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048x32x64, .f32⟩
  | .hbm, ⟨12, _⟩ => ⟨S32x2048x64, .f32⟩
  | .hbm, ⟨13, _⟩ => ⟨S2048x32x64, .f32⟩
  | .hbm, ⟨14, _⟩ => ⟨S32x2048x64, .f32⟩
  | .hbm, ⟨15, _⟩ => ⟨S2048x32x64, .f32⟩
  | .hbm, ⟨16, _⟩ => ⟨S32x2048x64, .f32⟩
  | .hbm, ⟨17, _⟩ => ⟨S2048, .i32⟩
  | .hbm, ⟨18, _⟩ => ⟨S2048x1, .i32⟩
  | .hbm, ⟨19, _⟩ => ⟨S2048, .i32⟩
  | .hbm, ⟨20, _⟩ => ⟨S1x2048, .i32⟩
  | .hbm, ⟨21, _⟩ => ⟨S2048x2048, .i32⟩
  | .hbm, ⟨22, _⟩ => ⟨S2048x2048, .i32⟩
  | .hbm, ⟨23, _⟩ => ⟨S2048x2048, .i32⟩
  | .hbm, ⟨24, _⟩ => ⟨S2048x2048, .i32⟩
  | .hbm, ⟨25, _⟩ => ⟨S_, .i32⟩
  | .hbm, ⟨26, _⟩ => ⟨S2048x2048, .i32⟩
  | .hbm, ⟨27, _⟩ => ⟨S2048x2048, .i1⟩
  | .hbm, ⟨28, _⟩ => ⟨S2048x2048, .i32⟩
  | .hbm, ⟨29, _⟩ => ⟨S_, .i32⟩
  | .hbm, ⟨30, _⟩ => ⟨S2048x2048, .i32⟩
  | .hbm, ⟨31, _⟩ => ⟨S2048x2048, .i32⟩
  | .hbm, ⟨32, _⟩ => ⟨S2048x2048, .i32⟩
  | .hbm, ⟨33, _⟩ => ⟨S_, .i32⟩
  | .hbm, ⟨34, _⟩ => ⟨S2048x2048, .i32⟩
  | .hbm, ⟨35, _⟩ => ⟨S2048x2048, .i1⟩
  | .hbm, ⟨36, _⟩ => ⟨S_, .i32⟩
  | .hbm, ⟨37, _⟩ => ⟨S2048x2048, .i32⟩
  | .hbm, ⟨38, _⟩ => ⟨S2048x2048, .i32⟩
  | .hbm, ⟨39, _⟩ => ⟨S2048x2048, .f32⟩
  | .hbm, ⟨40, _⟩ => ⟨S_, .f32⟩
  | .hbm, ⟨41, _⟩ => ⟨S2048x2048, .f32⟩
  | .hbm, ⟨42, _⟩ => ⟨S2048x2048, .f32⟩
  | .hbm, ⟨43, _⟩ => ⟨S2048x2048, .f32⟩
  | .hbm, ⟨44, _⟩ => ⟨S_, .f32⟩
  | .hbm, ⟨45, _⟩ => ⟨S2048x2048, .f32⟩
  | .hbm, ⟨46, _⟩ => ⟨S2048x2048, .f32⟩
  | .hbm, ⟨47, _⟩ => ⟨S_, .f32⟩
  | .hbm, ⟨48, _⟩ => ⟨S2048x2048, .f32⟩
  | .hbm, ⟨49, _⟩ => ⟨S2048x2048, .f32⟩
  | .hbm, ⟨50, _⟩ => ⟨S2048x2048, .i32⟩
  | .hbm, ⟨51, _⟩ => ⟨S_, .i32⟩
  | .hbm, ⟨52, _⟩ => ⟨S2048x2048, .i32⟩
  | .hbm, ⟨53, _⟩ => ⟨S2048x2048, .i32⟩
  | .hbm, ⟨54, _⟩ => ⟨S_, .i32⟩
  | .hbm, ⟨55, _⟩ => ⟨S2048x2048, .i32⟩
  | .hbm, ⟨56, _⟩ => ⟨S2048x2048, .i32⟩
  | .hbm, ⟨57, _⟩ => ⟨S2048x2048, .i32⟩
  | .hbm, ⟨58, _⟩ => ⟨S2048x2048, .i32⟩
  | .hbm, ⟨59, _⟩ => ⟨S32x32, .f32⟩
  | .hbm, ⟨60, _⟩ => ⟨S_, .i32⟩
  | .hbm, ⟨61, _⟩ => ⟨S2048x2048, .i32⟩
  | .hbm, ⟨62, _⟩ => ⟨S2048x2048, .i1⟩
  | .hbm, ⟨63, _⟩ => ⟨S_, .i32⟩
  | .hbm, ⟨64, _⟩ => ⟨S2048x2048, .i32⟩
  | .hbm, ⟨65, _⟩ => ⟨S2048x2048, .i32⟩
  | .hbm, ⟨66, _⟩ => ⟨S2048x2048, .i32⟩
  | .hbm, ⟨67, _⟩ => ⟨S2048x2048x1, .i32⟩
  | .hbm, ⟨68, _⟩ => ⟨S32x2048x2048, .f32⟩
  | .hbm, ⟨69, _⟩ => ⟨S32x2048x64, .f32⟩
  | .hbm, ⟨70, _⟩ => ⟨S2048x32x64, .f32⟩
  | .hbm, ⟨71, _⟩ => ⟨S2048x2048, .f32⟩
  | .hbm, ⟨72, _⟩ => ⟨S2048x2048, .f32⟩
  | .local _ .vmem, ⟨0, _⟩ => ⟨S1024x2048, .f32⟩
  | .local _ .vmem, ⟨1, _⟩ => ⟨S1024x2048, .f32⟩
  | .local _ .vmem, ⟨2, _⟩ => ⟨S2048x1024, .f32⟩
  | .local _ .vmem, ⟨3, _⟩ => ⟨S2048x1024, .f32⟩
  | .local _ .vmem, ⟨4, _⟩ => ⟨S1024x1024, .f32⟩
  | .local _ .vmem, ⟨5, _⟩ => ⟨S1024x1024, .f32⟩
  | .local _ .vmem, ⟨6, _⟩ => ⟨S1x256x64, .f32⟩
  | .local _ .vmem, ⟨7, _⟩ => ⟨S1x256x64, .f32⟩
  | .local _ .vmem, ⟨8, _⟩ => ⟨S1x2048x64, .f32⟩
  | .local _ .vmem, ⟨9, _⟩ => ⟨S1x2048x64, .f32⟩
  | .local _ .vmem, ⟨10, _⟩ => ⟨S1x2048x64, .f32⟩
  | .local _ .vmem, ⟨11, _⟩ => ⟨S1x2048x64, .f32⟩
  | .local _ .vmem, ⟨12, _⟩ => ⟨S1x256x2048, .f32⟩
  | .local _ .vmem, ⟨13, _⟩ => ⟨S1x256x2048, .f32⟩
  | .local _ .vmem, ⟨14, _⟩ => ⟨S1x256x64, .f32⟩
  | .local _ .vmem, ⟨15, _⟩ => ⟨S1x256x64, .f32⟩
  | .local _ .vmem, ⟨16, _⟩ => ⟨S1024x2048, .f32⟩
  | .local _ .vmem, ⟨17, _⟩ => ⟨S1024x2048, .f32⟩
  | .local _ .vmem, ⟨18, _⟩ => ⟨S2048x1024, .f32⟩
  | .local _ .vmem, ⟨19, _⟩ => ⟨S2048x1024, .f32⟩
  | .local _ .vmem, ⟨20, _⟩ => ⟨S1024x1024, .f32⟩
  | .local _ .vmem, ⟨21, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_c_0 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_c_1 : Ref sig .tc := ⟨.hbm, 33, rfl⟩
abbrev main_v25 : Ref sig .tc := ⟨.hbm, 34, rfl⟩
abbrev main_v26 : Ref sig .tc := ⟨.hbm, 35, rfl⟩
abbrev main_c_2 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_3 : Ref sig .tc := ⟨.hbm, 44, rfl⟩
abbrev main_v33 : Ref sig .tc := ⟨.hbm, 45, rfl⟩
abbrev main_v34 : Ref sig .tc := ⟨.hbm, 46, rfl⟩
abbrev main_cst_4 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_c_5 : Ref sig .tc := ⟨.hbm, 51, rfl⟩
abbrev main_v38 : Ref sig .tc := ⟨.hbm, 52, rfl⟩
abbrev main_v39 : Ref sig .tc := ⟨.hbm, 53, rfl⟩
abbrev main_c_6 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_c_7 : Ref sig .tc := ⟨.hbm, 60, rfl⟩
abbrev main_v45 : Ref sig .tc := ⟨.hbm, 61, rfl⟩
abbrev main_v46 : Ref sig .tc := ⟨.hbm, 62, rfl⟩
abbrev main_c_8 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21

abbrev nD : Nat := 1
abbrev τ : Topo := Topo.v7x

variable {F : FTy → Type} [FloatOps F]

abbrev grid0 : Pipeline.Grid := ⟨2, ![2, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![32, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x256x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x256x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev grid2 : Pipeline.Grid := ⟨2, ![2, 2], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S2048x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

class Facts₀ : Prop where
  concatenates_S2048x2048_S2048x2048_S2048x2048_S2048x6144_d1 : Shape.Concatenates [S2048x2048, S2048x2048, S2048x2048] S2048x6144 1
  inb_S1024x2048_S1024x2048_0_0 : ∀ a, (![0, 0] : Fin 2 → Nat) a + S1024x2048.size a ≤ S1024x2048.size a
  h_S1024x2048 : 0 < S1024x2048.numel
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x1024_S1024x1024_0_0 : ∀ a, (![0, 0] : Fin 2 → Nat) a + S1024x1024.size a ≤ S1024x1024.size a
  h_S1024x1024 : 0 < S1024x1024.numel
  slices_S2048x6144_S2048x2048_0_0 : S2048x6144.Slices ![0, 0] S2048x2048
  slices_S2048x6144_S2048x2048_0_2048 : S2048x6144.Slices ![0, 2048] S2048x2048
  slices_S2048x6144_S2048x2048_0_4096 : S2048x6144.Slices ![0, 4096] S2048x2048
  shapeCasts_S2048x2048_S2048x32x64 : S2048x2048.ShapeCasts S2048x32x64
  transposes_S2048x32x64_S32x2048x64_1_0_2 : S2048x32x64.Transposes [1, 0, 2] S32x2048x64
  bcast_S2048_S2048x1_0 : S2048.BroadcastsInDim S2048x1 (![0] : Fin 1 → Fin S2048x1.rank)
  bcast_S2048_S1x2048_1 : S2048.BroadcastsInDim S1x2048 (![1] : Fin 1 → Fin S1x2048.rank)
  bcast_S1x2048_S2048x2048_0_1 : S1x2048.BroadcastsInDim S2048x2048 (![0, 1] : Fin 2 → Fin S2048x2048.rank)
  bcast_S2048x1_S2048x2048_0_1 : S2048x1.BroadcastsInDim S2048x2048 (![0, 1] : Fin 2 → Fin S2048x2048.rank)
  bcast_S_S2048x2048 : S_.BroadcastsInDim S2048x2048 (![] : Fin 0 → Fin S2048x2048.rank)
  natLt_1_32 : 1 < 32
  transposes_S32x32_S32x32_1_0 : S32x32.Transposes [1, 0] S32x32
  bcast_S2048x2048_S2048x2048x1_0_1 : S2048x2048.BroadcastsInDim S2048x2048x1 (![0, 1] : Fin 2 → Fin S2048x2048x1.rank)
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  reduces_S256x2048_S256 : S256x2048.Reduces [1] S256
  shapeCasts_S256_S256x1 : S256.ShapeCasts S256x1
  broadcasts_S256x1_S256x2048 : S256x1.Broadcasts S256x2048
  shapeCasts_S256x64_S1x256x64 : S256x64.ShapeCasts S1x256x64
  transposes_S32x2048x64_S2048x32x64_1_0_2 : S32x2048x64.Transposes [1, 0, 2] S2048x32x64
  shapeCasts_S2048x32x64_S2048x2048 : S2048x32x64.ShapeCasts S2048x2048
  shapeCasts_S1024x2048_S1024x2048 : S1024x2048.ShapeCasts S1024x2048
  dot_S1024x2048_S2048x1024_S1024x1024_1_0_0_1_n_n_wf : DotDims.WF S1024x2048 S2048x1024 S1024x1024 [1] [0] [0] [1] [] []
  gather_S32x32_S2048x2048x1_S32x2048x2048_0_1_n_n_1_2_321_wf : GatherDims.WF S32x32 S2048x2048x1 S32x2048x2048 [0] [1] [] [1] [] 2 ![32, 1]
  dot_S256x64_S2048x64_S256x2048_1_1_0_0_n_n_wf : DotDims.WF S256x64 S2048x64 S256x2048 [1] [1] [0] [0] [] []
  dot_S256x2048_S2048x64_S256x64_1_0_0_1_n_n_wf : DotDims.WF S256x2048 S2048x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S2048x2048.size a
  hwx0_0 : ∀ i : grid0.Coords, EltTy.bits .f32 = 32 ∨ (Rect.block (s := S2048x2048) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S2048x6144.size a
  hwx0_1 : ∀ i : grid0.Coords, EltTy.bits .f32 = 32 ∨ (Rect.block (s := S2048x6144) S2048x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S2048x6144.size a
  hwx0_2 : ∀ i : grid0.Coords, EltTy.bits .f32 = 32 ∨ (Rect.block (s := S2048x6144) S1024x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x64.size a ≤ S32x2048x64.size a
  hwx1_0 : ∀ i : grid1.Coords, EltTy.bits .f32 = 32 ∨ (Rect.block (s := S32x2048x64) S1x256x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x64.size a ≤ S32x2048x64.size a
  hwx1_1 : ∀ i : grid1.Coords, EltTy.bits .f32 = 32 ∨ (Rect.block (s := S32x2048x64) S1x2048x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x64.size a ≤ S32x2048x64.size a
  hwx1_2 : ∀ i : grid1.Coords, EltTy.bits .f32 = 32 ∨ (Rect.block (s := S32x2048x64) S1x2048x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256x2048.size a ≤ S32x2048x2048.size a
  hwx1_3 : ∀ i : grid1.Coords, EltTy.bits .f32 = 32 ∨ (Rect.block (s := S32x2048x2048) S1x256x2048.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x256x64.size a ≤ S32x2048x64.size a
  hwx1_4 : ∀ i : grid1.Coords, EltTy.bits .f32 = 32 ∨ (Rect.block (s := S32x2048x64) S1x256x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x2048.size a ≤ S2048x2048.size a
  hwx2_0 : ∀ i : grid2.Coords, EltTy.bits .f32 = 32 ∨ (Rect.block (s := S2048x2048) S1024x2048.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x1024.size a ≤ S2048x2048.size a
  hwx2_1 : ∀ i : grid2.Coords, EltTy.bits .f32 = 32 ∨ (Rect.block (s := S2048x2048) S2048x1024.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1024.size a ≤ S2048x2048.size a
  hwx2_2 : ∀ i : grid2.Coords, EltTy.bits .f32 = 32 ∨ (Rect.block (s := S2048x2048) S1024x1024.size (cc2_transform_2 i) (hinb2_2 i)).WholeWords (EltTy.packing .f32)

variable [Facts₀]

def dot_S1024x2048_S2048x1024_S1024x1024_1_0_0_1_n_n : DotDims S1024x2048 S2048x1024 S1024x1024 where
  lhsContracting := [1]
  rhsContracting := [0]
  lhsNonContracting := [0]
  rhsNonContracting := [1]
  lhsBatch := []
  rhsBatch := []
  wf := dot_S1024x2048_S2048x1024_S1024x1024_1_0_0_1_n_n_wf
def gather_S32x32_S2048x2048x1_S32x2048x2048_0_1_n_n_1_2_321 : GatherDims S32x32 S2048x2048x1 S32x2048x2048 where
  offsetDims := [0]
  collapsedSliceDims := [1]
  operandBatchingDims := []
  startIndicesBatchingDims := []
  startIndexMap := [1]
  indexVectorDim := 2
  sliceSizes := ![32, 1]
  wf := gather_S32x32_S2048x2048x1_S32x2048x2048_0_1_n_n_1_2_321_wf
def dot_S256x64_S2048x64_S256x2048_1_1_0_0_n_n : DotDims S256x64 S2048x64 S256x2048 where
  lhsContracting := [1]
  rhsContracting := [1]
  lhsNonContracting := [0]
  rhsNonContracting := [0]
  lhsBatch := []
  rhsBatch := []
  wf := dot_S256x64_S2048x64_S256x2048_1_1_0_0_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v6) S1x256x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S1x2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S1x2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v51) S1x256x2048.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v52) S1x256x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v54) S1024x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S2048x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v55) S1024x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S2048x2048 : Shape := ⟨2, ![2048, 2048]⟩
abbrev S32x32 : Shape := ⟨2, ![32, 32]⟩
abbrev S2048x32x64 : Shape := ⟨3, ![2048, 32, 64]⟩
abbrev S32x2048x64 : Shape := ⟨3, ![32, 2048, 64]⟩
abbrev S32x2048x2048 : Shape := ⟨3, ![32, 2048, 2048]⟩
abbrev S2048 : Shape := ⟨1, ![2048]⟩
abbrev S2048x1 : Shape := ⟨2, ![2048, 1]⟩
abbrev S1x2048 : Shape := ⟨2, ![1, 2048]⟩
abbrev S_ : Shape := ⟨0, ![]⟩
abbrev S2048x2048x1 : Shape := ⟨3, ![2048, 2048, 1]⟩
abbrev S2048x2048x32 : Shape := ⟨3, ![2048, 2048, 32]⟩
abbrev S32x2048 : Shape := ⟨2, ![32, 2048]⟩
abbrev S32x2048x1 : Shape := ⟨3, ![32, 2048, 1]⟩

abbrev nBuf : Space → Nat
  | .hbm => 87
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S32x32, .f32⟩
  | .hbm, ⟨6, _⟩ => ⟨S2048x2048, .f32⟩
  | .hbm, ⟨7, _⟩ => ⟨S2048x32x64, .f32⟩
  | .hbm, ⟨8, _⟩ => ⟨S32x2048x64, .f32⟩
  | .hbm, ⟨9, _⟩ => ⟨S2048x2048, .f32⟩
  | .hbm, ⟨10, _⟩ => ⟨S2048x32x64, .f32⟩
  | .hbm, ⟨11, _⟩ => ⟨S32x2048x64, .f32⟩
  | .hbm, ⟨12, _⟩ => ⟨S2048x2048, .f32⟩
  | .hbm, ⟨13, _⟩ => ⟨S2048x32x64, .f32⟩
  | .hbm, ⟨14, _⟩ => ⟨S32x2048x64, .f32⟩
  | .hbm, ⟨15, _⟩ => ⟨S32x2048x2048, .f32⟩
  | .hbm, ⟨16, _⟩ => ⟨S2048, .i32⟩
  | .hbm, ⟨17, _⟩ => ⟨S2048x1, .i32⟩
  | .hbm, ⟨18, _⟩ => ⟨S2048, .i32⟩
  | .hbm, ⟨19, _⟩ => ⟨S1x2048, .i32⟩
  | .hbm, ⟨20, _⟩ => ⟨S2048x2048, .i32⟩
  | .hbm, ⟨21, _⟩ => ⟨S2048x2048, .i32⟩
  | .hbm, ⟨22, _⟩ => ⟨S2048x2048, .i32⟩
  | .hbm, ⟨23, _⟩ => ⟨S2048x2048, .i32⟩
  | .hbm, ⟨24, _⟩ => ⟨S_, .i32⟩
  | .hbm, ⟨25, _⟩ => ⟨S2048x2048, .i32⟩
  | .hbm, ⟨26, _⟩ => ⟨S2048x2048, .i1⟩
  | .hbm, ⟨27, _⟩ => ⟨S2048x2048, .i32⟩
  | .hbm, ⟨28, _⟩ => ⟨S_, .i32⟩
  | .hbm, ⟨29, _⟩ => ⟨S2048x2048, .i32⟩
  | .hbm, ⟨30, _⟩ => ⟨S2048x2048, .i32⟩
  | .hbm, ⟨31, _⟩ => ⟨S2048x2048, .i32⟩
  | .hbm, ⟨32, _⟩ => ⟨S_, .i32⟩
  | .hbm, ⟨33, _⟩ => ⟨S2048x2048, .i32⟩
  | .hbm, ⟨34, _⟩ => ⟨S2048x2048, .i1⟩
  | .hbm, ⟨35, _⟩ => ⟨S_, .i32⟩
  | .hbm, ⟨36, _⟩ => ⟨S2048x2048, .i32⟩
  | .hbm, ⟨37, _⟩ => ⟨S2048x2048, .i32⟩
  | .hbm, ⟨38, _⟩ => ⟨S2048x2048, .f32⟩
  | .hbm, ⟨39, _⟩ => ⟨S_, .f32⟩
  | .hbm, ⟨40, _⟩ => ⟨S2048x2048, .f32⟩
  | .hbm, ⟨41, _⟩ => ⟨S2048x2048, .f32⟩
  | .hbm, ⟨42, _⟩ => ⟨S2048x2048, .f32⟩
  | .hbm, ⟨43, _⟩ => ⟨S_, .f32⟩
  | .hbm, ⟨44, _⟩ => ⟨S2048x2048, .f32⟩
  | .hbm, ⟨45, _⟩ => ⟨S2048x2048, .f32⟩
  | .hbm, ⟨46, _⟩ => ⟨S_, .f32⟩
  | .hbm, ⟨47, _⟩ => ⟨S2048x2048, .f32⟩
  | .hbm, ⟨48, _⟩ => ⟨S2048x2048, .f32⟩
  | .hbm, ⟨49, _⟩ => ⟨S2048x2048, .i32⟩
  | .hbm, ⟨50, _⟩ => ⟨S_, .i32⟩
  | .hbm, ⟨51, _⟩ => ⟨S2048x2048, .i32⟩
  | .hbm, ⟨52, _⟩ => ⟨S2048x2048, .i32⟩
  | .hbm, ⟨53, _⟩ => ⟨S_, .i32⟩
  | .hbm, ⟨54, _⟩ => ⟨S2048x2048, .i32⟩
  | .hbm, ⟨55, _⟩ => ⟨S2048x2048, .i32⟩
  | .hbm, ⟨56, _⟩ => ⟨S2048x2048, .i32⟩
  | .hbm, ⟨57, _⟩ => ⟨S2048x2048, .i32⟩
  | .hbm, ⟨58, _⟩ => ⟨S_, .i32⟩
  | .hbm, ⟨59, _⟩ => ⟨S2048x2048, .i32⟩
  | .hbm, ⟨60, _⟩ => ⟨S2048x2048, .i1⟩
  | .hbm, ⟨61, _⟩ => ⟨S_, .i32⟩
  | .hbm, ⟨62, _⟩ => ⟨S2048x2048, .i32⟩
  | .hbm, ⟨63, _⟩ => ⟨S2048x2048, .i32⟩
  | .hbm, ⟨64, _⟩ => ⟨S2048x2048, .i32⟩
  | .hbm, ⟨65, _⟩ => ⟨S2048x2048x1, .i32⟩
  | .hbm, ⟨66, _⟩ => ⟨S2048x2048x32, .f32⟩
  | .hbm, ⟨67, _⟩ => ⟨S32x2048x2048, .f32⟩
  | .hbm, ⟨68, _⟩ => ⟨S32x2048x2048, .f32⟩
  | .hbm, ⟨69, _⟩ => ⟨S_, .f32⟩
  | .hbm, ⟨70, _⟩ => ⟨S32x2048, .f32⟩
  | .hbm, ⟨71, _⟩ => ⟨S_, .f32⟩
  | .hbm, ⟨72, _⟩ => ⟨S32x2048, .f32⟩
  | .hbm, ⟨73, _⟩ => ⟨S32x2048, .f32⟩
  | .hbm, ⟨74, _⟩ => ⟨S32x2048x1, .f32⟩
  | .hbm, ⟨75, _⟩ => ⟨S32x2048x2048, .f32⟩
  | .hbm, ⟨76, _⟩ => ⟨S32x2048x2048, .f32⟩
  | .hbm, ⟨77, _⟩ => ⟨S32x2048x2048, .f32⟩
  | .hbm, ⟨78, _⟩ => ⟨S_, .f32⟩
  | .hbm, ⟨79, _⟩ => ⟨S32x2048, .f32⟩
  | .hbm, ⟨80, _⟩ => ⟨S32x2048x1, .f32⟩
  | .hbm, ⟨81, _⟩ => ⟨S32x2048x2048, .f32⟩
  | .hbm, ⟨82, _⟩ => ⟨S32x2048x2048, .f32⟩
  | .hbm, ⟨83, _⟩ => ⟨S32x2048x64, .f32⟩
  | .hbm, ⟨84, _⟩ => ⟨S2048x32x64, .f32⟩
  | .hbm, ⟨85, _⟩ => ⟨S2048x2048, .f32⟩
  | .hbm, ⟨86, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c_0 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_c_1 : Ref sig .tc := ⟨.hbm, 32, rfl⟩
abbrev main_v24 : Ref sig .tc := ⟨.hbm, 33, rfl⟩
abbrev main_v25 : Ref sig .tc := ⟨.hbm, 34, rfl⟩
abbrev main_c_2 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_3 : Ref sig .tc := ⟨.hbm, 43, rfl⟩
abbrev main_v32 : Ref sig .tc := ⟨.hbm, 44, rfl⟩
abbrev main_v33 : Ref sig .tc := ⟨.hbm, 45, rfl⟩
abbrev main_cst_4 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_c_5 : Ref sig .tc := ⟨.hbm, 50, rfl⟩
abbrev main_v37 : Ref sig .tc := ⟨.hbm, 51, rfl⟩
abbrev main_v38 : Ref sig .tc := ⟨.hbm, 52, rfl⟩
abbrev main_c_6 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_c_7 : Ref sig .tc := ⟨.hbm, 58, rfl⟩
abbrev main_v43 : Ref sig .tc := ⟨.hbm, 59, rfl⟩
abbrev main_v44 : Ref sig .tc := ⟨.hbm, 60, rfl⟩
abbrev main_c_8 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_9 : Ref sig .tc := ⟨.hbm, 69, rfl⟩
abbrev main_v52 : Ref sig .tc := ⟨.hbm, 70, rfl⟩
abbrev main_cst_10 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_11 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩

abbrev nD : Nat := 1
abbrev τ : Topo := Topo.v7x

variable {F : FTy → Type} [FloatOps F]

class Facts₀ : Prop where
  shapeCasts_S2048x2048_S2048x32x64 : S2048x2048.ShapeCasts S2048x32x64
  transposes_S2048x32x64_S32x2048x64_1_0_2 : S2048x32x64.Transposes [1, 0, 2] S32x2048x64
  bcast_S2048_S2048x1_0 : S2048.BroadcastsInDim S2048x1 (![0] : Fin 1 → Fin S2048x1.rank)
  bcast_S2048_S1x2048_1 : S2048.BroadcastsInDim S1x2048 (![1] : Fin 1 → Fin S1x2048.rank)
  bcast_S1x2048_S2048x2048_0_1 : S1x2048.BroadcastsInDim S2048x2048 (![0, 1] : Fin 2 → Fin S2048x2048.rank)
  bcast_S2048x1_S2048x2048_0_1 : S2048x1.BroadcastsInDim S2048x2048 (![0, 1] : Fin 2 → Fin S2048x2048.rank)
  bcast_S_S2048x2048 : S_.BroadcastsInDim S2048x2048 (![] : Fin 0 → Fin S2048x2048.rank)
  natLt_1_32 : 1 < 32
  bcast_S2048x2048_S2048x2048x1_0_1 : S2048x2048.BroadcastsInDim S2048x2048x1 (![0, 1] : Fin 2 → Fin S2048x2048x1.rank)
  transposes_S2048x2048x32_S32x2048x2048_2_0_1 : S2048x2048x32.Transposes [2, 0, 1] S32x2048x2048
  reducesTo_S32x2048x2048_S32x2048_d2 : S32x2048x2048.ReducesTo [2] S32x2048
  h_S_ : 0 < S_.numel
  bcast_S_S32x2048 : S_.BroadcastsInDim S32x2048 (![] : Fin 0 → Fin S32x2048.rank)
  bcast_S32x2048_S32x2048x1_0_1 : S32x2048.BroadcastsInDim S32x2048x1 (![0, 1] : Fin 2 → Fin S32x2048x1.rank)
  bcast_S32x2048x1_S32x2048x2048_0_1_2 : S32x2048x1.BroadcastsInDim S32x2048x2048 (![0, 1, 2] : Fin 3 → Fin S32x2048x2048.rank)
  transposes_S32x2048x64_S2048x32x64_1_0_2 : S32x2048x64.Transposes [1, 0, 2] S2048x32x64
  shapeCasts_S2048x32x64_S2048x2048 : S2048x32x64.ShapeCasts S2048x2048
  dot_S2048x2048_S2048x2048_S2048x2048_1_0_0_1_n_n_wf : DotDims.WF S2048x2048 S2048x2048 S2048x2048 [1] [0] [0] [1] [] []
  dot_S32x2048x64_S32x2048x64_S32x2048x2048_2_2_1_1_0_0_wf : DotDims.WF S32x2048x64 S32x2048x64 S32x2048x2048 [2] [2] [1] [1] [0] [0]
  gather_S32x32_S2048x2048x1_S2048x2048x32_2_0_n_n_0_2_132_wf : GatherDims.WF S32x32 S2048x2048x1 S2048x2048x32 [2] [0] [] [0] [] 2 ![1, 32]
  dot_S32x2048x2048_S32x2048x64_S32x2048x64_2_1_1_2_0_0_wf : DotDims.WF S32x2048x2048 S32x2048x64 S32x2048x64 [2] [1] [1] [2] [0] [0]

variable [Facts₀]

def dot_S2048x2048_S2048x2048_S2048x2048_1_0_0_1_n_n : DotDims S2048x2048 S2048x2048 S2048x2048 where
  lhsContracting := [1]
  rhsContracting := [0]
  lhsNonContracting := [0]
  rhsNonContracting := [1]
  lhsBatch := []
  rhsBatch := []
  wf := dot_S2048x2048_S2048x2048_S2048x2048_1_0_0_1_n_n_wf
def dot_S32x2048x64_S32x2048x64_S32x2048x2048_2_2_1_1_0_0 : DotDims S32x2048x64 S32x2048x64 S32x2048x2048 where
  lhsContracting := [2]
  rhsContracting := [2]
  lhsNonContracting := [1]
  rhsNonContracting := [1]
  lhsBatch := [0]
  rhsBatch := [0]
  wf := dot_S32x2048x64_S32x2048x64_S32x2048x2048_2_2_1_1_0_0_wf
def gather_S32x32_S2048x2048x1_S2048x2048x32_2_0_n_n_0_2_132 : GatherDims S32x32 S2048x2048x1 S2048x2048x32 where
  offsetDims := [2]
  collapsedSliceDims := [0]
  operandBatchingDims := []
  startIndicesBatchingDims := []
  startIndexMap := [0]
  indexVectorDim := 2
  sliceSizes := ![1, 32]
  wf := gather_S32x32_S2048x2048x1_S2048x2048x32_2_0_n_n_0_2_132_wf
def dot_S32x2048x2048_S32x2048x64_S32x2048x64_2_1_1_2_0_0 : DotDims S32x2048x2048 S32x2048x64 S32x2048x64 where
  lhsContracting := [2]
  rhsContracting := [1]
  lhsNonContracting := [1]
  rhsNonContracting := [2]
  lhsBatch := [0]
  rhsBatch := [0]
  wf := dot_S32x2048x2048_S32x2048x64_S32x2048x64_2_1_1_2_0_0_wf

class Facts : Prop extends Facts₀ where

variable [Facts]
-- ==== Proof.KB.Data.lean ====
/-
  What each of the three launches of `Kernel` leaves behind, point by point, stated at an ARBITRARY valuation `V` of the
  unscoped buffers at the moment the launch is entered.

  * launch 0 — the fused projection: a 2 × 6 grid; point (i, j) multiplies rows 1024·i … of the activations (window 0) by
    columns 1024·j … of the concatenated weights (window 1) and stores the 1024 × 1024 product as block (i, j) of the
    2048 × 6144 result (window 2);
  * launch 1 — attention, a 32 × 8 grid over (head, query tile): from the query tile (window 0), the head's keys and values
    (windows 1, 2) and the bias tile (window 3) it stores the tile's softmax-weighted values (window 4);
  * launch 2 — the output projection: a 2 × 2 grid of 1024 × 1024 products.

  Each body stores ONE value through the rectangle that is the whole staging buffer, so the buffer afterwards is the canonical
  read-back of that single piece. The proof data of a launch name: the arrays as the launch finds them, each input window's
  buffer at its block after every point, the output window's buffer at the body's product of the input blocks.
-/
import proofs.«125511_j29764123361587_2_alg».proof.Proof.Gen.Kernel.Launch
import proofs.«125511_j29764123361587_2_alg».proof.Proof.Gen.Kernel.Skeleton
import proofs.«125511_j29764123361587_2_alg».proof.Proof.Gen.Kernel.Points
import Idealize.ShloMosaic.Lib.Pipeline.FrameBody
import Idealize.ShloMosaic.Lib.Pipeline.Frame

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat)
open Cert.Kernel Cert.Kernel.Gen

variable {F : FTy → Type} [FloatOps F]
variable (V : (c : Dev nD) → (b : Ref sig .tc) → Buf (Elt F) ((c : Thread nD τ).loc b))

/-! ## The whole-buffer rectangles the bodies load and store through -/

abbrev rA : Rect S1024x2048 := Rect.unit (s := S1024x2048) ![0, 0] S1024x2048.size inb_S1024x2048_S1024x2048_0_0
abbrev rB : Rect S2048x1024 := Rect.unit (s := S2048x1024) ![0, 0] S2048x1024.size inb_S2048x1024_S2048x1024_0_0
abbrev rC : Rect S1024x1024 := Rect.unit (s := S1024x1024) ![0, 0] S1024x1024.size inb_S1024x1024_S1024x1024_0_0
abbrev rQ : Rect S1x256x64 := Rect.unit (s := S1x256x64) ![0, 0, 0] S1x256x64.size inb_S1x256x64_S1x256x64_0_0_0
abbrev rK : Rect S1x2048x64 := Rect.unit (s := S1x2048x64) ![0, 0, 0] S1x2048x64.size inb_S1x2048x64_S1x2048x64_0_0_0
abbrev rS : Rect S1x256x2048 := Rect.unit (s := S1x256x2048) ![0, 0, 0] S1x256x2048.size inb_S1x256x2048_S1x256x2048_0_0_0

/-! ## Launch 0: the fused projection -/

/-- Window `w`'s block at point `t` of launch 0, cut out of its array as the launch finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The output buffer of launch 0 after the body: the one stored piece, the product of the two loaded blocks. -/
def prod0 (x0 : Vec F S1024x2048 .f32) (x1 : Vec F S2048x1024 .f32) : Vec F S1024x1024 .f32 :=
  View.canon [⟨rC, k0_pay1 (View.ld x0 rA) (View.ld x1 rB)⟩]

/-- The proof data of launch 0 on core `c`. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => prod0 (blk0 V c 0 t) (blk0 V c 1 t)
  Φ _ := Pipeline.ΦA spec0 c
  q _ := fullShare
  owed _ := 0

theorem dat0_A (c : Dev nD) (w : Fin cfg0.W) : (dat0 V c).A w = V c (Pipeline.arrRef spec0 w) := by dsimp only [dat0]
theorem dat0_after0 (c : Dev nD) (t : Fin cfg0.N) : (dat0 V c).after 0 t = blk0 V c 0 t := by dsimp only [dat0]
theorem dat0_after1 (c : Dev nD) (t : Fin cfg0.N) : (dat0 V c).after 1 t = blk0 V c 1 t := by dsimp only [dat0]
theorem dat0_after2 (c : Dev nD) (t : Fin cfg0.N) : (dat0 V c).after 2 t = prod0 (blk0 V c 0 t) (blk0 V c 1 t) := by dsimp only [dat0]

/-! ## Launch 1: attention -/

/-- Window `w`'s block at point `t` of launch 1. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The output buffer of launch 1 after the body: the tile's attention output, from the query tile, the head's keys and
    values, and the bias tile. -/
def attn1 (x0 : Vec F S1x256x64 .f32) (x1 x2 : Vec F S1x2048x64 .f32) (x3 : Vec F S1x256x2048 .f32) : Vec F S1x256x64 .f32 :=
  View.canon [⟨rQ, k1_pay1 (View.ld x0 rQ) (View.ld x1 rK) (View.ld x2 rK) (View.ld x3 rS)⟩]

/-- The proof data of launch 1 on core `c`. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => attn1 (blk1 V c 0 t) (blk1 V c 1 t) (blk1 V c 2 t) (blk1 V c 3 t)
  Φ _ := Pipeline.ΦA spec1 c
  q _ := fullShare
  owed _ := 0

theorem dat1_A (c : Dev nD) (w : Fin cfg1.W) : (dat1 V c).A w = V c (Pipeline.arrRef spec1 w) := by dsimp only [dat1]
theorem dat1_after0 (c : Dev nD) (t : Fin cfg1.N) : (dat1 V c).after 0 t = blk1 V c 0 t := by dsimp only [dat1]
theorem dat1_after1 (c : Dev nD) (t : Fin cfg1.N) : (dat1 V c).after 1 t = blk1 V c 1 t := by dsimp only [dat1]
theorem dat1_after2 (c : Dev nD) (t : Fin cfg1.N) : (dat1 V c).after 2 t = blk1 V c 2 t := by dsimp only [dat1]
theorem dat1_after3 (c : Dev nD) (t : Fin cfg1.N) : (dat1 V c).after 3 t = blk1 V c 3 t := by dsimp only [dat1]
theorem dat1_after4 (c : Dev nD) (t : Fin cfg1.N) :
    (dat1 V c).after 4 t = attn1 (blk1 V c 0 t) (blk1 V c 1 t) (blk1 V c 2 t) (blk1 V c 3 t) := by dsimp only [dat1]

/-! ## Launch 2: the output projection -/

/-- Window `w`'s block at point `t` of launch 2. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The output buffer of launch 2 after the body. -/
def prod2 (x0 : Vec F S1024x2048 .f32) (x1 : Vec F S2048x1024 .f32) : Vec F S1024x1024 .f32 :=
  View.canon [⟨rC, k2_pay1 (View.ld x0 rA) (View.ld x1 rB)⟩]

/-- The proof data of launch 2 on core `c`. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => prod2 (blk2 V c 0 t) (blk2 V c 1 t)
  Φ _ := Pipeline.ΦA spec2 c
  q _ := fullShare
  owed _ := 0

theorem dat2_A (c : Dev nD) (w : Fin cfg2.W) : (dat2 V c).A w = V c (Pipeline.arrRef spec2 w) := by dsimp only [dat2]
theorem dat2_after0 (c : Dev nD) (t : Fin cfg2.N) : (dat2 V c).after 0 t = blk2 V c 0 t := by dsimp only [dat2]
theorem dat2_after1 (c : Dev nD) (t : Fin cfg2.N) : (dat2 V c).after 1 t = blk2 V c 1 t := by dsimp only [dat2]
theorem dat2_after2 (c : Dev nD) (t : Fin cfg2.N) : (dat2 V c).after 2 t = prod2 (blk2 V c 0 t) (blk2 V c 1 t) := by dsimp only [dat2]

end Cert.Kernel.Hand

end
-- ==== Proof.KB.Fold.lean ====
/-
  The contents of the unscoped buffers at every boundary of `Kernel`'s @main, as a fold from the launch memory: a stretch of
  host operations applies them in order; a launch leaves each of its windows' arrays at what its write-backs add up to (an input
  window's array as found) and every other buffer as it was.
-/
import proofs.«125511_j29764123361587_2_alg».proof.Proof.KB.Data
import Idealize.ShloMosaic.Lib.Pipeline.FrameSuffix
import Idealize.ShloMosaic.Lib.StableHlo.Run

noncomputable section

namespace Cert.Kernel.Hand

open Idealize.ShloMosaic Idealize.ShloMosaic.TcCoe
open Idealize.SL Idealize.SL.Sem
open Cert.Kernel Cert.Kernel.Gen

variable {F : FTy → Type} [FloatOps F]
variable (m : (ℓ : Loc nD τ sig) → Buf (Elt F) ℓ)

/-- At launch. -/
abbrev W0 : Dev nD → Valuation τ sig (Elt F) := fun c b => m (c, b)
/-- After the concatenation of the three projection weights: launch 0 is entered here. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After launch 0 (the fused projection). -/
def W2 (c : Dev nD) : Valuation τ sig (Elt F) :=
  Pipeline.withArrays spec0 c (W1 m c) fun w => (dat0 (V1 m) c).arrAt w cfg0.N
/-- After the slices, the head re-readings and the bias table's index arithmetic. -/
abbrev W3 : Dev nD → Valuation τ sig (Elt F) := fun c => StableHlo.after hostOps1 (W2 m c)
abbrev W4 : Dev nD → Valuation τ sig (Elt F) := fun c => StableHlo.after hostOps1_1 (W3 m c)
/-- After the bias gather: launch 1 is entered here. -/
abbrev W5 : Dev nD → Valuation τ sig (Elt F) := fun c => StableHlo.after hostOps1_2 (W4 m c)
abbrev V5 : (c : Dev nD) → (b : Ref sig .tc) → Buf (Elt F) ((c : Thread nD τ).loc b) := fun c b => W5 m c b
/-- After launch 1 (attention). -/
def W6 (c : Dev nD) : Valuation τ sig (Elt F) :=
  Pipeline.withArrays spec1 c (W5 m c) fun w => (dat1 (V5 m) c).arrAt w cfg1.N
/-- After the heads are merged back: launch 2 is entered here. -/
abbrev W7 : Dev nD → Valuation τ sig (Elt F) := fun c => StableHlo.after hostOps2 (W6 m c)
abbrev V7 : (c : Dev nD) → (b : Ref sig .tc) → Buf (Elt F) ((c : Thread nD τ).loc b) := fun c b => W7 m c b
/-- After launch 2 (the output projection): the program's end. -/
def W8 (c : Dev nD) : Valuation τ sig (Elt F) :=
  Pipeline.withArrays spec2 c (W7 m c) fun w => (dat2 (V7 m) c).arrAt w cfg2.N

abbrev V2 : (c : Dev nD) → (b : Ref sig .tc) → Buf (Elt F) ((c : Thread nD τ).loc b) := fun c b => W2 m c b
abbrev V6 : (c : Dev nD) → (b : Ref sig .tc) → Buf (Elt F) ((c : Thread nD τ).loc b) := fun c b => W6 m c b
abbrev V8 : (c : Dev nD) → (b : Ref sig .tc) → Buf (Elt F) ((c : Thread nD τ).loc b) := fun c b => W8 m c b

theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W6_arr (c : Dev nD) (w : Fin cfg1.W) :
    W6 m c (Proc.devRef .tc (Pipeline.arrRef spec1 w)) = (dat1 (V5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
theorem W8_arr (c : Dev nD) (w : Fin cfg2.W) :
    W8 m c (Proc.devRef .tc (Pipeline.arrRef spec2 w)) = (dat2 (V7 m) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m c (Proc.devRef .tc b) = W7 m c (Proc.devRef .tc b) := by
  unfold W8; exact Pipeline.withArrays_of_ne spec2 c _ _ b hb

end Cert.Kernel.Hand

end
-- ==== Proof.KB.Body0.lean ====
/-
  Launch 0 (the fused projection), at an arbitrary entry valuation `V`: what the body is handed and what it leaves.

  * An input window's current staging buffer holds the window's block at every grid point, whether or not the pipeline
    fetched at that point: where it did not fetch, the block index has not moved since the last fetch.
  * The body, run on whole staging buffers holding `x0`, `x1` and anything in the output's, terminates without fault,
    leaves the inputs as they were and the output buffer at `prod0 x0 x1`: it loads the two inputs (and, unused, the
    output buffer), and stores one value through the rectangle that is the whole output buffer.
  * Hence the pipeline's body obligation for the proof data `dat0 V c`.
-/
import proofs.«125511_j29764123361587_2_alg».proof.Proof.KB.Data
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' buffers -/

/-- Input window 0 (a row block of the activations): its current buffer holds its block at every point. -/
theorem before0_0 (c : Dev nD) (t : Fin cfg0.N) (d) : (dat0 V c).before 0 t d = blk0 V c 0 t :=
  ((dat0 V c).before_in_eq_fetched 0 rfl (fun _ => rfl) (fun _ _ _ => rfl)
      (fun t => by rw [dat0_after0]; unfold Dat.blockOf blk0; rw [dat0_A]; try rfl) t d).trans
    (by unfold Dat.fetched Dat.blockOf blk0; rw [dat0_A]; try rfl)

/-- Input window 1 (a column block of the concatenated weights): likewise. -/
theorem before0_1 (c : Dev nD) (t : Fin cfg0.N) (d) : (dat0 V c).before 1 t d = blk0 V c 1 t :=
  ((dat0 V c).before_in_eq_fetched 1 rfl (fun _ => rfl) (fun _ _ _ => rfl)
      (fun t => by rw [dat0_after1]; unfold Dat.blockOf blk0; rw [dat0_A]; try rfl) t d).trans
    (by unfold Dat.fetched Dat.blockOf blk0; rw [dat0_A]; try rfl)

/-! ## The body's triple -/

/-- The one stored piece's rectangle is the whole output buffer, so it covers every index. -/
theorem cover0 (p0 : Vec F S1024x1024 .f32) (y : S1024x1024.Idx) :
    ∃ pc ∈ ([⟨rC, p0⟩] : List (View.Piece (Elt F) S1024x1024 .f32)), y ∈ pc.1.set :=
  View.cover_of_tiled [⟨rC, p0⟩] S1024x1024.size (by rfl) y

set_option maxHeartbeats 1000000 in
/-- The body on whole staging buffers: inputs at `x0`, `x1`, the output's at anything; it ends with the inputs unchanged
    and the output buffer at `prod0 x0 x1`. -/
theorem sound_kernel0 (c : Dev nD) (E : Set ℕ) (i : grid0.Coords)
    (arg2 : Memref sig .tc .vmem S1024x2048 .f32) (harg2 : arg2.IsWhole)
    (arg3 : Memref sig .tc .vmem S2048x1024 .f32) (harg3 : arg3.IsWhole)
    (arg4 : Memref sig .tc .vmem S1024x1024 .f32) (harg4 : arg4.IsWhole)
    (x0 : Vec F S1024x2048 .f32) (x1 : Vec F S2048x1024 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (prod0 x0 x1)) -∗ K ⟨⟩))
      ⊢ wp frame (wpE (defs₀ (F := F)) Variants.none c none) E (cc0__matmul_kernel i arg2 harg2 arg3 harg3 arg4 harg4) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0 _)

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the triple applies; the invariant and what the core
    owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    dat0_after0, dat0_after1, dat0_after2]
  iintro ⟨HΦ, Ho, ⟨%d0, H0⟩, ⟨%d1, H1⟩, ⟨%d2, H2⟩⟩
  iapply (sound_kernel0 c Set.univ _ _ _ _ _ _ _ (blk0 V c 0 t) (blk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation for launch 0, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KB.Body1.lean ====
/-
  Launch 1 (attention, one (head, query tile) per grid point), at an arbitrary entry valuation `V`: what the body is
  handed and what it leaves.

  * Each of the four input windows (the query tile, the head's keys, the head's values, the bias tile) has its block in
    its current staging buffer at every grid point, whether or not the pipeline fetched there: unfetched, the block index
    has not moved since the last fetch (the keys and values move only when the head changes).
  * The body, run on whole staging buffers holding `x0 … x3` and anything in the output's, terminates without fault,
    leaves the inputs as they were and the output buffer at `attn1 x0 x1 x2 x3`: it loads the four inputs (and, unused, the
    output buffer), and stores one value through the rectangle that is the whole output buffer.
  * Hence the pipeline's body obligation for the proof data `dat1 V c`.
-/
import proofs.«125511_j29764123361587_2_alg».proof.Proof.KB.Data
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' buffers -/

/-- Input window 0 (the query tile): its current buffer holds its block at every point. -/
theorem before1_0 (c : Dev nD) (t : Fin cfg1.N) (d) : (dat1 V c).before 0 t d = blk1 V c 0 t :=
  ((dat1 V c).before_in_eq_fetched 0 rfl (fun _ => rfl) (fun _ _ _ => rfl)
      (fun t => by rw [dat1_after0]; unfold Dat.blockOf blk1; rw [dat1_A]; try rfl) t d).trans
    (by unfold Dat.fetched Dat.blockOf blk1; rw [dat1_A]; try rfl)

/-- Input window 1 (the head's keys): likewise. -/
theorem before1_1 (c : Dev nD) (t : Fin cfg1.N) (d) : (dat1 V c).before 1 t d = blk1 V c 1 t :=
  ((dat1 V c).before_in_eq_fetched 1 rfl (fun _ => rfl) (fun _ _ _ => rfl)
      (fun t => by rw [dat1_after1]; unfold Dat.blockOf blk1; rw [dat1_A]; try rfl) t d).trans
    (by unfold Dat.fetched Dat.blockOf blk1; rw [dat1_A]; try rfl)

/-- Input window 2 (the head's values): likewise. -/
theorem before1_2 (c : Dev nD) (t : Fin cfg1.N) (d) : (dat1 V c).before 2 t d = blk1 V c 2 t :=
  ((dat1 V c).before_in_eq_fetched 2 rfl (fun _ => rfl) (fun _ _ _ => rfl)
      (fun t => by rw [dat1_after2]; unfold Dat.blockOf blk1; rw [dat1_A]; try rfl) t d).trans
    (by unfold Dat.fetched Dat.blockOf blk1; rw [dat1_A]; try rfl)

/-- Input window 3 (the bias tile): likewise. -/
theorem before1_3 (c : Dev nD) (t : Fin cfg1.N) (d) : (dat1 V c).before 3 t d = blk1 V c 3 t :=
  ((dat1 V c).before_in_eq_fetched 3 rfl (fun _ => rfl) (fun _ _ _ => rfl)
      (fun t => by rw [dat1_after3]; unfold Dat.blockOf blk1; rw [dat1_A]; try rfl) t d).trans
    (by unfold Dat.fetched Dat.blockOf blk1; rw [dat1_A]; try rfl)

/-! ## The body's triple -/

/-- The one stored piece's rectangle is the whole output buffer, so it covers every index. -/
theorem cover1 (p0 : Vec F S1x256x64 .f32) (y : S1x256x64.Idx) :
    ∃ pc ∈ ([⟨rQ, p0⟩] : List (View.Piece (Elt F) S1x256x64 .f32)), y ∈ pc.1.set :=
  View.cover_of_tiled [⟨rQ, p0⟩] S1x256x64.size (by rfl) y

set_option maxHeartbeats 1000000 in
/-- The body on whole staging buffers: inputs at `x0 … x3`, the output's at anything; it ends with the inputs unchanged
    and the output buffer at `attn1 x0 x1 x2 x3`. -/
theorem sound_kernel1 (c : Dev nD) (E : Set ℕ) (i : grid1.Coords)
    (arg2 : Memref sig .tc .vmem S1x256x64 .f32) (harg2 : arg2.IsWhole)
    (arg3 : Memref sig .tc .vmem S1x2048x64 .f32) (harg3 : arg3.IsWhole)
    (arg4 : Memref sig .tc .vmem S1x2048x64 .f32) (harg4 : arg4.IsWhole)
    (arg5 : Memref sig .tc .vmem S1x256x2048 .f32) (harg5 : arg5.IsWhole)
    (arg6 : Memref sig .tc .vmem S1x256x64 .f32) (harg6 : arg6.IsWhole)
    (x0 : Vec F S1x256x64 .f32) (x1 x2 : Vec F S1x2048x64 .f32) (x3 : Vec F S1x256x2048 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (attn1 x0 x1 x2 x3)) -∗ K ⟨⟩))
      ⊢ wp frame (wpE (defs₀ (F := F)) Variants.none c none) E (cc1__attn_kernel i arg2 harg2 arg3 harg3 arg4 harg4 arg5 harg5 arg6 harg6) K := by
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1 _)

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' buffers hold their blocks, so the triple applies; the invariant and what the core
    owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    dat1_after0, dat1_after1, dat1_after2, dat1_after3, dat1_after4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (blk1 V c 0 t) (blk1 V c 1 t) (blk1 V c 2 t) (blk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation for launch 1, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KB.Body2.lean ====
/-
  Launch 2 (the output projection), at an arbitrary entry valuation `V`: what the body is handed and what it leaves.

  * An input window's current staging buffer holds the window's block at every grid point, whether or not the pipeline
    fetched at that point: where it did not fetch, the block index has not moved since the last fetch.
  * The body, run on whole staging buffers holding `x0`, `x1` and anything in the output's, terminates without fault,
    leaves the inputs as they were and the output buffer at `prod2 x0 x1`: it loads the two inputs (and, unused, the
    output buffer), and stores one value through the rectangle that is the whole output buffer.
  * Hence the pipeline's body obligation for the proof data `dat2 V c`.
-/
import proofs.«125511_j29764123361587_2_alg».proof.Proof.KB.Data
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' buffers -/

/-- Input window 0 (a row block of the merged attention output): its current buffer holds its block at every point. -/
theorem before2_0 (c : Dev nD) (t : Fin cfg2.N) (d) : (dat2 V c).before 0 t d = blk2 V c 0 t :=
  ((dat2 V c).before_in_eq_fetched 0 rfl (fun _ => rfl) (fun _ _ _ => rfl)
      (fun t => by rw [dat2_after0]; unfold Dat.blockOf blk2; rw [dat2_A]; try rfl) t d).trans
    (by unfold Dat.fetched Dat.blockOf blk2; rw [dat2_A]; try rfl)

/-- Input window 1 (a column block of the output weights): likewise. -/
theorem before2_1 (c : Dev nD) (t : Fin cfg2.N) (d) : (dat2 V c).before 1 t d = blk2 V c 1 t :=
  ((dat2 V c).before_in_eq_fetched 1 rfl (fun _ => rfl) (fun _ _ _ => rfl)
      (fun t => by rw [dat2_after1]; unfold Dat.blockOf blk2; rw [dat2_A]; try rfl) t d).trans
    (by unfold Dat.fetched Dat.blockOf blk2; rw [dat2_A]; try rfl)

/-! ## The body's triple -/

/-- The one stored piece's rectangle is the whole output buffer, so it covers every index. -/
theorem cover2 (p0 : Vec F S1024x1024 .f32) (y : S1024x1024.Idx) :
    ∃ pc ∈ ([⟨rC, p0⟩] : List (View.Piece (Elt F) S1024x1024 .f32)), y ∈ pc.1.set :=
  View.cover_of_tiled [⟨rC, p0⟩] S1024x1024.size (by rfl) y

set_option maxHeartbeats 1000000 in
/-- The body on whole staging buffers: inputs at `x0`, `x1`, the output's at anything; it ends with the inputs unchanged
    and the output buffer at `prod2 x0 x1`. -/
theorem sound_kernel2 (c : Dev nD) (E : Set ℕ) (i : grid2.Coords)
    (arg2 : Memref sig .tc .vmem S1024x2048 .f32) (harg2 : arg2.IsWhole)
    (arg3 : Memref sig .tc .vmem S2048x1024 .f32) (harg3 : arg3.IsWhole)
    (arg4 : Memref sig .tc .vmem S1024x1024 .f32) (harg4 : arg4.IsWhole)
    (x0 : Vec F S1024x2048 .f32) (x1 : Vec F S2048x1024 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (prod2 x0 x1)) -∗ K ⟨⟩))
      ⊢ wp frame (wpE (defs₀ (F := F)) Variants.none c none) E (cc2__matmul_kernel i arg2 harg2 arg3 harg3 arg4 harg4) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2 _)

/-! ## The body obligation -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, so the triple applies; the invariant and what the core
    owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    dat2_after0, dat2_after1, dat2_after2]
  iintro ⟨HΦ, Ho, ⟨%d0, H0⟩, ⟨%d1, H1⟩, ⟨%d2, H2⟩⟩
  iapply (sound_kernel2 c Set.univ _ _ _ _ _ _ _ (blk2 V c 0 t) (blk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation for launch 2, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KB.Run.lean ====
/-
  The whole program runs: @main of `Kernel` — five stretches of host operations around three kernel launches —
  terminates without fault from any memory with zero semaphore counters, and every unscoped buffer of every core ends at
  the last valuation `W8` of the fold through @main.

  Between two items a core holds every unscoped buffer, whole, at that boundary's valuation, beside its generator register
  at some state and owing nothing. A host stretch takes the buffers from a valuation to the stretch applied to it. A launch
  splits its windows' arrays out of the unscoped buffers, runs its pipeline on the proof data stated at the entry valuation
  (the body obligation of that launch), and puts the arrays back at what the write-backs leave, every other buffer as found;
  the generator register goes into the pipeline's invariant and comes back.

  No host operation and no launch writes an argument array (a launch reads one through an input window, whose array it
  leaves as found), so the fold at an argument's buffer walks back to the launch memory: the frame claim.
-/
import proofs.«125511_j29764123361587_2_alg».proof.Proof.KB.Fold
import proofs.«125511_j29764123361587_2_alg».proof.Proof.KB.Body0
import proofs.«125511_j29764123361587_2_alg».proof.Proof.KB.Body1
import proofs.«125511_j29764123361587_2_alg».proof.Proof.KB.Body2
import proofs.«125511_j29764123361587_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## A launch's exit valuation: its arrays at what the pipeline leaves, every other buffer as entered -/

theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
theorem hF1 (c : Dev nD) (w : Fin cfg1.W) : (dat1 (V5 m) c).arrAt w cfg1.N = V6 m c (Pipeline.arrRef spec1 w) :=
  (W6_arr m c w).symm
theorem hrest1 (c : Dev nD) : ∀ b, b ∉ Finset.univ.image (Pipeline.arrRef spec1) → V6 m c b = V5 m c b :=
  fun b hb => W6_of_ne m c b fun w e => hb (Finset.mem_image.mpr ⟨w, Finset.mem_univ _, e⟩)
theorem hF2 (c : Dev nD) (w : Fin cfg2.W) : (dat2 (V7 m) c).arrAt w cfg2.N = V8 m c (Pipeline.arrRef spec2 w) :=
  (W8_arr m c w).symm
theorem hrest2 (c : Dev nD) : ∀ b, b ∉ Finset.univ.image (Pipeline.arrRef spec2) → V8 m c b = V7 m c b :=
  fun b hb => W8_of_ne m c b fun w e => hb (Finset.mem_image.mpr ⟨w, Finset.mem_univ _, e⟩)

/-! ## The arguments end as launched -/

theorem W8_main_arg0 (c : Dev nD) : W8 m c (Proc.devRef .tc main_arg0) = m ((c : Thread nD τ).loc main_arg0) :=
  calc W8 m c (Proc.devRef .tc main_arg0)
    _ = W7 m c (Proc.devRef .tc main_arg0) := W8_of_ne m c main_arg0 (by decide)
    _ = W6 m c (Proc.devRef .tc main_arg0) := StableHlo.after_of_writes_sub hostOps2 _ hostOps2_writes (by decide)
    _ = W5 m c (Proc.devRef .tc main_arg0) := W6_of_ne m c main_arg0 (by decide)
    _ = W4 m c (Proc.devRef .tc main_arg0) := StableHlo.after_of_writes_sub hostOps1_2 _ hostOps1_2_writes (by decide)
    _ = W3 m c (Proc.devRef .tc main_arg0) := StableHlo.after_of_writes_sub hostOps1_1 _ hostOps1_1_writes (by decide)
    _ = W2 m c (Proc.devRef .tc main_arg0) := StableHlo.after_of_writes_sub hostOps1 _ hostOps1_writes (by decide)
    _ = W1 m c (Proc.devRef .tc main_arg0) := (W2_arr m c 0).trans (((dat0 (V1 m) c).arrAt_in 0 rfl _).trans (dat0_A (V1 m) c 0))
    _ = W0 m c (Proc.devRef .tc main_arg0) := StableHlo.after_of_writes_sub hostOps0 _ hostOps0_writes (by decide)
    _ = m ((c : Thread nD τ).loc main_arg0) := rfl

theorem W8_main_arg1 (c : Dev nD) : W8 m c (Proc.devRef .tc main_arg1) = m ((c : Thread nD τ).loc main_arg1) :=
  calc W8 m c (Proc.devRef .tc main_arg1)
    _ = W7 m c (Proc.devRef .tc main_arg1) := W8_of_ne m c main_arg1 (by decide)
    _ = W6 m c (Proc.devRef .tc main_arg1) := StableHlo.after_of_writes_sub hostOps2 _ hostOps2_writes (by decide)
    _ = W5 m c (Proc.devRef .tc main_arg1) := W6_of_ne m c main_arg1 (by decide)
    _ = W4 m c (Proc.devRef .tc main_arg1) := StableHlo.after_of_writes_sub hostOps1_2 _ hostOps1_2_writes (by decide)
    _ = W3 m c (Proc.devRef .tc main_arg1) := StableHlo.after_of_writes_sub hostOps1_1 _ hostOps1_1_writes (by decide)
    _ = W2 m c (Proc.devRef .tc main_arg1) := StableHlo.after_of_writes_sub hostOps1 _ hostOps1_writes (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl

theorem W8_main_arg2 (c : Dev nD) : W8 m c (Proc.devRef .tc main_arg2) = m ((c : Thread nD τ).loc main_arg2) :=
  calc W8 m c (Proc.devRef .tc main_arg2)
    _ = W7 m c (Proc.devRef .tc main_arg2) := W8_of_ne m c main_arg2 (by decide)
    _ = W6 m c (Proc.devRef .tc main_arg2) := StableHlo.after_of_writes_sub hostOps2 _ hostOps2_writes (by decide)
    _ = W5 m c (Proc.devRef .tc main_arg2) := W6_of_ne m c main_arg2 (by decide)
    _ = W4 m c (Proc.devRef .tc main_arg2) := StableHlo.after_of_writes_sub hostOps1_2 _ hostOps1_2_writes (by decide)
    _ = W3 m c (Proc.devRef .tc main_arg2) := StableHlo.after_of_writes_sub hostOps1_1 _ hostOps1_1_writes (by decide)
    _ = W2 m c (Proc.devRef .tc main_arg2) := StableHlo.after_of_writes_sub hostOps1 _ hostOps1_writes (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl

theorem W8_main_arg3 (c : Dev nD) : W8 m c (Proc.devRef .tc main_arg3) = m ((c : Thread nD τ).loc main_arg3) :=
  calc W8 m c (Proc.devRef .tc main_arg3)
    _ = W7 m c (Proc.devRef .tc main_arg3) := W8_of_ne m c main_arg3 (by decide)
    _ = W6 m c (Proc.devRef .tc main_arg3) := StableHlo.after_of_writes_sub hostOps2 _ hostOps2_writes (by decide)
    _ = W5 m c (Proc.devRef .tc main_arg3) := W6_of_ne m c main_arg3 (by decide)
    _ = W4 m c (Proc.devRef .tc main_arg3) := StableHlo.after_of_writes_sub hostOps1_2 _ hostOps1_2_writes (by decide)
    _ = W3 m c (Proc.devRef .tc main_arg3) := StableHlo.after_of_writes_sub hostOps1_1 _ hostOps1_1_writes (by decide)
    _ = W2 m c (Proc.devRef .tc main_arg3) := StableHlo.after_of_writes_sub hostOps1 _ hostOps1_writes (by decide)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl

theorem W8_main_arg4 (c : Dev nD) : W8 m c (Proc.devRef .tc main_arg4) = m ((c : Thread nD τ).loc main_arg4) :=
  calc W8 m c (Proc.devRef .tc main_arg4)
    _ = W7 m c (Proc.devRef .tc main_arg4) := (W8_arr m c 1).trans (((dat2 (V7 m) c).arrAt_in 1 rfl _).trans (dat2_A (V7 m) c 1))
    _ = W6 m c (Proc.devRef .tc main_arg4) := StableHlo.after_of_writes_sub hostOps2 _ hostOps2_writes (by decide)
    _ = W5 m c (Proc.devRef .tc main_arg4) := W6_of_ne m c main_arg4 (by decide)
    _ = W4 m c (Proc.devRef .tc main_arg4) := StableHlo.after_of_writes_sub hostOps1_2 _ hostOps1_2_writes (by decide)
    _ = W3 m c (Proc.devRef .tc main_arg4) := StableHlo.after_of_writes_sub hostOps1_1 _ hostOps1_1_writes (by decide)
    _ = W2 m c (Proc.devRef .tc main_arg4) := StableHlo.after_of_writes_sub hostOps1 _ hostOps1_writes (by decide)
    _ = W1 m c (Proc.devRef .tc main_arg4) := W2_of_ne m c main_arg4 (by decide)
    _ = W0 m c (Proc.devRef .tc main_arg4) := StableHlo.after_of_writes_sub hostOps0 _ hostOps0_writes (by decide)
    _ = m ((c : Thread nD τ).loc main_arg4) := rfl

theorem W8_main_arg5 (c : Dev nD) : W8 m c (Proc.devRef .tc main_arg5) = m ((c : Thread nD τ).loc main_arg5) :=
  calc W8 m c (Proc.devRef .tc main_arg5)
    _ = W7 m c (Proc.devRef .tc main_arg5) := W8_of_ne m c main_arg5 (by decide)
    _ = W6 m c (Proc.devRef .tc main_arg5) := StableHlo.after_of_writes_sub hostOps2 _ hostOps2_writes (by decide)
    _ = W5 m c (Proc.devRef .tc main_arg5) := W6_of_ne m c main_arg5 (by decide)
    _ = W4 m c (Proc.devRef .tc main_arg5) := StableHlo.after_of_writes_sub hostOps1_2 _ hostOps1_2_writes (by decide)
    _ = W3 m c (Proc.devRef .tc main_arg5) := StableHlo.after_of_writes_sub hostOps1_1 _ hostOps1_1_writes (by decide)
    _ = W2 m c (Proc.devRef .tc main_arg5) := StableHlo.after_of_writes_sub hostOps1 _ hostOps1_writes (by decide)
    _ = W1 m c (Proc.devRef .tc main_arg5) := W2_of_ne m c main_arg5 (by decide)
    _ = W0 m c (Proc.devRef .tc main_arg5) := StableHlo.after_of_writes_sub hostOps0 _ hostOps0_writes (by decide)
    _ = m ((c : Thread nD τ).loc main_arg5) := rfl

/-! ## The proof data family and the thread state -/

/-- No pipeline has a prefetched table. -/
abbrev adm : (p : Fin 3) → (pcfgs (F := F) p).Adm := fun p => (cfgs p).toPCfg_adm
/-- Every pipeline's proof data, each at its launch's entry valuation. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V5 m) c
  | ⟨2, _⟩ => fun c => dat2 (V7 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state, and the core owing
    nothing. -/
abbrev R (c : Dev nD) : sProp 𝕄 := iprop((∃ r, prngReg c r) ∗ ∃ W, owes (c : Thread nD τ) (0 : CellTallies nD τ sig Unit) W)
/-- A host stretch as a segment over the unscoped references, from the valuation `W`: it ends at the stretch applied to
    `W`, which is the next boundary's valuation by definition. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at `W8`, the generator register at some state. -/
abbrev Tₙ (c : Dev nD) : sProp 𝕄 := iprop(StableHlo.held (c : Thread nD τ) (Pipeline.ucRefs τ sig) (W8 m c) ∗ ∃ r, prngReg c r)

/-! ## The launches as segments -/

set_option backward.isDefEq.respectTransparency.types false in
/-- LAUNCH 0 (the fused projection): entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- LAUNCH 1 (attention): entered from every unscoped buffer at `W5`, left at `W6`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (V5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V5 m c) (V6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- LAUNCH 2 (the output projection): entered from every unscoped buffer at `W7`, left at `W8`, the program's end. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m) c).loose
  hwaits := Pipeline.hwaits_of_owed_zero _ _ _ _ L lv 2 fun _ _ => rfl
  pre c := iprop(StableHlo.held (c : Thread nD τ) (Pipeline.ucRefs τ sig) (W7 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V7 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V7 m c) (V8 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

/-- @main's eight items in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)),
    .host (hseg hostOps1_2 hostOps1_2_sub hostOps1_2_fresh (W4 m)),
    .region (reg1 m),
    .host (hseg hostOps2 hostOps2_sub hostOps2_fresh (W6 m)),
    .region (reg2 m) ]
/-- @main is the run of the segments: it is the chain of its items, which the segments' run unfolds to. -/
theorem main_run (c : Dev nD) : main (F := F) c = Pipeline.Seg.run (segs m) := (main_chain c).trans (by chain_rfl)

set_option backward.isDefEq.respectTransparency.types false in
/-- From any memory with zero counters, every weakly fair execution of @main terminates without fault, and any property of
    the final memory that follows from "every unscoped buffer of every core is at `W8`" holds of it. -/
theorem run_of {Q : PUnit × MemSt nD τ sig (Elt F) → Prop}
    (hQ : ∀ s : MemSt nD τ sig (Elt F),
      (∀ c : Dev nD, ∀ b ∈ Pipeline.ucRefs τ sig, s.mem (((c : Thread nD τ)).1, b) = W8 m c b) → Q (⟨⟩, s)) :
    θ_run defs (onTc (τ := τ) (main (F := F))) ⟨m, fun _ => 0, ρ⟩ Q :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := hQ)

/-- The run: @main terminates without fault and every unscoped buffer of every core ends at `W8`. -/
theorem run_all : θ_run defs (onTc (τ := τ) (main (F := F))) ⟨m, fun _ => 0, ρ⟩
    (fun r => ∀ c : Dev nD, ∀ b ∈ Pipeline.ucRefs τ sig, r.2.mem ((c : Thread nD τ).1, b) = W8 m c b) :=
  run_of m ρ fun s h => h

/-- The frame claim at any `F`: @main terminates without fault and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  run_of m ρ fun s h c =>
    ⟨(h c _ (mem_uc main_arg0 (by decide))).trans (W8_main_arg0 m c),
     (h c _ (mem_uc main_arg1 (by decide))).trans (W8_main_arg1 m c),
     (h c _ (mem_uc main_arg2 (by decide))).trans (W8_main_arg2 m c),
     (h c _ (mem_uc main_arg3 (by decide))).trans (W8_main_arg3 m c),
     (h c _ (mem_uc main_arg4 (by decide))).trans (W8_main_arg4 m c),
     (h c _ (mem_uc main_arg5 (by decide))).trans (W8_main_arg5 m c)⟩

/-- info: 'Cert.Kernel.Hand.frame' depends on axioms: [propext, Classical.choice, Quot.sound] -/
#guard_msgs in #print axioms frame

end Cert.Kernel.Hand

end
-- ==== Proof.KI.Data.lean ====
/-
  What each of the three launches of `KernelIdeal` leaves behind, point by point, stated at an ARBITRARY valuation `V` of the
  unscoped buffers at the moment the launch is entered.

  * launch 0 — the fused projection: a 2 × 6 grid; point (i, j) multiplies rows 1024·i … of the activations (window 0) by
    columns 1024·j … of the concatenated weights (window 1) and stores the 1024 × 1024 product as block (i, j) of the
    2048 × 6144 result (window 2);
  * launch 1 — attention, a 32 × 8 grid over (head, query tile): from the query tile (window 0), the head's keys and values
    (windows 1, 2) and the bias tile (window 3) it stores the tile's softmax-weighted values (window 4);
  * launch 2 — the output projection: a 2 × 2 grid of 1024 × 1024 products.

  Each body stores ONE value through the rectangle that is the whole staging buffer, so the buffer afterwards is the canonical
  read-back of that single piece. The proof data of a launch name: the arrays as the launch finds them, each input window's
  buffer at its block after every point, the output window's buffer at the body's product of the input blocks.
-/
import proofs.«125511_j29764123361587_2_alg».proof.Proof.Gen.KernelIdeal.Launch
import proofs.«125511_j29764123361587_2_alg».proof.Proof.Gen.KernelIdeal.Skeleton
import proofs.«125511_j29764123361587_2_alg».proof.Proof.Gen.KernelIdeal.Points
import Idealize.ShloMosaic.Lib.Pipeline.FrameBody
import Idealize.ShloMosaic.Lib.Pipeline.Frame

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat)
open Cert.KernelIdeal Cert.KernelIdeal.Gen

variable {F : FTy → Type} [FloatOps F]
variable (V : (c : Dev nD) → (b : Ref sig .tc) → Buf (Elt F) ((c : Thread nD τ).loc b))

/-! ## The whole-buffer rectangles the bodies load and store through -/

abbrev rA : Rect S1024x2048 := Rect.unit (s := S1024x2048) ![0, 0] S1024x2048.size inb_S1024x2048_S1024x2048_0_0
abbrev rB : Rect S2048x1024 := Rect.unit (s := S2048x1024) ![0, 0] S2048x1024.size inb_S2048x1024_S2048x1024_0_0
abbrev rC : Rect S1024x1024 := Rect.unit (s := S1024x1024) ![0, 0] S1024x1024.size inb_S1024x1024_S1024x1024_0_0
abbrev rQ : Rect S1x256x64 := Rect.unit (s := S1x256x64) ![0, 0, 0] S1x256x64.size inb_S1x256x64_S1x256x64_0_0_0
abbrev rK : Rect S1x2048x64 := Rect.unit (s := S1x2048x64) ![0, 0, 0] S1x2048x64.size inb_S1x2048x64_S1x2048x64_0_0_0
abbrev rS : Rect S1x256x2048 := Rect.unit (s := S1x256x2048) ![0, 0, 0] S1x256x2048.size inb_S1x256x2048_S1x256x2048_0_0_0

/-! ## Launch 0: the fused projection -/

/-- Window `w`'s block at point `t` of launch 0, cut out of its array as the launch finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The output buffer of launch 0 after the body: the one stored piece, the product of the two loaded blocks. -/
def prod0 (x0 : Vec F S1024x2048 .f32) (x1 : Vec F S2048x1024 .f32) : Vec F S1024x1024 .f32 :=
  View.canon [⟨rC, k0_pay1 (View.ld x0 rA) (View.ld x1 rB)⟩]

/-- The proof data of launch 0 on core `c`. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => prod0 (blk0 V c 0 t) (blk0 V c 1 t)
  Φ _ := Pipeline.ΦA spec0 c
  q _ := fullShare
  owed _ := 0

theorem dat0_A (c : Dev nD) (w : Fin cfg0.W) : (dat0 V c).A w = V c (Pipeline.arrRef spec0 w) := by dsimp only [dat0]
theorem dat0_after0 (c : Dev nD) (t : Fin cfg0.N) : (dat0 V c).after 0 t = blk0 V c 0 t := by dsimp only [dat0]
theorem dat0_after1 (c : Dev nD) (t : Fin cfg0.N) : (dat0 V c).after 1 t = blk0 V c 1 t := by dsimp only [dat0]
theorem dat0_after2 (c : Dev nD) (t : Fin cfg0.N) : (dat0 V c).after 2 t = prod0 (blk0 V c 0 t) (blk0 V c 1 t) := by dsimp only [dat0]

/-! ## Launch 1: attention -/

/-- Window `w`'s block at point `t` of launch 1. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The output buffer of launch 1 after the body: the tile's attention output, from the query tile, the head's keys and
    values, and the bias tile. -/
def attn1 (x0 : Vec F S1x256x64 .f32) (x1 x2 : Vec F S1x2048x64 .f32) (x3 : Vec F S1x256x2048 .f32) : Vec F S1x256x64 .f32 :=
  View.canon [⟨rQ, k1_pay1 (View.ld x0 rQ) (View.ld x1 rK) (View.ld x2 rK) (View.ld x3 rS)⟩]

/-- The proof data of launch 1 on core `c`. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => attn1 (blk1 V c 0 t) (blk1 V c 1 t) (blk1 V c 2 t) (blk1 V c 3 t)
  Φ _ := Pipeline.ΦA spec1 c
  q _ := fullShare
  owed _ := 0

theorem dat1_A (c : Dev nD) (w : Fin cfg1.W) : (dat1 V c).A w = V c (Pipeline.arrRef spec1 w) := by dsimp only [dat1]
theorem dat1_after0 (c : Dev nD) (t : Fin cfg1.N) : (dat1 V c).after 0 t = blk1 V c 0 t := by dsimp only [dat1]
theorem dat1_after1 (c : Dev nD) (t : Fin cfg1.N) : (dat1 V c).after 1 t = blk1 V c 1 t := by dsimp only [dat1]
theorem dat1_after2 (c : Dev nD) (t : Fin cfg1.N) : (dat1 V c).after 2 t = blk1 V c 2 t := by dsimp only [dat1]
theorem dat1_after3 (c : Dev nD) (t : Fin cfg1.N) : (dat1 V c).after 3 t = blk1 V c 3 t := by dsimp only [dat1]
theorem dat1_after4 (c : Dev nD) (t : Fin cfg1.N) :
    (dat1 V c).after 4 t = attn1 (blk1 V c 0 t) (blk1 V c 1 t) (blk1 V c 2 t) (blk1 V c 3 t) := by dsimp only [dat1]

/-! ## Launch 2: the output projection -/

/-- Window `w`'s block at point `t` of launch 2. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The output buffer of launch 2 after the body. -/
def prod2 (x0 : Vec F S1024x2048 .f32) (x1 : Vec F S2048x1024 .f32) : Vec F S1024x1024 .f32 :=
  View.canon [⟨rC, k2_pay1 (View.ld x0 rA) (View.ld x1 rB)⟩]

/-- The proof data of launch 2 on core `c`. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => prod2 (blk2 V c 0 t) (blk2 V c 1 t)
  Φ _ := Pipeline.ΦA spec2 c
  q _ := fullShare
  owed _ := 0

theorem dat2_A (c : Dev nD) (w : Fin cfg2.W) : (dat2 V c).A w = V c (Pipeline.arrRef spec2 w) := by dsimp only [dat2]
theorem dat2_after0 (c : Dev nD) (t : Fin cfg2.N) : (dat2 V c).after 0 t = blk2 V c 0 t := by dsimp only [dat2]
theorem dat2_after1 (c : Dev nD) (t : Fin cfg2.N) : (dat2 V c).after 1 t = blk2 V c 1 t := by dsimp only [dat2]
theorem dat2_after2 (c : Dev nD) (t : Fin cfg2.N) : (dat2 V c).after 2 t = prod2 (blk2 V c 0 t) (blk2 V c 1 t) := by dsimp only [dat2]

end Cert.KernelIdeal.Hand

end
-- ==== Proof.KI.Fold.lean ====
/-
  The contents of the unscoped buffers at every boundary of `KernelIdeal`'s @main, as a fold from the launch memory: a stretch of
  host operations applies them in order; a launch leaves each of its windows' arrays at what its write-backs add up to (an input
  window's array as found) and every other buffer as it was.
-/
import proofs.«125511_j29764123361587_2_alg».proof.Proof.KI.Data
import Idealize.ShloMosaic.Lib.Pipeline.FrameSuffix
import Idealize.ShloMosaic.Lib.StableHlo.Run

noncomputable section

namespace Cert.KernelIdeal.Hand

open Idealize.ShloMosaic Idealize.ShloMosaic.TcCoe
open Idealize.SL Idealize.SL.Sem
open Cert.KernelIdeal Cert.KernelIdeal.Gen

variable {F : FTy → Type} [FloatOps F]
variable (m : (ℓ : Loc nD τ sig) → Buf (Elt F) ℓ)

/-- At launch. -/
abbrev W0 : Dev nD → Valuation τ sig (Elt F) := fun c b => m (c, b)
/-- After the concatenation of the three projection weights: launch 0 is entered here. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After launch 0 (the fused projection). -/
def W2 (c : Dev nD) : Valuation τ sig (Elt F) :=
  Pipeline.withArrays spec0 c (W1 m c) fun w => (dat0 (V1 m) c).arrAt w cfg0.N
/-- After the slices, the head re-readings and the bias table's index arithmetic. -/
abbrev W3 : Dev nD → Valuation τ sig (Elt F) := fun c => StableHlo.after hostOps1 (W2 m c)
abbrev W4 : Dev nD → Valuation τ sig (Elt F) := fun c => StableHlo.after hostOps1_1 (W3 m c)
/-- After the bias gather: launch 1 is entered here. -/
abbrev W5 : Dev nD → Valuation τ sig (Elt F) := fun c => StableHlo.after hostOps1_2 (W4 m c)
abbrev V5 : (c : Dev nD) → (b : Ref sig .tc) → Buf (Elt F) ((c : Thread nD τ).loc b) := fun c b => W5 m c b
/-- After launch 1 (attention). -/
def W6 (c : Dev nD) : Valuation τ sig (Elt F) :=
  Pipeline.withArrays spec1 c (W5 m c) fun w => (dat1 (V5 m) c).arrAt w cfg1.N
/-- After the heads are merged back: launch 2 is entered here. -/
abbrev W7 : Dev nD → Valuation τ sig (Elt F) := fun c => StableHlo.after hostOps2 (W6 m c)
abbrev V7 : (c : Dev nD) → (b : Ref sig .tc) → Buf (Elt F) ((c : Thread nD τ).loc b) := fun c b => W7 m c b
/-- After launch 2 (the output projection): the program's end. -/
def W8 (c : Dev nD) : Valuation τ sig (Elt F) :=
  Pipeline.withArrays spec2 c (W7 m c) fun w => (dat2 (V7 m) c).arrAt w cfg2.N

abbrev V2 : (c : Dev nD) → (b : Ref sig .tc) → Buf (Elt F) ((c : Thread nD τ).loc b) := fun c b => W2 m c b
abbrev V6 : (c : Dev nD) → (b : Ref sig .tc) → Buf (Elt F) ((c : Thread nD τ).loc b) := fun c b => W6 m c b
abbrev V8 : (c : Dev nD) → (b : Ref sig .tc) → Buf (Elt F) ((c : Thread nD τ).loc b) := fun c b => W8 m c b

theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W6_arr (c : Dev nD) (w : Fin cfg1.W) :
    W6 m c (Proc.devRef .tc (Pipeline.arrRef spec1 w)) = (dat1 (V5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
theorem W8_arr (c : Dev nD) (w : Fin cfg2.W) :
    W8 m c (Proc.devRef .tc (Pipeline.arrRef spec2 w)) = (dat2 (V7 m) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m c (Proc.devRef .tc b) = W7 m c (Proc.devRef .tc b) := by
  unfold W8; exact Pipeline.withArrays_of_ne spec2 c _ _ b hb

end Cert.KernelIdeal.Hand

end
-- ==== Proof.KI.Body0.lean ====
/-
  Launch 0 (the fused projection), at an arbitrary entry valuation `V`: what the body is handed and what it leaves.

  * An input window's current staging buffer holds the window's block at every grid point, whether or not the pipeline
    fetched at that point: where it did not fetch, the block index has not moved since the last fetch.
  * The body, run on whole staging buffers holding `x0`, `x1` and anything in the output's, terminates without fault,
    leaves the inputs as they were and the output buffer at `prod0 x0 x1`: it loads the two inputs (and, unused, the
    output buffer), and stores one value through the rectangle that is the whole output buffer.
  * Hence the pipeline's body obligation for the proof data `dat0 V c`.
-/
import proofs.«125511_j29764123361587_2_alg».proof.Proof.KI.Data
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' buffers -/

/-- Input window 0 (a row block of the activations): its current buffer holds its block at every point. -/
theorem before0_0 (c : Dev nD) (t : Fin cfg0.N) (d) : (dat0 V c).before 0 t d = blk0 V c 0 t :=
  ((dat0 V c).before_in_eq_fetched 0 rfl (fun _ => rfl) (fun _ _ _ => rfl)
      (fun t => by rw [dat0_after0]; unfold Dat.blockOf blk0; rw [dat0_A]; try rfl) t d).trans
    (by unfold Dat.fetched Dat.blockOf blk0; rw [dat0_A]; try rfl)

/-- Input window 1 (a column block of the concatenated weights): likewise. -/
theorem before0_1 (c : Dev nD) (t : Fin cfg0.N) (d) : (dat0 V c).before 1 t d = blk0 V c 1 t :=
  ((dat0 V c).before_in_eq_fetched 1 rfl (fun _ => rfl) (fun _ _ _ => rfl)
      (fun t => by rw [dat0_after1]; unfold Dat.blockOf blk0; rw [dat0_A]; try rfl) t d).trans
    (by unfold Dat.fetched Dat.blockOf blk0; rw [dat0_A]; try rfl)

/-! ## The body's triple -/

/-- The one stored piece's rectangle is the whole output buffer, so it covers every index. -/
theorem cover0 (p0 : Vec F S1024x1024 .f32) (y : S1024x1024.Idx) :
    ∃ pc ∈ ([⟨rC, p0⟩] : List (View.Piece (Elt F) S1024x1024 .f32)), y ∈ pc.1.set :=
  View.cover_of_tiled [⟨rC, p0⟩] S1024x1024.size (by rfl) y

set_option maxHeartbeats 1000000 in
/-- The body on whole staging buffers: inputs at `x0`, `x1`, the output's at anything; it ends with the inputs unchanged
    and the output buffer at `prod0 x0 x1`. -/
theorem sound_kernel0 (c : Dev nD) (E : Set ℕ) (i : grid0.Coords)
    (arg2 : Memref sig .tc .vmem S1024x2048 .f32) (harg2 : arg2.IsWhole)
    (arg3 : Memref sig .tc .vmem S2048x1024 .f32) (harg3 : arg3.IsWhole)
    (arg4 : Memref sig .tc .vmem S1024x1024 .f32) (harg4 : arg4.IsWhole)
    (x0 : Vec F S1024x2048 .f32) (x1 : Vec F S2048x1024 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (prod0 x0 x1)) -∗ K ⟨⟩))
      ⊢ wp frame (wpE (defs₀ (F := F)) Variants.none c none) E (cc0__matmul_kernel i arg2 harg2 arg3 harg3 arg4 harg4) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0 _)

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the triple applies; the invariant and what the core
    owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    dat0_after0, dat0_after1, dat0_after2]
  iintro ⟨HΦ, Ho, ⟨%d0, H0⟩, ⟨%d1, H1⟩, ⟨%d2, H2⟩⟩
  iapply (sound_kernel0 c Set.univ _ _ _ _ _ _ _ (blk0 V c 0 t) (blk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation for launch 0, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Body1.lean ====
/-
  Launch 1 (attention, one (head, query tile) per grid point), at an arbitrary entry valuation `V`: what the body is
  handed and what it leaves.

  * Each of the four input windows (the query tile, the head's keys, the head's values, the bias tile) has its block in
    its current staging buffer at every grid point, whether or not the pipeline fetched there: unfetched, the block index
    has not moved since the last fetch (the keys and values move only when the head changes).
  * The body, run on whole staging buffers holding `x0 … x3` and anything in the output's, terminates without fault,
    leaves the inputs as they were and the output buffer at `attn1 x0 x1 x2 x3`: it loads the four inputs (and, unused, the
    output buffer), and stores one value through the rectangle that is the whole output buffer.
  * Hence the pipeline's body obligation for the proof data `dat1 V c`.
-/
import proofs.«125511_j29764123361587_2_alg».proof.Proof.KI.Data
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' buffers -/

/-- Input window 0 (the query tile): its current buffer holds its block at every point. -/
theorem before1_0 (c : Dev nD) (t : Fin cfg1.N) (d) : (dat1 V c).before 0 t d = blk1 V c 0 t :=
  ((dat1 V c).before_in_eq_fetched 0 rfl (fun _ => rfl) (fun _ _ _ => rfl)
      (fun t => by rw [dat1_after0]; unfold Dat.blockOf blk1; rw [dat1_A]; try rfl) t d).trans
    (by unfold Dat.fetched Dat.blockOf blk1; rw [dat1_A]; try rfl)

/-- Input window 1 (the head's keys): likewise. -/
theorem before1_1 (c : Dev nD) (t : Fin cfg1.N) (d) : (dat1 V c).before 1 t d = blk1 V c 1 t :=
  ((dat1 V c).before_in_eq_fetched 1 rfl (fun _ => rfl) (fun _ _ _ => rfl)
      (fun t => by rw [dat1_after1]; unfold Dat.blockOf blk1; rw [dat1_A]; try rfl) t d).trans
    (by unfold Dat.fetched Dat.blockOf blk1; rw [dat1_A]; try rfl)

/-- Input window 2 (the head's values): likewise. -/
theorem before1_2 (c : Dev nD) (t : Fin cfg1.N) (d) : (dat1 V c).before 2 t d = blk1 V c 2 t :=
  ((dat1 V c).before_in_eq_fetched 2 rfl (fun _ => rfl) (fun _ _ _ => rfl)
      (fun t => by rw [dat1_after2]; unfold Dat.blockOf blk1; rw [dat1_A]; try rfl) t d).trans
    (by unfold Dat.fetched Dat.blockOf blk1; rw [dat1_A]; try rfl)

/-- Input window 3 (the bias tile): likewise. -/
theorem before1_3 (c : Dev nD) (t : Fin cfg1.N) (d) : (dat1 V c).before 3 t d = blk1 V c 3 t :=
  ((dat1 V c).before_in_eq_fetched 3 rfl (fun _ => rfl) (fun _ _ _ => rfl)
      (fun t => by rw [dat1_after3]; unfold Dat.blockOf blk1; rw [dat1_A]; try rfl) t d).trans
    (by unfold Dat.fetched Dat.blockOf blk1; rw [dat1_A]; try rfl)

/-! ## The body's triple -/

/-- The one stored piece's rectangle is the whole output buffer, so it covers every index. -/
theorem cover1 (p0 : Vec F S1x256x64 .f32) (y : S1x256x64.Idx) :
    ∃ pc ∈ ([⟨rQ, p0⟩] : List (View.Piece (Elt F) S1x256x64 .f32)), y ∈ pc.1.set :=
  View.cover_of_tiled [⟨rQ, p0⟩] S1x256x64.size (by rfl) y

set_option maxHeartbeats 1000000 in
/-- The body on whole staging buffers: inputs at `x0 … x3`, the output's at anything; it ends with the inputs unchanged
    and the output buffer at `attn1 x0 x1 x2 x3`. -/
theorem sound_kernel1 (c : Dev nD) (E : Set ℕ) (i : grid1.Coords)
    (arg2 : Memref sig .tc .vmem S1x256x64 .f32) (harg2 : arg2.IsWhole)
    (arg3 : Memref sig .tc .vmem S1x2048x64 .f32) (harg3 : arg3.IsWhole)
    (arg4 : Memref sig .tc .vmem S1x2048x64 .f32) (harg4 : arg4.IsWhole)
    (arg5 : Memref sig .tc .vmem S1x256x2048 .f32) (harg5 : arg5.IsWhole)
    (arg6 : Memref sig .tc .vmem S1x256x64 .f32) (harg6 : arg6.IsWhole)
    (x0 : Vec F S1x256x64 .f32) (x1 x2 : Vec F S1x2048x64 .f32) (x3 : Vec F S1x256x2048 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (attn1 x0 x1 x2 x3)) -∗ K ⟨⟩))
      ⊢ wp frame (wpE (defs₀ (F := F)) Variants.none c none) E (cc1__attn_kernel i arg2 harg2 arg3 harg3 arg4 harg4 arg5 harg5 arg6 harg6) K := by
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1 _)

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' buffers hold their blocks, so the triple applies; the invariant and what the core
    owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    dat1_after0, dat1_after1, dat1_after2, dat1_after3, dat1_after4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (blk1 V c 0 t) (blk1 V c 1 t) (blk1 V c 2 t) (blk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation for launch 1, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Body2.lean ====
/-
  Launch 2 (the output projection), at an arbitrary entry valuation `V`: what the body is handed and what it leaves.

  * An input window's current staging buffer holds the window's block at every grid point, whether or not the pipeline
    fetched at that point: where it did not fetch, the block index has not moved since the last fetch.
  * The body, run on whole staging buffers holding `x0`, `x1` and anything in the output's, terminates without fault,
    leaves the inputs as they were and the output buffer at `prod2 x0 x1`: it loads the two inputs (and, unused, the
    output buffer), and stores one value through the rectangle that is the whole output buffer.
  * Hence the pipeline's body obligation for the proof data `dat2 V c`.
-/
import proofs.«125511_j29764123361587_2_alg».proof.Proof.KI.Data
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' buffers -/

/-- Input window 0 (a row block of the merged attention output): its current buffer holds its block at every point. -/
theorem before2_0 (c : Dev nD) (t : Fin cfg2.N) (d) : (dat2 V c).before 0 t d = blk2 V c 0 t :=
  ((dat2 V c).before_in_eq_fetched 0 rfl (fun _ => rfl) (fun _ _ _ => rfl)
      (fun t => by rw [dat2_after0]; unfold Dat.blockOf blk2; rw [dat2_A]; try rfl) t d).trans
    (by unfold Dat.fetched Dat.blockOf blk2; rw [dat2_A]; try rfl)

/-- Input window 1 (a column block of the output weights): likewise. -/
theorem before2_1 (c : Dev nD) (t : Fin cfg2.N) (d) : (dat2 V c).before 1 t d = blk2 V c 1 t :=
  ((dat2 V c).before_in_eq_fetched 1 rfl (fun _ => rfl) (fun _ _ _ => rfl)
      (fun t => by rw [dat2_after1]; unfold Dat.blockOf blk2; rw [dat2_A]; try rfl) t d).trans
    (by unfold Dat.fetched Dat.blockOf blk2; rw [dat2_A]; try rfl)

/-! ## The body's triple -/

/-- The one stored piece's rectangle is the whole output buffer, so it covers every index. -/
theorem cover2 (p0 : Vec F S1024x1024 .f32) (y : S1024x1024.Idx) :
    ∃ pc ∈ ([⟨rC, p0⟩] : List (View.Piece (Elt F) S1024x1024 .f32)), y ∈ pc.1.set :=
  View.cover_of_tiled [⟨rC, p0⟩] S1024x1024.size (by rfl) y

set_option maxHeartbeats 1000000 in
/-- The body on whole staging buffers: inputs at `x0`, `x1`, the output's at anything; it ends with the inputs unchanged
    and the output buffer at `prod2 x0 x1`. -/
theorem sound_kernel2 (c : Dev nD) (E : Set ℕ) (i : grid2.Coords)
    (arg2 : Memref sig .tc .vmem S1024x2048 .f32) (harg2 : arg2.IsWhole)
    (arg3 : Memref sig .tc .vmem S2048x1024 .f32) (harg3 : arg3.IsWhole)
    (arg4 : Memref sig .tc .vmem S1024x1024 .f32) (harg4 : arg4.IsWhole)
    (x0 : Vec F S1024x2048 .f32) (x1 : Vec F S2048x1024 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (prod2 x0 x1)) -∗ K ⟨⟩))
      ⊢ wp frame (wpE (defs₀ (F := F)) Variants.none c none) E (cc2__matmul_kernel i arg2 harg2 arg3 harg3 arg4 harg4) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2 _)

/-! ## The body obligation -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, so the triple applies; the invariant and what the core
    owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    dat2_after0, dat2_after1, dat2_after2]
  iintro ⟨HΦ, Ho, ⟨%d0, H0⟩, ⟨%d1, H1⟩, ⟨%d2, H2⟩⟩
  iapply (sound_kernel2 c Set.univ _ _ _ _ _ _ _ (blk2 V c 0 t) (blk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation for launch 2, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Run.lean ====
/-
  The whole program runs: @main of `KernelIdeal` — five stretches of host operations around three kernel launches —
  terminates without fault from any memory with zero semaphore counters, and every unscoped buffer of every core ends at
  the last valuation `W8` of the fold through @main.

  Between two items a core holds every unscoped buffer, whole, at that boundary's valuation, beside its generator register
  at some state and owing nothing. A host stretch takes the buffers from a valuation to the stretch applied to it. A launch
  splits its windows' arrays out of the unscoped buffers, runs its pipeline on the proof data stated at the entry valuation
  (the body obligation of that launch), and puts the arrays back at what the write-backs leave, every other buffer as found;
  the generator register goes into the pipeline's invariant and comes back.

  No host operation and no launch writes an argument array (a launch reads one through an input window, whose array it
  leaves as found), so the fold at an argument's buffer walks back to the launch memory: the frame claim.
-/
import proofs.«125511_j29764123361587_2_alg».proof.Proof.KI.Fold
import proofs.«125511_j29764123361587_2_alg».proof.Proof.KI.Body0
import proofs.«125511_j29764123361587_2_alg».proof.Proof.KI.Body1
import proofs.«125511_j29764123361587_2_alg».proof.Proof.KI.Body2
import proofs.«125511_j29764123361587_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## A launch's exit valuation: its arrays at what the pipeline leaves, every other buffer as entered -/

theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
theorem hF1 (c : Dev nD) (w : Fin cfg1.W) : (dat1 (V5 m) c).arrAt w cfg1.N = V6 m c (Pipeline.arrRef spec1 w) :=
  (W6_arr m c w).symm
theorem hrest1 (c : Dev nD) : ∀ b, b ∉ Finset.univ.image (Pipeline.arrRef spec1) → V6 m c b = V5 m c b :=
  fun b hb => W6_of_ne m c b fun w e => hb (Finset.mem_image.mpr ⟨w, Finset.mem_univ _, e⟩)
theorem hF2 (c : Dev nD) (w : Fin cfg2.W) : (dat2 (V7 m) c).arrAt w cfg2.N = V8 m c (Pipeline.arrRef spec2 w) :=
  (W8_arr m c w).symm
theorem hrest2 (c : Dev nD) : ∀ b, b ∉ Finset.univ.image (Pipeline.arrRef spec2) → V8 m c b = V7 m c b :=
  fun b hb => W8_of_ne m c b fun w e => hb (Finset.mem_image.mpr ⟨w, Finset.mem_univ _, e⟩)

/-! ## The arguments end as launched -/

theorem W8_main_arg0 (c : Dev nD) : W8 m c (Proc.devRef .tc main_arg0) = m ((c : Thread nD τ).loc main_arg0) :=
  calc W8 m c (Proc.devRef .tc main_arg0)
    _ = W7 m c (Proc.devRef .tc main_arg0) := W8_of_ne m c main_arg0 (by decide)
    _ = W6 m c (Proc.devRef .tc main_arg0) := StableHlo.after_of_writes_sub hostOps2 _ hostOps2_writes (by decide)
    _ = W5 m c (Proc.devRef .tc main_arg0) := W6_of_ne m c main_arg0 (by decide)
    _ = W4 m c (Proc.devRef .tc main_arg0) := StableHlo.after_of_writes_sub hostOps1_2 _ hostOps1_2_writes (by decide)
    _ = W3 m c (Proc.devRef .tc main_arg0) := StableHlo.after_of_writes_sub hostOps1_1 _ hostOps1_1_writes (by decide)
    _ = W2 m c (Proc.devRef .tc main_arg0) := StableHlo.after_of_writes_sub hostOps1 _ hostOps1_writes (by decide)
    _ = W1 m c (Proc.devRef .tc main_arg0) := (W2_arr m c 0).trans (((dat0 (V1 m) c).arrAt_in 0 rfl _).trans (dat0_A (V1 m) c 0))
    _ = W0 m c (Proc.devRef .tc main_arg0) := StableHlo.after_of_writes_sub hostOps0 _ hostOps0_writes (by decide)
    _ = m ((c : Thread nD τ).loc main_arg0) := rfl

theorem W8_main_arg1 (c : Dev nD) : W8 m c (Proc.devRef .tc main_arg1) = m ((c : Thread nD τ).loc main_arg1) :=
  calc W8 m c (Proc.devRef .tc main_arg1)
    _ = W7 m c (Proc.devRef .tc main_arg1) := W8_of_ne m c main_arg1 (by decide)
    _ = W6 m c (Proc.devRef .tc main_arg1) := StableHlo.after_of_writes_sub hostOps2 _ hostOps2_writes (by decide)
    _ = W5 m c (Proc.devRef .tc main_arg1) := W6_of_ne m c main_arg1 (by decide)
    _ = W4 m c (Proc.devRef .tc main_arg1) := StableHlo.after_of_writes_sub hostOps1_2 _ hostOps1_2_writes (by decide)
    _ = W3 m c (Proc.devRef .tc main_arg1) := StableHlo.after_of_writes_sub hostOps1_1 _ hostOps1_1_writes (by decide)
    _ = W2 m c (Proc.devRef .tc main_arg1) := StableHlo.after_of_writes_sub hostOps1 _ hostOps1_writes (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl

theorem W8_main_arg2 (c : Dev nD) : W8 m c (Proc.devRef .tc main_arg2) = m ((c : Thread nD τ).loc main_arg2) :=
  calc W8 m c (Proc.devRef .tc main_arg2)
    _ = W7 m c (Proc.devRef .tc main_arg2) := W8_of_ne m c main_arg2 (by decide)
    _ = W6 m c (Proc.devRef .tc main_arg2) := StableHlo.after_of_writes_sub hostOps2 _ hostOps2_writes (by decide)
    _ = W5 m c (Proc.devRef .tc main_arg2) := W6_of_ne m c main_arg2 (by decide)
    _ = W4 m c (Proc.devRef .tc main_arg2) := StableHlo.after_of_writes_sub hostOps1_2 _ hostOps1_2_writes (by decide)
    _ = W3 m c (Proc.devRef .tc main_arg2) := StableHlo.after_of_writes_sub hostOps1_1 _ hostOps1_1_writes (by decide)
    _ = W2 m c (Proc.devRef .tc main_arg2) := StableHlo.after_of_writes_sub hostOps1 _ hostOps1_writes (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl

theorem W8_main_arg3 (c : Dev nD) : W8 m c (Proc.devRef .tc main_arg3) = m ((c : Thread nD τ).loc main_arg3) :=
  calc W8 m c (Proc.devRef .tc main_arg3)
    _ = W7 m c (Proc.devRef .tc main_arg3) := W8_of_ne m c main_arg3 (by decide)
    _ = W6 m c (Proc.devRef .tc main_arg3) := StableHlo.after_of_writes_sub hostOps2 _ hostOps2_writes (by decide)
    _ = W5 m c (Proc.devRef .tc main_arg3) := W6_of_ne m c main_arg3 (by decide)
    _ = W4 m c (Proc.devRef .tc main_arg3) := StableHlo.after_of_writes_sub hostOps1_2 _ hostOps1_2_writes (by decide)
    _ = W3 m c (Proc.devRef .tc main_arg3) := StableHlo.after_of_writes_sub hostOps1_1 _ hostOps1_1_writes (by decide)
    _ = W2 m c (Proc.devRef .tc main_arg3) := StableHlo.after_of_writes_sub hostOps1 _ hostOps1_writes (by decide)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl

theorem W8_main_arg4 (c : Dev nD) : W8 m c (Proc.devRef .tc main_arg4) = m ((c : Thread nD τ).loc main_arg4) :=
  calc W8 m c (Proc.devRef .tc main_arg4)
    _ = W7 m c (Proc.devRef .tc main_arg4) := (W8_arr m c 1).trans (((dat2 (V7 m) c).arrAt_in 1 rfl _).trans (dat2_A (V7 m) c 1))
    _ = W6 m c (Proc.devRef .tc main_arg4) := StableHlo.after_of_writes_sub hostOps2 _ hostOps2_writes (by decide)
    _ = W5 m c (Proc.devRef .tc main_arg4) := W6_of_ne m c main_arg4 (by decide)
    _ = W4 m c (Proc.devRef .tc main_arg4) := StableHlo.after_of_writes_sub hostOps1_2 _ hostOps1_2_writes (by decide)
    _ = W3 m c (Proc.devRef .tc main_arg4) := StableHlo.after_of_writes_sub hostOps1_1 _ hostOps1_1_writes (by decide)
    _ = W2 m c (Proc.devRef .tc main_arg4) := StableHlo.after_of_writes_sub hostOps1 _ hostOps1_writes (by decide)
    _ = W1 m c (Proc.devRef .tc main_arg4) := W2_of_ne m c main_arg4 (by decide)
    _ = W0 m c (Proc.devRef .tc main_arg4) := StableHlo.after_of_writes_sub hostOps0 _ hostOps0_writes (by decide)
    _ = m ((c : Thread nD τ).loc main_arg4) := rfl

theorem W8_main_arg5 (c : Dev nD) : W8 m c (Proc.devRef .tc main_arg5) = m ((c : Thread nD τ).loc main_arg5) :=
  calc W8 m c (Proc.devRef .tc main_arg5)
    _ = W7 m c (Proc.devRef .tc main_arg5) := W8_of_ne m c main_arg5 (by decide)
    _ = W6 m c (Proc.devRef .tc main_arg5) := StableHlo.after_of_writes_sub hostOps2 _ hostOps2_writes (by decide)
    _ = W5 m c (Proc.devRef .tc main_arg5) := W6_of_ne m c main_arg5 (by decide)
    _ = W4 m c (Proc.devRef .tc main_arg5) := StableHlo.after_of_writes_sub hostOps1_2 _ hostOps1_2_writes (by decide)
    _ = W3 m c (Proc.devRef .tc main_arg5) := StableHlo.after_of_writes_sub hostOps1_1 _ hostOps1_1_writes (by decide)
    _ = W2 m c (Proc.devRef .tc main_arg5) := StableHlo.after_of_writes_sub hostOps1 _ hostOps1_writes (by decide)
    _ = W1 m c (Proc.devRef .tc main_arg5) := W2_of_ne m c main_arg5 (by decide)
    _ = W0 m c (Proc.devRef .tc main_arg5) := StableHlo.after_of_writes_sub hostOps0 _ hostOps0_writes (by decide)
    _ = m ((c : Thread nD τ).loc main_arg5) := rfl

/-! ## The proof data family and the thread state -/

/-- No pipeline has a prefetched table. -/
abbrev adm : (p : Fin 3) → (pcfgs (F := F) p).Adm := fun p => (cfgs p).toPCfg_adm
/-- Every pipeline's proof data, each at its launch's entry valuation. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V5 m) c
  | ⟨2, _⟩ => fun c => dat2 (V7 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state, and the core owing
    nothing. -/
abbrev R (c : Dev nD) : sProp 𝕄 := iprop((∃ r, prngReg c r) ∗ ∃ W, owes (c : Thread nD τ) (0 : CellTallies nD τ sig Unit) W)
/-- A host stretch as a segment over the unscoped references, from the valuation `W`: it ends at the stretch applied to
    `W`, which is the next boundary's valuation by definition. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at `W8`, the generator register at some state. -/
abbrev Tₙ (c : Dev nD) : sProp 𝕄 := iprop(StableHlo.held (c : Thread nD τ) (Pipeline.ucRefs τ sig) (W8 m c) ∗ ∃ r, prngReg c r)

/-! ## The launches as segments -/

set_option backward.isDefEq.respectTransparency.types false in
/-- LAUNCH 0 (the fused projection): entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- LAUNCH 1 (attention): entered from every unscoped buffer at `W5`, left at `W6`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (V5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V5 m c) (V6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- LAUNCH 2 (the output projection): entered from every unscoped buffer at `W7`, left at `W8`, the program's end. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m) c).loose
  hwaits := Pipeline.hwaits_of_owed_zero _ _ _ _ L lv 2 fun _ _ => rfl
  pre c := iprop(StableHlo.held (c : Thread nD τ) (Pipeline.ucRefs τ sig) (W7 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V7 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V7 m c) (V8 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

/-- @main's eight items in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)),
    .host (hseg hostOps1_2 hostOps1_2_sub hostOps1_2_fresh (W4 m)),
    .region (reg1 m),
    .host (hseg hostOps2 hostOps2_sub hostOps2_fresh (W6 m)),
    .region (reg2 m) ]
/-- @main is the run of the segments: it is the chain of its items, which the segments' run unfolds to. -/
theorem main_run (c : Dev nD) : main (F := F) c = Pipeline.Seg.run (segs m) := (main_chain c).trans (by chain_rfl)

set_option backward.isDefEq.respectTransparency.types false in
/-- From any memory with zero counters, every weakly fair execution of @main terminates without fault, and any property of
    the final memory that follows from "every unscoped buffer of every core is at `W8`" holds of it. -/
theorem run_of {Q : PUnit × MemSt nD τ sig (Elt F) → Prop}
    (hQ : ∀ s : MemSt nD τ sig (Elt F),
      (∀ c : Dev nD, ∀ b ∈ Pipeline.ucRefs τ sig, s.mem (((c : Thread nD τ)).1, b) = W8 m c b) → Q (⟨⟩, s)) :
    θ_run defs (onTc (τ := τ) (main (F := F))) ⟨m, fun _ => 0, ρ⟩ Q :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := hQ)

/-- The run: @main terminates without fault and every unscoped buffer of every core ends at `W8`. -/
theorem run_all : θ_run defs (onTc (τ := τ) (main (F := F))) ⟨m, fun _ => 0, ρ⟩
    (fun r => ∀ c : Dev nD, ∀ b ∈ Pipeline.ucRefs τ sig, r.2.mem ((c : Thread nD τ).1, b) = W8 m c b) :=
  run_of m ρ fun s h => h

/-- The frame claim at any `F`: @main terminates without fault and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  run_of m ρ fun s h c =>
    ⟨(h c _ (mem_uc main_arg0 (by decide))).trans (W8_main_arg0 m c),
     (h c _ (mem_uc main_arg1 (by decide))).trans (W8_main_arg1 m c),
     (h c _ (mem_uc main_arg2 (by decide))).trans (W8_main_arg2 m c),
     (h c _ (mem_uc main_arg3 (by decide))).trans (W8_main_arg3 m c),
     (h c _ (mem_uc main_arg4 (by decide))).trans (W8_main_arg4 m c),
     (h c _ (mem_uc main_arg5 (by decide))).trans (W8_main_arg5 m c)⟩

/-- info: 'Cert.KernelIdeal.Hand.frame' depends on axioms: [propext, Classical.choice, Quot.sound] -/
#guard_msgs in #print axioms frame

end Cert.KernelIdeal.Hand

end
-- ==== Proof.LibDense.lean ====
/-
  Dense layers on the extended reals, index by index.

  A matrix here is a function of a two-coordinate index into the extended reals.  `mm X W` is the
  textbook product: entry (r, j) is the sum over k of X (r, k) * W (k, j).  A matrix unit's product into a zero
  accumulator, read at an output index, is that sum (`matmul_zero_eq`), whatever the formats of the operands
  (a change of float format is the identity on the extended reals); the host's `dot_general` likewise
  (`dotGeneral_eq`).  `ssp` is the shifted softplus as the kernel spells it,
  max z 0 + log1p (exp (0 - |z - 0|)) - log 2 under a guard `z - 0 ≠ z - 0` that never fires on the
  extended reals, and `ssp_host` says that the host's spelling, with a negation in place of the subtraction
  from zero, is the same number.
-/
import Idealize.ShloMosaic.Lib.ValueIdx
import Idealize.ShloMosaic.Lib.Pipeline.Value
import Idealize.ShloMosaic.PureOps.Ideal.Laws

noncomputable section

namespace Cert.Dense

open Idealize.ShloMosaic Idealize.ShloMosaic.ValueIdx

/-- Entry (r, j) of the product of an [R, K] matrix and a [K, C] matrix: the sum over k of X (r, k) * W (k, j). -/
def mm {R K C : Nat} (X : (⟨2, ![R, K]⟩ : Shape).Idx → EReal) (W : (⟨2, ![K, C]⟩ : Shape).Idx → EReal) :
    (⟨2, ![R, C]⟩ : Shape).Idx → EReal :=
  fun i => ∑ k : Fin K, X (ix2 (i 0) k) * W (ix2 k (i 1))

/-- A product into the zero accumulator, with dimension numbers that contract the left operand's second axis
    with the right operand's first, is `mm` at every output index. -/
theorem matmul_zero_eq {R K C : Nat} {φ₁ φ₂ : FTy}
    (D : DotDims ⟨2, ![R, K]⟩ ⟨2, ![K, C]⟩ ⟨2, ![R, C]⟩)
    (hr : D.contr.rank = 1) (hs : D.contr.size ⟨0, by omega⟩ = K)
    (l0 : ∀ i q, (D.lhsIdx i q 0).val = (i 0).val) (l1 : ∀ i q, (D.lhsIdx i q 1).val = (q ⟨0, by omega⟩).val)
    (r0 : ∀ i q, (D.rhsIdx i q 0).val = (q ⟨0, by omega⟩).val) (r1 : ∀ i q, (D.rhsIdx i q 1).val = (i 1).val)
    (prec : Option ContractPrecision)
    (lhs : FVec Ideal ⟨2, ![R, K]⟩ φ₁) (rhs : FVec Ideal ⟨2, ![K, C]⟩ φ₂) (j : (⟨2, ![R, C]⟩ : Shape).Idx) :
    FloatOps.matmul D prec lhs rhs (constant ⟨2, ![R, C]⟩ .f32 0x00000000#32) j = mm lhs rhs j := by
  rw [Ideal.matmul_constant_zero_apply, ← Equiv.sum_comp (contrEquiv1 D K hr hs).symm]
  unfold mm
  refine Finset.sum_congr rfl fun k _ => ?_
  have hk := contrEquiv1_symm_val D K hr hs k
  have el : D.lhsIdx j ((contrEquiv1 D K hr hs).symm k) = ix2 (j 0) k := funext fun a => Fin.ext (by
    match a with
    | ⟨0, _⟩ => exact l0 _ _
    | ⟨1, _⟩ => exact (l1 _ _).trans hk)
  have er : D.rhsIdx j ((contrEquiv1 D K hr hs).symm k) = ix2 k (j 1) := funext fun a => Fin.ext (by
    match a with
    | ⟨0, _⟩ => exact (r0 _ _).trans hk
    | ⟨1, _⟩ => exact r1 _ _)
  rw [el, er]
  rfl

/-- The host's product of the same operands is the same sum. -/
theorem dotGeneral_eq {R K C : Nat} {φ₁ φ₂ : FTy}
    (D : DotDims ⟨2, ![R, K]⟩ ⟨2, ![K, C]⟩ ⟨2, ![R, C]⟩)
    (hr : D.contr.rank = 1) (hs : D.contr.size ⟨0, by omega⟩ = K)
    (l0 : ∀ i q, (D.lhsIdx i q 0).val = (i 0).val) (l1 : ∀ i q, (D.lhsIdx i q 1).val = (q ⟨0, by omega⟩).val)
    (r0 : ∀ i q, (D.rhsIdx i q 0).val = (q ⟨0, by omega⟩).val) (r1 : ∀ i q, (D.rhsIdx i q 1).val = (i 1).val)
    (prec : Option ContractPrecision) (sched : HostSchedule)
    (lhs : FVec Ideal ⟨2, ![R, K]⟩ φ₁) (rhs : FVec Ideal ⟨2, ![K, C]⟩ φ₂) (j : (⟨2, ![R, C]⟩ : Shape).Idx) :
    FloatOps.dotGeneral D prec sched lhs rhs j = mm lhs rhs j := by
  rw [Ideal.dotGeneral_apply, ← Equiv.sum_comp (contrEquiv1 D K hr hs).symm]
  unfold mm
  refine Finset.sum_congr rfl fun k _ => ?_
  have hk := contrEquiv1_symm_val D K hr hs k
  have el : D.lhsIdx j ((contrEquiv1 D K hr hs).symm k) = ix2 (j 0) k := funext fun a => Fin.ext (by
    match a with
    | ⟨0, _⟩ => exact l0 _ _
    | ⟨1, _⟩ => exact (l1 _ _).trans hk)
  have er : D.rhsIdx j ((contrEquiv1 D K hr hs).symm k) = ix2 k (j 1) := funext fun a => Fin.ext (by
    match a with
    | ⟨0, _⟩ => exact (r0 _ _).trans hk
    | ⟨1, _⟩ => exact r1 _ _)
  rw [el, er]
  rfl

/-- Two products agree at two entries when the left operands agree along the two rows and the right operands
    along the two columns. -/
theorem mm_congr {R R' K C C' : Nat} {X : (⟨2, ![R, K]⟩ : Shape).Idx → EReal} {X' : (⟨2, ![R', K]⟩ : Shape).Idx → EReal}
    {W : (⟨2, ![K, C]⟩ : Shape).Idx → EReal} {W' : (⟨2, ![K, C']⟩ : Shape).Idx → EReal}
    (i : (⟨2, ![R, C]⟩ : Shape).Idx) (i' : (⟨2, ![R', C']⟩ : Shape).Idx)
    (hX : ∀ k : Fin K, X (ix2 (i 0) k) = X' (ix2 (i' 0) k))
    (hW : ∀ k : Fin K, W (ix2 k (i 1)) = W' (ix2 k (i' 1))) : mm X W i = mm X' W' i' := by
  unfold mm
  exact Finset.sum_congr rfl fun k _ => by rw [hX k, hW k]

/-- The zero and the shift of the softplus, as the float words both programs spell. -/
abbrev z0 : EReal := Ideal.ofBits .f32 0x00000000#32
abbrev ln2 : EReal := Ideal.ofBits .f32 0x3F317218#32

/-- The shifted softplus of one extended real, in the kernel's spelling. -/
def ssp (z : EReal) : EReal :=
  Scalar.select (Ideal.cmp .one (z - z0) (z - z0)) (z + z0)
    (max z z0 + Ideal.log1p (Ideal.exp (z0 - max (z - z0) (-(z - z0))))) - ln2

/-- The host's spelling: the unordered comparison in the guard (the same comparison on a linear order) and a
    negation where the kernel subtracts from zero. -/
theorem ssp_host (z : EReal) :
    Scalar.select (Ideal.cmp .une (z - z0) (z - z0)) (z + z0)
      (max z z0 + Ideal.log1p (Ideal.exp (-(max (z - z0) (-(z - z0)))))) - ln2 = ssp z := by
  unfold ssp
  have h0 : ∀ a : EReal, z0 - a = -a := fun a => by
    show Ideal.ofBits .f32 0x00000000#32 - a = -a
    rw [Ideal.ofBits_zero_f32, zero_sub]
  rw [h0]
  rfl

/-! ## The layers of the interaction block, entry by entry

  A bias is kept as the [1, C] row both programs hand to the layer; the per-edge distance as an [E, 1] column. -/

/-- The cosine cutoff's constants, as the float words both programs spell: π/10 rounded to f32, one, one half. -/
abbrev kpi : EReal := Ideal.ofBits .f32 0x3EA0D97C#32
abbrev one : EReal := Ideal.ofBits .f32 0x3F800000#32
abbrev half : EReal := Ideal.ofBits .f32 0x3F000000#32

/-- A length-C vector as the [1, C] row a layer takes its bias as, and a length-E vector as an [E, 1] column. -/
def row {C : Nat} (b : (⟨1, ![C]⟩ : Shape).Idx → EReal) : (⟨2, ![1, C]⟩ : Shape).Idx → EReal := fun i => b (ix1 (i 1))
def col {E : Nat} (d : (⟨1, ![E]⟩ : Shape).Idx → EReal) : (⟨2, ![E, 1]⟩ : Shape).Idx → EReal := fun i => d (ix1 (i 0))

/-- A dense layer: entry (r, j) of X · W plus the bias row's entry j. -/
def lin {R K C : Nat} (X : (⟨2, ![R, K]⟩ : Shape).Idx → EReal) (W : (⟨2, ![K, C]⟩ : Shape).Idx → EReal)
    (B : (⟨2, ![1, C]⟩ : Shape).Idx → EReal) : (⟨2, ![R, C]⟩ : Shape).Idx → EReal :=
  fun i => mm X W i + B (ix2 (0 : Fin 1) (i 1))

/-- The cosine cutoff of row r's distance d: one half of (cos (d · π/10) + 1). -/
def cutoff {R : Nat} (D : (⟨2, ![R, 1]⟩ : Shape).Idx → EReal) (r : Fin R) : EReal :=
  half * (Ideal.cos (D (ix2 r (0 : Fin 1)) * kpi) + one)

/-- Two dense layers with the shifted softplus between them. -/
def mlp {R K C C' : Nat} (X : (⟨2, ![R, K]⟩ : Shape).Idx → EReal) (W1 : (⟨2, ![K, C]⟩ : Shape).Idx → EReal)
    (B1 : (⟨2, ![1, C]⟩ : Shape).Idx → EReal) (W2 : (⟨2, ![C, C']⟩ : Shape).Idx → EReal)
    (B2 : (⟨2, ![1, C']⟩ : Shape).Idx → EReal) : (⟨2, ![R, C']⟩ : Shape).Idx → EReal :=
  lin (fun i' => ssp (lin X W1 B1 i')) W2 B2

/-- The edge filter: the two-layer filter network of an edge's features, times the edge's cutoff. -/
def edgeFilter {E K C C' : Nat} (A : (⟨2, ![E, K]⟩ : Shape).Idx → EReal) (D : (⟨2, ![E, 1]⟩ : Shape).Idx → EReal)
    (W1 : (⟨2, ![K, C]⟩ : Shape).Idx → EReal) (B1 : (⟨2, ![1, C]⟩ : Shape).Idx → EReal)
    (W2 : (⟨2, ![C, C']⟩ : Shape).Idx → EReal) (B2 : (⟨2, ![1, C']⟩ : Shape).Idx → EReal) :
    (⟨2, ![E, C']⟩ : Shape).Idx → EReal :=
  fun i => mlp A W1 B1 W2 B2 i * cutoff D (i 0)

/-- Two dense layers agree at an entry when their inputs agree on the entry's row and their weights and biases
    on its column. -/
theorem lin_congr {R R' K C : Nat} {X : (⟨2, ![R, K]⟩ : Shape).Idx → EReal} {X' : (⟨2, ![R', K]⟩ : Shape).Idx → EReal}
    {W W' : (⟨2, ![K, C]⟩ : Shape).Idx → EReal} {B B' : (⟨2, ![1, C]⟩ : Shape).Idx → EReal}
    (i : (⟨2, ![R, C]⟩ : Shape).Idx) (i' : (⟨2, ![R', C]⟩ : Shape).Idx) (h1 : i 1 = i' 1)
    (hX : ∀ k : Fin K, X (ix2 (i 0) k) = X' (ix2 (i' 0) k)) (hW : W = W') (hB : B = B') :
    lin X W B i = lin X' W' B' i' := by
  subst hW hB
  unfold lin mm
  rw [h1]
  exact congrArg (· + B (ix2 (0 : Fin 1) (i' 1))) (Finset.sum_congr rfl fun k _ => by rw [hX k])

end Cert.Dense

end
-- ==== Proof.KI.ValProd0.lean ====
/-
  Launch 0, the fused projection, at the exact-real instance: whatever the arrays hold when the launch is entered, it
  leaves in its result array the plain product of the activations X [2048, 2048] and the concatenated weights
  W [2048, 6144]: entry (r, j) is the sum over k of X (r, k) * W (k, j).

  The 2 × 6 grid's point at block index (p, q) multiplies rows 1024·p … of X by columns 1024·q … of W into the zero
  accumulator and writes the 1024 × 1024 product back as block (p, q) of the result.  A product into the zero accumulator
  is the sum over k at every entry; entry (a, b) of the block is entry (1024·p + a, 1024·q + b) of the whole, whose
  row of X and column of W are row a of the row block and column b of the column block: so what each point writes back
  is its block of the ONE whole-array product.  Entry (r, j) lies in the block of the point at (r / 1024, j / 1024),
  so the blocks cover the array, which therefore ends holding the product.
-/
import proofs.«125511_j29764123361587_2_alg».proof.Proof.KI.Data
import proofs.«125511_j29764123361587_2_alg».proof.Proof.LibDense
import Idealize.ShloMosaic.Lib.Pipeline.Value
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The two zero offsets of a whole-buffer rectangle, as the constant function. -/
private theorem zeros2 : (![0, 0] : Fin 2 → Nat) = fun _ => 0 := funext fun a => by fin_cases a <;> rfl

/-- What the body of launch 0 leaves in the output buffer, entry by entry: the product of the two loaded blocks. -/
theorem prod0_apply (x0 : Vec Ideal S1024x2048 .f32) (x1 : Vec Ideal S2048x1024 .f32) (j : S1024x1024.Idx) :
    prod0 x0 x1 j = Cert.Dense.mm x0 x1 j := by
  unfold prod0
  rw [View.canon_unit_zero zeros2]
  rw [View.ld_unit_zero (S := S1024x2048) zeros2, View.ld_unit_zero (S := S2048x1024) zeros2]
  unfold k0_pay1
  rw [shapeCast_self]
  exact Cert.Dense.matmul_zero_eq _ rfl rfl (fun _ _ => rfl) (fun _ _ => rfl) (fun _ _ => rfl) (fun _ _ => rfl) _ _ _ _

/-- The product of rows p·1024 … of X and columns q·1024 … of W, at an entry of the block, is the entry of X·W at
    that entry's place in the whole product. -/
theorem mm_block0 (X : S2048x2048.Idx → EReal) (W : S2048x6144.Idx → EReal)
    (x0 : S1024x2048.Idx → EReal) (x1 : S2048x1024.Idx → EReal) (p q : Nat)
    (h0 : ∀ (y : S1024x2048.Idx) (i : S2048x2048.Idx), (i 0).val = p * 1024 + (y 0).val → (i 1).val = (y 1).val → x0 y = X i)
    (h1 : ∀ (y : S2048x1024.Idx) (i : S2048x6144.Idx), (i 0).val = (y 0).val → (i 1).val = q * 1024 + (y 1).val → x1 y = W i)
    (j : S1024x1024.Idx) (i : S2048x6144.Idx) (hi0 : (i 0).val = p * 1024 + (j 0).val) (hi1 : (i 1).val = q * 1024 + (j 1).val) :
    Cert.Dense.mm x0 x1 j = Cert.Dense.mm X W i :=
  Cert.Dense.mm_congr j i (fun k => h0 _ _ hi0 rfl) (fun k => h1 _ _ rfl hi1)

/-- The printed index maps of launch 0, decided over its twelve points: the activations' block moves with the output's
    row block and stays at column block 0, the weights' block moves with the output's column block and stays at row
    block 0; the output's block indices stay in their ranges. -/
theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = win0_2.index t (1 : Fin 2)
    ∧ win0_2.index t (0 : Fin 2) ≤ 1
    ∧ win0_2.index t (1 : Fin 2) ≤ 5 :=
  (by decide +kernel : ∀ t : Fin grid0.N, _)

/-- Every block of the 2 × 6 cover is some point's. -/
theorem idx_onto0 : ∀ (q0 : Fin 2) (q1 : Fin 6), ∃ t : Fin cfg0.N, win0_2.index t = ![q0.val, q1.val] :=
  (by decide +kernel : ∀ (q0 : Fin 2) (q1 : Fin 6), ∃ t : Fin grid0.N, win0_2.index t = ![q0.val, q1.val])

/-- The activations' block at point t, entry by entry: rows index·1024 … of the array. -/
theorem blk0_0_apply (c : Dev nD) (t : Fin cfg0.N) (y : S1024x2048.Idx) (i : S2048x2048.Idx)
    (h0 : (i 0).val = win0_0.index t (0 : Fin 2) * 1024 + (y 0).val)
    (h1 : (i 1).val = win0_0.index t (1 : Fin 2) * 2048 + (y 1).val) :
    (blk0 V c 0 t : S1024x2048.Idx → EReal) y = (V c main_arg0 : S2048x2048.Idx → EReal) i := by
  unfold blk0
  rw [View.read_apply]
  show V c main_arg0 _ = V c main_arg0 _
  congr 1
  funext a
  apply Fin.ext
  match a with
  | ⟨0, _⟩ => show win0_0.index t (0 : Fin 2) * 1024 + 1 * (y 0).val = (i 0).val; omega
  | ⟨1, _⟩ => show win0_0.index t (1 : Fin 2) * 2048 + 1 * (y 1).val = (i 1).val; omega

/-- The weights' block at point t, entry by entry: columns index·1024 … of the array. -/
theorem blk0_1_apply (c : Dev nD) (t : Fin cfg0.N) (y : S2048x1024.Idx) (i : S2048x6144.Idx)
    (h0 : (i 0).val = win0_1.index t (0 : Fin 2) * 2048 + (y 0).val)
    (h1 : (i 1).val = win0_1.index t (1 : Fin 2) * 1024 + (y 1).val) :
    (blk0 V c 1 t : S2048x1024.Idx → EReal) y = (V c main_v0 : S2048x6144.Idx → EReal) i := by
  unfold blk0
  rw [View.read_apply]
  show V c main_v0 _ = V c main_v0 _
  congr 1
  funext a
  apply Fin.ext
  match a with
  | ⟨0, _⟩ => show win0_1.index t (0 : Fin 2) * 2048 + 1 * (y 0).val = (i 0).val; omega
  | ⟨1, _⟩ => show win0_1.index t (1 : Fin 2) * 1024 + 1 * (y 1).val = (i 1).val; omega

/-- What point t writes back is block t of the whole product. -/
theorem flushed0_eq (c : Dev nD) (t : Fin cfg0.N) :
    (dat0 V c).flushed 2 t = ((cfg0.win 2).blk t).view.read (Elt Ideal)
      (Cert.Dense.mm (V c main_arg0 : S2048x2048.Idx → EReal) (V c main_v0 : S2048x6144.Idx → EReal)) := by
  show (cfg0.win 2).cut (grid0.coords t) ((dat0 V c).after 2 t) = _
  rw [dat0_after2]
  obtain ⟨e0, e1, e2, e3, e4, e5⟩ := idx_facts0 t
  funext j
  rw [View.read_apply]
  show prod0 (blk0 V c 0 t) (blk0 V c 1 t) ((cfg0.win 2).xinj (grid0.coords t) j) = Cert.Dense.mm (V c main_arg0 : S2048x2048.Idx → EReal) (V c main_v0 : S2048x6144.Idx → EReal) (((cfg0.win 2).blk t).view.emb j)
  rw [prod0_apply]
  refine mm_block0 _ _ _ _ (win0_2.index t (0 : Fin 2)) (win0_2.index t (1 : Fin 2)) (fun y i hy0 hy1 => ?_) (fun y i hy0 hy1 => ?_) _ _ ?_ ?_
  · exact blk0_0_apply V c t y i (by rw [e0]; exact hy0) (by rw [e1]; omega)
  · exact blk0_1_apply V c t y i (by rw [e2]; omega) (by rw [e3]; exact hy1)
  · show win0_2.index t (0 : Fin 2) * 1024 + 1 * (j 0).val = win0_2.index t (0 : Fin 2) * 1024 + (j 0).val; omega
  · show win0_2.index t (1 : Fin 2) * 1024 + 1 * (j 1).val = win0_2.index t (1 : Fin 2) * 1024 + (j 1).val; omega

/-- An entry of the result array is in point t's block iff each coordinate is in the block's range on its axis. -/
theorem mem_blk0 (t : Fin cfg0.N) (i : S2048x6144.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v1).slice (win0_2.rect t)).set ↔ _
  rw [View.set_slice_whole, Rect.mem_set_unit]
  exact Iff.rfl

/-- Every entry (r, j) of the result array is in the block of the point at block index (r / 1024, j / 1024). -/
theorem blocks_cover0 (i : S2048x6144.Idx) : ∃ t : Fin cfg0.N, (cfg0.win 2).flush t = true ∧ i ∈ ((cfg0.win 2).blk t).view.set := by
  have hi0 : (i 0).val < 2048 := (i 0).isLt
  have hi1 : (i 1).val < 6144 := (i 1).isLt
  obtain ⟨t, ht⟩ := idx_onto0 ⟨(i 0).val / 1024, by omega⟩ ⟨(i 1).val / 1024, by omega⟩
  have q0 : win0_2.index t (0 : Fin 2) = (i 0).val / 1024 := congrFun ht 0
  have q1 : win0_2.index t (1 : Fin 2) = (i 1).val / 1024 := congrFun ht 1
  refine ⟨t, flush0_2 t, ?_⟩
  rw [mem_blk0]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

/-- After launch 0 the result array holds the plain product of the activations and the concatenated weights. -/
theorem final0 (c : Dev nD) :
    (dat0 (F := Ideal) V c).arrAt 2 cfg0.N
      = Cert.Dense.mm (V c main_arg0 : S2048x2048.Idx → EReal) (V c main_v0 : S2048x6144.Idx → EReal) :=
  (dat0 V c).arrAt_eq_of_cover 2 _ (fun t _ => flushed0_eq V c t) blocks_cover0

end Cert.KernelIdeal.Hand

end
-- ==== Proof.KI.ValProd2.lean ====
/-
  Launch 2, the output projection, at the exact-real instance: whatever the arrays hold when the launch is entered, it
  leaves in its result array the plain product of its left operand A [2048, 2048] (the merged heads) and the output
  weights W [2048, 2048]: entry (r, j) is the sum over k of A (r, k) * W (k, j).

  The 2 × 2 grid's point at block index (p, q) multiplies rows 1024·p … of A by columns 1024·q … of W into the zero
  accumulator and writes the 1024 × 1024 product back as block (p, q) of the result.  A product into the zero accumulator
  is the sum over k at every entry; entry (a, b) of the block is entry (1024·p + a, 1024·q + b) of the whole, whose
  row of A and column of W are row a of the row block and column b of the column block: so what each point writes back
  is its block of the ONE whole-array product.  Entry (r, j) lies in the block of the point at (r / 1024, j / 1024),
  so the blocks cover the array, which therefore ends holding the product.
-/
import proofs.«125511_j29764123361587_2_alg».proof.Proof.KI.Data
import proofs.«125511_j29764123361587_2_alg».proof.Proof.LibDense
import Idealize.ShloMosaic.Lib.Pipeline.Value
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The two zero offsets of a whole-buffer rectangle, as the constant function. -/
private theorem zeros2 : (![0, 0] : Fin 2 → Nat) = fun _ => 0 := funext fun a => by fin_cases a <;> rfl

/-- What the body of launch 2 leaves in the output buffer, entry by entry: the product of the two loaded blocks. -/
theorem prod2_apply (x0 : Vec Ideal S1024x2048 .f32) (x1 : Vec Ideal S2048x1024 .f32) (j : S1024x1024.Idx) :
    prod2 x0 x1 j = Cert.Dense.mm x0 x1 j := by
  unfold prod2
  rw [View.canon_unit_zero zeros2]
  rw [View.ld_unit_zero (S := S1024x2048) zeros2, View.ld_unit_zero (S := S2048x1024) zeros2]
  unfold k2_pay1
  rw [shapeCast_self]
  exact Cert.Dense.matmul_zero_eq _ rfl rfl (fun _ _ => rfl) (fun _ _ => rfl) (fun _ _ => rfl) (fun _ _ => rfl) _ _ _ _

/-- The product of rows p·1024 … of X and columns q·1024 … of W, at an entry of the block, is the entry of X·W at
    that entry's place in the whole product. -/
theorem mm_block2 (X : S2048x2048.Idx → EReal) (W : S2048x2048.Idx → EReal)
    (x0 : S1024x2048.Idx → EReal) (x1 : S2048x1024.Idx → EReal) (p q : Nat)
    (h0 : ∀ (y : S1024x2048.Idx) (i : S2048x2048.Idx), (i 0).val = p * 1024 + (y 0).val → (i 1).val = (y 1).val → x0 y = X i)
    (h1 : ∀ (y : S2048x1024.Idx) (i : S2048x2048.Idx), (i 0).val = (y 0).val → (i 1).val = q * 1024 + (y 1).val → x1 y = W i)
    (j : S1024x1024.Idx) (i : S2048x2048.Idx) (hi0 : (i 0).val = p * 1024 + (j 0).val) (hi1 : (i 1).val = q * 1024 + (j 1).val) :
    Cert.Dense.mm x0 x1 j = Cert.Dense.mm X W i :=
  Cert.Dense.mm_congr j i (fun k => h0 _ _ hi0 rfl) (fun k => h1 _ _ rfl hi1)

/-- The printed index maps of launch 2, decided over its four points: the left operand's block moves with the output's
    row block and stays at column block 0, the right operand's block moves with the output's column block and stays at
    row block 0; the output's block indices stay in their ranges. -/
theorem idx_facts2 : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = win2_2.index t (1 : Fin 2)
    ∧ win2_2.index t (0 : Fin 2) ≤ 1
    ∧ win2_2.index t (1 : Fin 2) ≤ 1 :=
  (by decide +kernel : ∀ t : Fin grid2.N, _)

/-- Every block of the 2 × 2 cover is some point's. -/
theorem idx_onto2 : ∀ (q0 : Fin 2) (q1 : Fin 2), ∃ t : Fin cfg2.N, win2_2.index t = ![q0.val, q1.val] :=
  (by decide +kernel : ∀ (q0 : Fin 2) (q1 : Fin 2), ∃ t : Fin grid2.N, win2_2.index t = ![q0.val, q1.val])

/-- The left operand's block at point t, entry by entry: rows index·1024 … of the array. -/
theorem blk2_0_apply (c : Dev nD) (t : Fin cfg2.N) (y : S1024x2048.Idx) (i : S2048x2048.Idx)
    (h0 : (i 0).val = win2_0.index t (0 : Fin 2) * 1024 + (y 0).val)
    (h1 : (i 1).val = win2_0.index t (1 : Fin 2) * 2048 + (y 1).val) :
    (blk2 V c 0 t : S1024x2048.Idx → EReal) y = (V c main_v54 : S2048x2048.Idx → EReal) i := by
  unfold blk2
  rw [View.read_apply]
  show V c main_v54 _ = V c main_v54 _
  congr 1
  funext a
  apply Fin.ext
  match a with
  | ⟨0, _⟩ => show win2_0.index t (0 : Fin 2) * 1024 + 1 * (y 0).val = (i 0).val; omega
  | ⟨1, _⟩ => show win2_0.index t (1 : Fin 2) * 2048 + 1 * (y 1).val = (i 1).val; omega

/-- The right operand's block at point t, entry by entry: columns index·1024 … of the array. -/
theorem blk2_1_apply (c : Dev nD) (t : Fin cfg2.N) (y : S2048x1024.Idx) (i : S2048x2048.Idx)
    (h0 : (i 0).val = win2_1.index t (0 : Fin 2) * 2048 + (y 0).val)
    (h1 : (i 1).val = win2_1.index t (1 : Fin 2) * 1024 + (y 1).val) :
    (blk2 V c 1 t : S2048x1024.Idx → EReal) y = (V c main_arg4 : S2048x2048.Idx → EReal) i := by
  unfold blk2
  rw [View.read_apply]
  show V c main_arg4 _ = V c main_arg4 _
  congr 1
  funext a
  apply Fin.ext
  match a with
  | ⟨0, _⟩ => show win2_1.index t (0 : Fin 2) * 2048 + 1 * (y 0).val = (i 0).val; omega
  | ⟨1, _⟩ => show win2_1.index t (1 : Fin 2) * 1024 + 1 * (y 1).val = (i 1).val; omega

/-- What point t writes back is block t of the whole product. -/
theorem flushed2_eq (c : Dev nD) (t : Fin cfg2.N) :
    (dat2 V c).flushed 2 t = ((cfg2.win 2).blk t).view.read (Elt Ideal)
      (Cert.Dense.mm (V c main_v54 : S2048x2048.Idx → EReal) (V c main_arg4 : S2048x2048.Idx → EReal)) := by
  show (cfg2.win 2).cut (grid2.coords t) ((dat2 V c).after 2 t) = _
  rw [dat2_after2]
  obtain ⟨e0, e1, e2, e3, e4, e5⟩ := idx_facts2 t
  funext j
  rw [View.read_apply]
  show prod2 (blk2 V c 0 t) (blk2 V c 1 t) ((cfg2.win 2).xinj (grid2.coords t) j) = Cert.Dense.mm (V c main_v54 : S2048x2048.Idx → EReal) (V c main_arg4 : S2048x2048.Idx → EReal) (((cfg2.win 2).blk t).view.emb j)
  rw [prod2_apply]
  refine mm_block2 _ _ _ _ (win2_2.index t (0 : Fin 2)) (win2_2.index t (1 : Fin 2)) (fun y i hy0 hy1 => ?_) (fun y i hy0 hy1 => ?_) _ _ ?_ ?_
  · exact blk2_0_apply V c t y i (by rw [e0]; exact hy0) (by rw [e1]; omega)
  · exact blk2_1_apply V c t y i (by rw [e2]; omega) (by rw [e3]; exact hy1)
  · show win2_2.index t (0 : Fin 2) * 1024 + 1 * (j 0).val = win2_2.index t (0 : Fin 2) * 1024 + (j 0).val; omega
  · show win2_2.index t (1 : Fin 2) * 1024 + 1 * (j 1).val = win2_2.index t (1 : Fin 2) * 1024 + (j 1).val; omega

/-- An entry of the result array is in point t's block iff each coordinate is in the block's range on its axis. -/
theorem mem_blk2 (t : Fin cfg2.N) (i : S2048x2048.Idx) :
    i ∈ ((cfg2.win 2).blk t).view.set ↔ ∀ a : Fin 2, win2_2.index t a * S1024x1024.size a ≤ (i a).val ∧ (i a).val < win2_2.index t a * S1024x1024.size a + S1024x1024.size a := by
  show i ∈ ((View.whole main_v55).slice (win2_2.rect t)).set ↔ _
  rw [View.set_slice_whole, Rect.mem_set_unit]
  exact Iff.rfl

/-- Every entry (r, j) of the result array is in the block of the point at block index (r / 1024, j / 1024). -/
theorem blocks_cover2 (i : S2048x2048.Idx) : ∃ t : Fin cfg2.N, (cfg2.win 2).flush t = true ∧ i ∈ ((cfg2.win 2).blk t).view.set := by
  have hi0 : (i 0).val < 2048 := (i 0).isLt
  have hi1 : (i 1).val < 2048 := (i 1).isLt
  obtain ⟨t, ht⟩ := idx_onto2 ⟨(i 0).val / 1024, by omega⟩ ⟨(i 1).val / 1024, by omega⟩
  have q0 : win2_2.index t (0 : Fin 2) = (i 0).val / 1024 := congrFun ht 0
  have q1 : win2_2.index t (1 : Fin 2) = (i 1).val / 1024 := congrFun ht 1
  refine ⟨t, flush2_2 t, ?_⟩
  rw [mem_blk2]
  intro a
  match a with
  | ⟨0, _⟩ => show win2_2.index t (0 : Fin 2) * 1024 ≤ (i 0).val ∧ (i 0).val < win2_2.index t (0 : Fin 2) * 1024 + 1024; omega
  | ⟨1, _⟩ => show win2_2.index t (1 : Fin 2) * 1024 ≤ (i 1).val ∧ (i 1).val < win2_2.index t (1 : Fin 2) * 1024 + 1024; omega

/-- After launch 2 the result array holds the plain product of the merged heads and the output weights. -/
theorem final2 (c : Dev nD) :
    (dat2 (F := Ideal) V c).arrAt 2 cfg2.N
      = Cert.Dense.mm (V c main_v54 : S2048x2048.Idx → EReal) (V c main_arg4 : S2048x2048.Idx → EReal) :=
  (dat2 V c).arrAt_eq_of_cover 2 _ (fun t _ => flushed2_eq V c t) blocks_cover2

end Cert.KernelIdeal.Hand

end
-- ==== Proof.Spec.lean ====
/-
  The attention layer as ONE function of its arrays over the extended reals, index by index — what both programs are shown to
  compute.

  With X the [2048, 2048] activations and Wq, Wk, Wv, Wo the weights, Q = X·Wq, K = X·Wk, V = X·Wv (matrix products as plain
  sums, `Cert.Dense.mm`). Head h owns columns 64h … 64h+63: `heads` re-reads a [2048, 2048] matrix as [32, 2048, 64] and
  `merge` is its inverse re-reading. For head h and query s the scores over the keys t are
  score t = Σ_d Q(h,s,d)·K(h,t,d) + bias(h,s,t); with M their maximum (taken from −∞) the weights are
  exp(score t − M) / Σ_u exp(score u − M), and the head's output at (s, d) is Σ_t weight t · V(h,t,d). The layer's result is
  merge(outputs)·Wo. No scaling by 1/√d: the relative-position bias is the only other term.
-/
import Idealize.ShloMosaic.PureOps.Ideal
import Idealize.ShloMosaic.Lib.ValueIdx
import proofs.«125511_j29764123361587_2_alg».proof.Proof.LibDense

noncomputable section

open scoped BigOperators

namespace Cert.Attn

open Idealize.ShloMosaic Idealize.ShloMosaic.ValueIdx

abbrev Mat : Type := (⟨2, ![2048, 2048]⟩ : Shape).Idx → EReal
abbrev Heads : Type := (⟨3, ![32, 2048, 64]⟩ : Shape).Idx → EReal
abbrev Bias : Type := (⟨3, ![32, 2048, 2048]⟩ : Shape).Idx → EReal

/-- Column 64·h + d of a 2048-wide matrix. -/
def col (h : Fin 32) (d : Fin 64) : Fin 2048 := ⟨64 * h.val + d.val, by omega⟩

/-- A [2048, 2048] matrix re-read by heads: entry (h, s, d) is entry (s, 64·h + d). -/
def heads (X : Mat) : Heads := fun i =>
  X (ix2 (⟨(i 1).val, (i 1).isLt⟩ : Fin 2048) (col (⟨(i 0).val, (i 0).isLt⟩ : Fin 32) (⟨(i 2).val, (i 2).isLt⟩ : Fin 64)))

/-- The inverse re-reading: entry (s, j) is entry (j / 64, s, j % 64). -/
def merge (Y : Heads) : Mat := fun i =>
  Y (ix3 (⟨(i 1).val / 64, by have := idx2_lt1 i; omega⟩ : Fin 32) (⟨(i 0).val, idx2_lt0 i⟩ : Fin 2048)
    (⟨(i 1).val % 64, by omega⟩ : Fin 64))

/-- The largest of a row's 2048 scores, taken from the word of −∞. -/
def rowMax (f : Fin 2048 → EReal) : EReal :=
  (Finset.univ : Finset (Fin 2048)).fold max (Ideal.ofBits .f32 0xFF800000#32) f

/-- The exponential of a score less the row's maximum. -/
def expo (f : Fin 2048 → EReal) (t : Fin 2048) : EReal := Ideal.exp (f t - rowMax f)

/-- The softmax weight of key `t` in a row of scores. -/
def weight (f : Fin 2048 → EReal) (t : Fin 2048) : EReal := Ideal.div (expo f t) (∑ u : Fin 2048, expo f u)

/-- Head `h`'s scores of query `s` against every key. -/
def scores (q k : Heads) (b : Bias) (h : Fin 32) (s : Fin 2048) (t : Fin 2048) : EReal :=
  (∑ d : Fin 64, q (ix3 h s d) * k (ix3 h t d)) + b (ix3 h s t)

/-- Attention: at (h, s, d) the softmax-weighted sum of the head's values. -/
def attend (q k v : Heads) (b : Bias) : Heads := fun i =>
  ∑ t : Fin 2048, weight (scores q k b (⟨(i 0).val, (i 0).isLt⟩ : Fin 32) (⟨(i 1).val, (i 1).isLt⟩ : Fin 2048)) t
    * v (ix3 (⟨(i 0).val, (i 0).isLt⟩ : Fin 32) t (⟨(i 2).val, (i 2).isLt⟩ : Fin 64))

/-- The whole layer. -/
def layer (X Wq Wk Wv Wo : Mat) (b : Bias) : Mat :=
  Cert.Dense.mm (merge (attend (heads (Cert.Dense.mm X Wq)) (heads (Cert.Dense.mm X Wk)) (heads (Cert.Dense.mm X Wv)) b)) Wo

end Cert.Attn

end
-- ==== Proof.Layout.lean ====
/-
  Re-readings of one array. Splitting a [2048, 2048] matrix into 32 heads — reshape to [2048, 32, 64], then swap the first two
  axes — reads entry (h, s, d) at (s, 64·h + d): both sit at row-major position (s·32 + h)·64 + d = s·2048 + 64·h + d. Merging
  the heads back is the inverse. And a product with three weight matrices set side by side has, in its p-th band of 2048 columns,
  the product with the p-th matrix alone: column 2048·p + j of the concatenation is column j of piece p.
-/
import proofs.«125511_j29764123361587_2_alg».proof.Proof.Spec
import Idealize.ShloMosaic.Lib.Pipeline.Value
import Idealize.ShloMosaic.Lib.ValueIdx

noncomputable section

open scoped BigOperators

namespace Cert.Attn

open Idealize.ShloMosaic Idealize.ShloMosaic.ValueIdx

abbrev S2 : Shape := ⟨2, ![2048, 2048]⟩
abbrev S6 : Shape := ⟨2, ![2048, 6144]⟩
abbrev S3a : Shape := ⟨3, ![2048, 32, 64]⟩
abbrev S3 : Shape := ⟨3, ![32, 2048, 64]⟩

/-- Reshape to [2048, 32, 64] and swap the token and head axes: the head split. -/
theorem heads_eq (X : Mat) (hc : S2.ShapeCasts S3a) (ht : S3a.Transposes [1, 0, 2] S3) :
    transpose S3 [1, 0, 2] (shapeCast S3a X hc) ht = heads X := by
  funext i
  refine (transpose_apply [1, 0, 2] (shapeCast S3a X hc) ht i
    (ix3 (⟨(i 1).val, (i 1).isLt⟩ : Fin 2048) (⟨(i 0).val, (i 0).isLt⟩ : Fin 32) (⟨(i 2).val, (i 2).isLt⟩ : Fin 64))
    (fun b => by match b with | ⟨0, _⟩ => rfl | ⟨1, _⟩ => rfl | ⟨2, _⟩ => rfl)).trans ?_
  unfold heads
  refine shapeCast_apply X hc _ _ ?_
  rw [Shape.rowMajor_val_two, Shape.rowMajor_val_three]
  show (i 1).val * 2048 + (64 * (i 0).val + (i 2).val) = ((i 1).val * 32 + (i 0).val) * 64 + (i 2).val
  omega

/-- Swap the head and token axes and reshape to [2048, 2048]: the heads merged back. -/
theorem merge_eq (Y : Heads) (ht : S3.Transposes [1, 0, 2] S3a) (hc : S3a.ShapeCasts S2) :
    shapeCast S2 (transpose S3a [1, 0, 2] Y ht) hc = merge Y := by
  funext i
  have h1 : (i 1).val < 2048 := idx2_lt1 i
  have h0 : (i 0).val < 2048 := idx2_lt0 i
  refine (shapeCast_apply (transpose S3a [1, 0, 2] Y ht) hc i
    (ix3 (⟨(i 0).val, h0⟩ : Fin 2048) (⟨(i 1).val / 64, by omega⟩ : Fin 32) (⟨(i 1).val % 64, by omega⟩ : Fin 64)) ?_).trans ?_
  · rw [Shape.rowMajor_val_two, Shape.rowMajor_val_three]
    show ((i 0).val * 32 + (i 1).val / 64) * 64 + (i 1).val % 64 = (i 0).val * 2048 + (i 1).val
    omega
  unfold merge
  exact transpose_apply [1, 0, 2] Y ht _ _
    (fun b => by match b with | ⟨0, _⟩ => rfl | ⟨1, _⟩ => rfl | ⟨2, _⟩ => rfl)

/-- A band of 2048 columns starting at column `o` of a product whose right factor reads, in that band, as `W`: the product
    with `W`. -/
theorem slice_mm_of (X : Mat) (Wc : S6.Idx → EReal) (W : Mat) (o : Nat) (ho : o + 2048 ≤ 6144)
    (hW : ∀ (k j : Fin 2048) (c : Fin 6144), c.val = o + j.val → Wc (ix2 k c) = W (ix2 k j))
    (off : Fin 2 → Nat) (hoff0 : off 0 = 0) (hoff1 : off 1 = o) (hs : S6.Slices off S2) :
    extractStridedSlice S2 off (Cert.Dense.mm X Wc) hs = Cert.Dense.mm X W := by
  funext i
  have h1 : (i 1).val < 2048 := idx2_lt1 i
  have h0 : (i 0).val < 2048 := idx2_lt0 i
  refine (extractStridedSlice_apply off _ hs i
    (ix2 (⟨(i 0).val, h0⟩ : Fin 2048) (⟨o + (i 1).val, by omega⟩ : Fin 6144))
    (fun a => by match a with
      | ⟨0, _⟩ => show (i 0).val = off 0 + (i 0).val; omega
      | ⟨1, _⟩ => show o + (i 1).val = off 1 + (i 1).val; omega)).trans ?_
  unfold Cert.Dense.mm
  refine Finset.sum_congr rfl fun k _ => ?_
  have e := hW k (⟨(i 1).val, h1⟩ : Fin 2048) (⟨o + (i 1).val, by omega⟩ : Fin 6144) rfl
  show X (ix2 _ k) * Wc (ix2 k _) = X (ix2 (i 0) k) * W (ix2 k (i 1))
  rw [e]
  rfl

section
variable (W0 W1 W2 : Mat) (hcat : Shape.Concatenates [S2, S2, S2] S6 1)

/-- Columns 0 … 2047 of three matrices set side by side are the first. -/
theorem concat3_piece0 (k j : Fin 2048) (c : Fin 6144) (hcv : c.val = 0 + j.val) :
    concatenate S6 (1 : Fin 2) [⟨S2, W0⟩, ⟨S2, W1⟩, ⟨S2, W2⟩] hcat (ix2 k c) = W0 (ix2 k j) :=
  concatenate_apply_piece (α := EReal) (t := S6) (1 : Fin 2) [⟨S2, W0⟩, ⟨S2, W1⟩, ⟨S2, W2⟩] hcat (ix2 k c) 0 (by simp) S2 W0 rfl rfl 0 rfl
    (ix2 k j) (fun b hb => by match b with | ⟨0, _⟩ => rfl | ⟨1, _⟩ => exact absurd rfl hb) (by show 0 + j.val = c.val; omega)

/-- Columns 2048 … 4095 are the second. -/
theorem concat3_piece1 (k j : Fin 2048) (c : Fin 6144) (hcv : c.val = 2048 + j.val) :
    concatenate S6 (1 : Fin 2) [⟨S2, W0⟩, ⟨S2, W1⟩, ⟨S2, W2⟩] hcat (ix2 k c) = W1 (ix2 k j) :=
  concatenate_apply_piece (α := EReal) (t := S6) (1 : Fin 2) [⟨S2, W0⟩, ⟨S2, W1⟩, ⟨S2, W2⟩] hcat (ix2 k c) 1 (by simp) S2 W1 rfl rfl 2048 rfl
    (ix2 k j) (fun b hb => by match b with | ⟨0, _⟩ => rfl | ⟨1, _⟩ => exact absurd rfl hb) (by show 2048 + j.val = c.val; omega)

/-- Columns 4096 … 6143 are the third. -/
theorem concat3_piece2 (k j : Fin 2048) (c : Fin 6144) (hcv : c.val = 4096 + j.val) :
    concatenate S6 (1 : Fin 2) [⟨S2, W0⟩, ⟨S2, W1⟩, ⟨S2, W2⟩] hcat (ix2 k c) = W2 (ix2 k j) :=
  concatenate_apply_piece (α := EReal) (t := S6) (1 : Fin 2) [⟨S2, W0⟩, ⟨S2, W1⟩, ⟨S2, W2⟩] hcat (ix2 k c) 2 (by simp) S2 W2 rfl rfl 4096 rfl
    (ix2 k j) (fun b hb => by match b with | ⟨0, _⟩ => rfl | ⟨1, _⟩ => exact absurd rfl hb) (by show 4096 + j.val = c.val; omega)

end

end Cert.Attn

end
-- ==== Proof.LibGatherRows.lean ====
/-
  `stablehlo.gather` of whole rows of a matrix, read at an index.

  What `x[idx]` of a table `x : [N, C]` at an integer vector `idx : [E]` lowers to, the vector carried as an
  `[E, 1]` array of start indices: offset axes `[1]`, collapsed axes `[0]`, start index map `[0]`, the index vector on
  axis 1, slice sizes `[1, C]`. Result element `(e, k)` is the table's element `(r, k)`, the row `r` being the start
  word `idx[e, 0]` read as a signed integer and clamped into `[0, N - 1]`: a negative word reads row 0, a word past
  the table its last row.
-/
import Idealize.ShloMosaic.Lib.ValueIdx

noncomputable section

namespace Idealize.ShloMosaic.ValueIdx

open Idealize.ShloMosaic

section Rows
variable {α : Type}

/-- Those dimension numbers for a table `[N, C]`, start indices `[E, 1]` and a result `[E, C]`; their conditions are
    decided on a program's literal shapes. -/
abbrev rowsDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row a start word names in a table of `N` rows: the word read signed, clamped into `[0, N - 1]`. -/
def clampRow (N : Nat) {w : Nat} (v : BitVec w) : Nat := min v.toInt.toNat (N - 1)

theorem clampRow_lt {N : Nat} (hN : 0 < N) {w : Nat} (v : BitVec w) : clampRow N v < N := by
  unfold clampRow; omega

/-- THE GATHER READ AT `(e, k)`: the table at row `clampRow N idx[e, 0]`, column `k`. -/
theorem gather_rows_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowsDims N C E wf) x idx (ix2 e k)
      = x (ix2 ⟨clampRow N (idx (ix2 e (0 : Fin 1))), clampRow_lt hN _⟩ k) := by
  unfold Host.gather
  congr 1
  funext a
  refine Fin.ext ?_
  match a with
  | ⟨0, _⟩ =>
    show (rowsDims N C E wf).start (ix2 e k) idx 0 + (rowsDims N C E wf).batchCoord (ix2 e k) 0
      + (rowsDims N C E wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N C E wf).startIndexMap from List.mem_singleton.mpr rfl)]
    have hsi : (rowsDims N C E wf).siIdx (ix2 e k) ⟨List.idxOf (0 : Fin 2) (rowsDims N C E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowsDims N C E wf).start (ix2 e k) idx 1 + (rowsDims N C E wf).batchCoord (ix2 e k) 1
      + (rowsDims N C E wf).offCoord (ix2 e k) 1 = k.val
    rw [GatherDims.batchCoord_eq_zero _ _ _ List.not_mem_nil]
    unfold GatherDims.start
    rw [dif_neg (show ¬ (1 : Fin 2) ∈ (rowsDims N C E wf).startIndexMap from
      fun h => absurd (congrArg Fin.val (List.mem_singleton.mp h)) Nat.one_ne_zero)]
    simp only [Nat.add_zero, Nat.zero_add]
    unfold GatherDims.offCoord
    rw [dif_pos (show (1 : Fin 2) ∈ (rowsDims N C E wf).sKept from (GatherDims.mem_sKept _ _).mpr
      ⟨fun h => absurd (congrArg Fin.val (List.mem_singleton.mp h)) Nat.one_ne_zero, List.not_mem_nil⟩)]
    rfl

end Rows

end Idealize.ShloMosaic.ValueIdx

end
-- ==== Proof.LibGatherPlane.lean ====
/-
  Two layouts of one table lookup: `stablehlo.gather` of a rank-2 table at an [R, C, 1] array of start indices, one index word
  per (r, c), the slice a whole line of the table along the OTHER axis.

  * `gather_lines_last`: the table is [N, H], the word picks the ROW, the result is [R, C, H] — what `table[idx]` lowers to:
    result (r, c, h) = table (row, h);
  * `gather_lines_first`: the table is [H, N], the word picks the COLUMN, the result is [H, R, C] — what `table[:, idx]`
    lowers to: result (h, r, c) = table (h, col).

  In both the word is read signed and clamped into [0, N − 1] (`clampRow`, from the whole-row gather's file). So looking up the
  transposed table in the second layout is the first layout's result with its axes rotated.
-/
import Idealize.ShloMosaic.Lib.ValueIdx
import proofs.«125511_j29764123361587_2_alg».proof.Proof.LibGatherRows

noncomputable section

namespace Idealize.ShloMosaic.ValueIdx

open Idealize.ShloMosaic

section Plane
variable {α : Type}

/-- Dimension numbers of `table[idx]` for a table [N, H] and start indices [R, C, 1]. -/
abbrev linesLastDims (N H R C : Nat)
    (wf : GatherDims.WF ⟨2, ![N, H]⟩ ⟨3, ![R, C, 1]⟩ ⟨3, ![R, C, H]⟩ [2] [0] [] [0] [] 2 ![1, H]) :
    GatherDims ⟨2, ![N, H]⟩ ⟨3, ![R, C, 1]⟩ ⟨3, ![R, C, H]⟩ where
  offsetDims := [2]
  collapsedSliceDims := [0]
  operandBatchingDims := []
  startIndicesBatchingDims := []
  startIndexMap := [0]
  indexVectorDim := 2
  sliceSizes := ![1, H]
  wf := wf

/-- Dimension numbers of `table[:, idx]` for a table [H, N] and start indices [R, C, 1]. -/
abbrev linesFirstDims (H N R C : Nat)
    (wf : GatherDims.WF ⟨2, ![H, N]⟩ ⟨3, ![R, C, 1]⟩ ⟨3, ![H, R, C]⟩ [0] [1] [] [1] [] 2 ![H, 1]) :
    GatherDims ⟨2, ![H, N]⟩ ⟨3, ![R, C, 1]⟩ ⟨3, ![H, R, C]⟩ where
  offsetDims := [0]
  collapsedSliceDims := [1]
  operandBatchingDims := []
  startIndicesBatchingDims := []
  startIndexMap := [1]
  indexVectorDim := 2
  sliceSizes := ![H, 1]
  wf := wf

/-- `table[idx]` read at (r, c, h): the table at the row the word at (r, c) names, column h. -/
theorem gather_lines_last {N H R C w : Nat} (hN : 0 < N)
    (wf : GatherDims.WF ⟨2, ![N, H]⟩ ⟨3, ![R, C, 1]⟩ ⟨3, ![R, C, H]⟩ [2] [0] [] [0] [] 2 ![1, H])
    (x : (⟨2, ![N, H]⟩ : Shape).Idx → α) (idx : IVec ⟨3, ![R, C, 1]⟩ w) (r : Fin R) (c : Fin C) (h : Fin H) :
    Host.gather (linesLastDims N H R C wf) x idx (ix3 r c h)
      = x (ix2 ⟨clampRow N (idx (ix3 r c (0 : Fin 1))), clampRow_lt hN _⟩ h) := by
  unfold Host.gather
  congr 1
  funext a
  refine Fin.ext ?_
  match a with
  | ⟨0, _⟩ =>
    show (linesLastDims N H R C wf).start (ix3 r c h) idx 0 + (linesLastDims N H R C wf).batchCoord (ix3 r c h) 0
      + (linesLastDims N H R C wf).offCoord (ix3 r c h) 0 = _
    rw [GatherDims.batchCoord_eq_zero _ _ _ List.not_mem_nil,
      GatherDims.offCoord_eq_zero _ _ _ (fun h' => ((GatherDims.mem_sKept _ _).mp h').1 (List.mem_singleton.mpr rfl))]
    simp only [Nat.add_zero]
    unfold GatherDims.start
    rw [dif_pos (show (0 : Fin 2) ∈ (linesLastDims N H R C wf).startIndexMap from List.mem_singleton.mpr rfl)]
    have hsi : (linesLastDims N H R C wf).siIdx (ix3 r c h) ⟨List.idxOf (0 : Fin 2) (linesLastDims N H R C wf).startIndexMap,
        List.idxOf_lt_length_iff.2 (List.mem_singleton.mpr rfl)⟩ = ix3 r c (0 : Fin 1) := by
      funext b; refine Fin.ext ?_
      match b with
      | ⟨0, _⟩ => rfl
      | ⟨1, _⟩ => rfl
      | ⟨2, _⟩ => rfl
    rw [hsi]
    rfl
  | ⟨1, _⟩ =>
    show (linesLastDims N H R C wf).start (ix3 r c h) idx 1 + (linesLastDims N H R C wf).batchCoord (ix3 r c h) 1
      + (linesLastDims N H R C wf).offCoord (ix3 r c h) 1 = h.val
    rw [GatherDims.batchCoord_eq_zero _ _ _ List.not_mem_nil]
    unfold GatherDims.start
    rw [dif_neg (show ¬ (1 : Fin 2) ∈ (linesLastDims N H R C wf).startIndexMap from
      fun h' => absurd (congrArg Fin.val (List.mem_singleton.mp h')) Nat.one_ne_zero)]
    simp only [Nat.add_zero, Nat.zero_add]
    unfold GatherDims.offCoord
    rw [dif_pos (show (1 : Fin 2) ∈ (linesLastDims N H R C wf).sKept from (GatherDims.mem_sKept _ _).mpr
      ⟨fun h' => absurd (congrArg Fin.val (List.mem_singleton.mp h')) Nat.one_ne_zero, List.not_mem_nil⟩)]
    rfl

/-- `table[:, idx]` read at (h, r, c): the table at row h, the column the word at (r, c) names. -/
theorem gather_lines_first {H N R C w : Nat} (hN : 0 < N)
    (wf : GatherDims.WF ⟨2, ![H, N]⟩ ⟨3, ![R, C, 1]⟩ ⟨3, ![H, R, C]⟩ [0] [1] [] [1] [] 2 ![H, 1])
    (x : (⟨2, ![H, N]⟩ : Shape).Idx → α) (idx : IVec ⟨3, ![R, C, 1]⟩ w) (h : Fin H) (r : Fin R) (c : Fin C) :
    Host.gather (linesFirstDims H N R C wf) x idx (ix3 h r c)
      = x (ix2 h ⟨clampRow N (idx (ix3 r c (0 : Fin 1))), clampRow_lt hN _⟩) := by
  unfold Host.gather
  congr 1
  funext a
  refine Fin.ext ?_
  match a with
  | ⟨0, _⟩ =>
    show (linesFirstDims H N R C wf).start (ix3 h r c) idx 0 + (linesFirstDims H N R C wf).batchCoord (ix3 h r c) 0
      + (linesFirstDims H N R C wf).offCoord (ix3 h r c) 0 = h.val
    rw [GatherDims.batchCoord_eq_zero _ _ _ List.not_mem_nil]
    unfold GatherDims.start
    rw [dif_neg (show ¬ (0 : Fin 2) ∈ (linesFirstDims H N R C wf).startIndexMap from
      fun h' => absurd (congrArg Fin.val (List.mem_singleton.mp h')) Nat.zero_ne_one)]
    simp only [Nat.add_zero, Nat.zero_add]
    unfold GatherDims.offCoord
    rw [dif_pos (show (0 : Fin 2) ∈ (linesFirstDims H N R C wf).sKept from (GatherDims.mem_sKept _ _).mpr
      ⟨fun h' => absurd (congrArg Fin.val (List.mem_singleton.mp h')) Nat.zero_ne_one, List.not_mem_nil⟩)]
    rfl
  | ⟨1, _⟩ =>
    show (linesFirstDims H N R C wf).start (ix3 h r c) idx 1 + (linesFirstDims H N R C wf).batchCoord (ix3 h r c) 1
      + (linesFirstDims H N R C wf).offCoord (ix3 h r c) 1 = _
    rw [GatherDims.batchCoord_eq_zero _ _ _ List.not_mem_nil,
      GatherDims.offCoord_eq_zero _ _ _ (fun h' => ((GatherDims.mem_sKept _ _).mp h').1 (List.mem_singleton.mpr rfl))]
    simp only [Nat.add_zero]
    unfold GatherDims.start
    rw [dif_pos (show (1 : Fin 2) ∈ (linesFirstDims H N R C wf).startIndexMap from List.mem_singleton.mpr rfl)]
    have hsi : (linesFirstDims H N R C wf).siIdx (ix3 h r c) ⟨List.idxOf (1 : Fin 2) (linesFirstDims H N R C wf).startIndexMap,
        List.idxOf_lt_length_iff.2 (List.mem_singleton.mpr rfl)⟩ = ix3 r c (0 : Fin 1) := by
      funext b; refine Fin.ext ?_
      match b with
      | ⟨0, _⟩ => rfl
      | ⟨1, _⟩ => rfl
      | ⟨2, _⟩ => rfl
    rw [hsi]
    rfl

end Plane

end Idealize.ShloMosaic.ValueIdx

end
-- ==== Proof.BiasSpec.lean ====
/-
  The relative-position bias as one function of the embedding table and the array of bucket words: entry (h, s, t) is the
  table's entry (bucket(s, t), h), the word read signed and clamped into the table's 32 rows. Both programs compute it: one
  looks rows up and rotates the head axis to the front, the other looks columns of the transposed table up.
-/
import proofs.«125511_j29764123361587_2_alg».proof.Proof.Spec
import proofs.«125511_j29764123361587_2_alg».proof.Proof.LibGatherPlane
import Idealize.ShloMosaic.Lib.Pipeline.Value

noncomputable section

namespace Cert.Attn

open Idealize.ShloMosaic Idealize.ShloMosaic.ValueIdx

abbrev Table : Type := (⟨2, ![32, 32]⟩ : Shape).Idx → EReal

/-- The bias from the table and the bucket words. -/
def biasOf (E : Table) (ix : IVec ⟨2, ![2048, 2048]⟩ 32) : Bias := fun i =>
  E (ix2 (⟨clampRow 32 (ix (ix2 (⟨(i 1).val, (i 1).isLt⟩ : Fin 2048) (⟨(i 2).val, (i 2).isLt⟩ : Fin 2048))),
      clampRow_lt (by decide) _⟩ : Fin 32) (⟨(i 0).val, (i 0).isLt⟩ : Fin 32))

/-- Rows looked up, then the head axis rotated to the front. -/
theorem bias_last (E : Table) (ix : IVec ⟨2, ![2048, 2048]⟩ 32)
    (wf : GatherDims.WF ⟨2, ![32, 32]⟩ ⟨3, ![2048, 2048, 1]⟩ ⟨3, ![2048, 2048, 32]⟩ [2] [0] [] [0] [] 2 ![1, 32])
    (hb : (⟨2, ![2048, 2048]⟩ : Shape).BroadcastsInDim ⟨3, ![2048, 2048, 1]⟩ ![0, 1])
    (hT : (⟨3, ![2048, 2048, 32]⟩ : Shape).Transposes [2, 0, 1] ⟨3, ![32, 2048, 2048]⟩) :
    transpose ⟨3, ![32, 2048, 2048]⟩ [2, 0, 1]
      (Host.gather (linesLastDims 32 32 2048 2048 wf) E (broadcastInDim ⟨3, ![2048, 2048, 1]⟩ ![0, 1] hb ix)) hT
      = biasOf E ix := by
  funext i
  refine (transpose_apply [2, 0, 1] _ hT i
    (ix3 (⟨(i 1).val, (i 1).isLt⟩ : Fin 2048) (⟨(i 2).val, (i 2).isLt⟩ : Fin 2048) (⟨(i 0).val, (i 0).isLt⟩ : Fin 32))
    (fun b => by match b with | ⟨0, _⟩ => rfl | ⟨1, _⟩ => rfl | ⟨2, _⟩ => rfl)).trans ?_
  rw [gather_lines_last (by decide) wf]
  unfold biasOf
  rw [broadcastInDim_apply ![0, 1] hb ix _ (ix2 (⟨(i 1).val, (i 1).isLt⟩ : Fin 2048) (⟨(i 2).val, (i 2).isLt⟩ : Fin 2048))
    (fun a => by match a with | ⟨0, _⟩ => rfl | ⟨1, _⟩ => rfl)]

/-- Columns of the transposed table looked up. -/
theorem bias_first (E : Table) (ix : IVec ⟨2, ![2048, 2048]⟩ 32)
    (wf : GatherDims.WF ⟨2, ![32, 32]⟩ ⟨3, ![2048, 2048, 1]⟩ ⟨3, ![32, 2048, 2048]⟩ [0] [1] [] [1] [] 2 ![32, 1])
    (hb : (⟨2, ![2048, 2048]⟩ : Shape).BroadcastsInDim ⟨3, ![2048, 2048, 1]⟩ ![0, 1])
    (hT : (⟨2, ![32, 32]⟩ : Shape).Transposes [1, 0] ⟨2, ![32, 32]⟩) :
    Host.gather (linesFirstDims 32 32 2048 2048 wf) (transpose ⟨2, ![32, 32]⟩ [1, 0] E hT)
      (broadcastInDim ⟨3, ![2048, 2048, 1]⟩ ![0, 1] hb ix) = biasOf E ix := by
  funext i
  obtain ⟨h, s, t, rfl⟩ : ∃ (h : Fin 32) (s t : Fin 2048), i = ix3 h s t := ⟨i 0, i 1, i 2, eq_ix3 i⟩
  rw [gather_lines_first (by decide) wf]
  unfold biasOf
  rw [broadcastInDim_apply ![0, 1] hb ix _ (ix2 s t) (fun a => by match a with | ⟨0, _⟩ => rfl | ⟨1, _⟩ => rfl)]
  exact transpose_apply [1, 0] E hT _ _ (fun b => by match b with | ⟨0, _⟩ => rfl | ⟨1, _⟩ => rfl)

end Cert.Attn

end
-- ==== Proof.KI.Host.lean ====
/-
  The arrays the three launches are entered with, and what the last one leaves, as functions of the six argument arrays over the
  extended reals.

  Launch 0 is entered with the activations X and with [Wq | Wk | Wv] set side by side; it leaves X·[Wq | Wk | Wv]. The band of
  columns 2048·p … of that product is X·W_p, and the head split of each band gives launch 1 its queries, keys and values; its
  bias operand is the table looked up at the bucket words. Launch 1 leaves the attention output, whose heads merged back are
  launch 2's left operand, against Wo. So the program's result is `Cert.Attn.layer` of the arguments and the bias.
-/
import proofs.«125511_j29764123361587_2_alg».proof.Proof.KI.Fold
import proofs.«125511_j29764123361587_2_alg».proof.Proof.KI.ValProd0
import proofs.«125511_j29764123361587_2_alg».proof.Proof.KI.ValProd2
import proofs.«125511_j29764123361587_2_alg».proof.Proof.Layout
import proofs.«125511_j29764123361587_2_alg».proof.Proof.BiasSpec
import Idealize.ShloMosaic.Lib.StableHlo.Run
import Idealize.ShloMosaic.PureOps.Ideal

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen

variable (m : (ℓ : Loc nD τ sig) → Buf (Elt Ideal) ℓ) (c : Dev nD)

/-- The argument arrays on core `c`. -/
abbrev aX : Cert.Attn.Mat := m ((c : Thread nD τ).loc main_arg0)
abbrev aWq : Cert.Attn.Mat := m ((c : Thread nD τ).loc main_arg1)
abbrev aWk : Cert.Attn.Mat := m ((c : Thread nD τ).loc main_arg2)
abbrev aWv : Cert.Attn.Mat := m ((c : Thread nD τ).loc main_arg3)
abbrev aWo : Cert.Attn.Mat := m ((c : Thread nD τ).loc main_arg4)
abbrev aE : (⟨2, ![32, 32]⟩ : Shape).Idx → EReal := m ((c : Thread nD τ).loc main_arg5)

/-! ## Launch 0 -/

/-- Launch 0 finds the activations as launched. -/
theorem entry0_X : (V1 m c main_arg0 : S2048x2048.Idx → EReal) = aX m c := by
  show StableHlo.after hostOps0 (W0 m c) (Proc.devRef .tc main_arg0) = _
  after_results

/-- Launch 0 finds the three projection weights set side by side. -/
theorem entry0_W : (V1 m c main_v0 : S2048x6144.Idx → EReal)
    = concatenate S2048x6144 1 [⟨S2048x2048, aWq m c⟩, ⟨S2048x2048, aWk m c⟩, ⟨S2048x2048, aWv m c⟩]
        concatenates_S2048x2048_S2048x2048_S2048x2048_S2048x6144_d1 := by
  show StableHlo.after hostOps0 (W0 m c) (Proc.devRef .tc main_v0) = _
  after_results
  rfl

/-- Launch 0 leaves the fused product. -/
theorem fused : (W2 m c (Proc.devRef .tc main_v1) : S2048x6144.Idx → EReal)
    = Cert.Dense.mm (aX m c) (concatenate S2048x6144 1 [⟨S2048x2048, aWq m c⟩, ⟨S2048x2048, aWk m c⟩, ⟨S2048x2048, aWv m c⟩]
        concatenates_S2048x2048_S2048x2048_S2048x2048_S2048x6144_d1) := by
  refine (W2_arr m c 2).trans ?_
  rw [final0 (V1 m) c, entry0_X, entry0_W]

/-! ## Launch 1's operands -/

/-- The queries: the head split of X·Wq. -/
theorem entry1_q : (V5 m c main_v6 : S32x2048x64.Idx → EReal) = Cert.Attn.heads (Cert.Dense.mm (aX m c) (aWq m c)) := by
  have e : (V5 m c main_v6 : S32x2048x64.Idx → EReal)
      = transpose S32x2048x64 [1, 0, 2] (shapeCast S2048x32x64
          (extractStridedSlice S2048x2048 ![0, 0] (W2 m c (Proc.devRef .tc main_v1)) slices_S2048x6144_S2048x2048_0_0)
          shapeCasts_S2048x2048_S2048x32x64) transposes_S2048x32x64_S32x2048x64_1_0_2 := by
    show StableHlo.after hostOps1_2 (StableHlo.after hostOps1_1 (StableHlo.after hostOps1 (W2 m c))) (Proc.devRef .tc main_v6) = _
    after_results
    rfl
  rw [e, fused]
  rw [Cert.Attn.slice_mm_of (aX m c) _ (aWq m c) 0 (by omega)
    (fun k j cc h => Cert.Attn.concat3_piece0 (aWq m c) (aWk m c) (aWv m c) _ k j cc h) ![0, 0] rfl rfl]
  exact Cert.Attn.heads_eq _ _ _

/-- The keys: the head split of X·Wk. -/
theorem entry1_k : (V5 m c main_v8 : S32x2048x64.Idx → EReal) = Cert.Attn.heads (Cert.Dense.mm (aX m c) (aWk m c)) := by
  have e : (V5 m c main_v8 : S32x2048x64.Idx → EReal)
      = transpose S32x2048x64 [1, 0, 2] (shapeCast S2048x32x64
          (extractStridedSlice S2048x2048 ![0, 2048] (W2 m c (Proc.devRef .tc main_v1)) slices_S2048x6144_S2048x2048_0_2048)
          shapeCasts_S2048x2048_S2048x32x64) transposes_S2048x32x64_S32x2048x64_1_0_2 := by
    show StableHlo.after hostOps1_2 (StableHlo.after hostOps1_1 (StableHlo.after hostOps1 (W2 m c))) (Proc.devRef .tc main_v8) = _
    after_results
    rfl
  rw [e, fused]
  rw [Cert.Attn.slice_mm_of (aX m c) _ (aWk m c) 2048 (by omega)
    (fun k j cc h => Cert.Attn.concat3_piece1 (aWq m c) (aWk m c) (aWv m c) _ k j cc h) ![0, 2048] rfl rfl]
  exact Cert.Attn.heads_eq _ _ _

/-- The values: the head split of X·Wv. -/
theorem entry1_v : (V5 m c main_v10 : S32x2048x64.Idx → EReal) = Cert.Attn.heads (Cert.Dense.mm (aX m c) (aWv m c)) := by
  have e : (V5 m c main_v10 : S32x2048x64.Idx → EReal)
      = transpose S32x2048x64 [1, 0, 2] (shapeCast S2048x32x64
          (extractStridedSlice S2048x2048 ![0, 4096] (W2 m c (Proc.devRef .tc main_v1)) slices_S2048x6144_S2048x2048_0_4096)
          shapeCasts_S2048x2048_S2048x32x64) transposes_S2048x32x64_S32x2048x64_1_0_2 := by
    show StableHlo.after hostOps1_2 (StableHlo.after hostOps1_1 (StableHlo.after hostOps1 (W2 m c))) (Proc.devRef .tc main_v10) = _
    after_results
    rfl
  rw [e, fused]
  rw [Cert.Attn.slice_mm_of (aX m c) _ (aWv m c) 4096 (by omega)
    (fun k j cc h => Cert.Attn.concat3_piece2 (aWq m c) (aWk m c) (aWv m c) _ k j cc h) ![0, 4096] rfl rfl]
  exact Cert.Attn.heads_eq _ _ _

/-- The embedding table reaches launch 1 as launched: nothing before it writes the argument. -/
theorem table_kept : (StableHlo.after hostOps1_1 (StableHlo.after hostOps1 (W2 m c)) (Proc.devRef .tc main_arg5)
    : S32x32.Idx → EReal) = aE m c := by
  after_results
  refine (W2_of_ne m c main_arg5 (by decide)).trans ?_
  show StableHlo.after hostOps0 (W0 m c) (Proc.devRef .tc main_arg5) = _
  after_results

set_option maxHeartbeats 4000000 in
/-- The last stretch before launch 1, over whatever the stretches before it left: the bias operand is the transposed table
    looked up column-wise at the bucket words that stretch itself finishes. -/
theorem bias_stretch (Y : Valuation τ sig (Elt Ideal)) :
    (StableHlo.after hostOps1_2 Y (Proc.devRef .tc main_v51) : S32x2048x2048.Idx → EReal)
      = Host.gather gather_S32x32_S2048x2048x1_S32x2048x2048_0_1_n_n_1_2_321
          (transpose S32x32 [1, 0] (Y (Proc.devRef .tc main_arg5)) transposes_S32x32_S32x32_1_0)
          (broadcastInDim S2048x2048x1 ![0, 1] bcast_S2048x2048_S2048x2048x1_0_1
            (StableHlo.after hostOps1_2 Y (Proc.devRef .tc main_v49))) := by
  after_results

/-- The bias operand: the table at the bucket words. -/
theorem entry1_b : (V5 m c main_v51 : S32x2048x2048.Idx → EReal)
    = Cert.Attn.biasOf (aE m c) (V5 m c main_v49) := by
  show StableHlo.after hostOps1_2 (StableHlo.after hostOps1_1 (StableHlo.after hostOps1 (W2 m c))) (Proc.devRef .tc main_v51) = _
  rw [bias_stretch, table_kept]
  exact Cert.Attn.bias_first (aE m c) _ gather_S32x32_S2048x2048x1_S32x2048x2048_0_1_n_n_1_2_321.wf
    bcast_S2048x2048_S2048x2048x1_0_1 transposes_S32x32_S32x32_1_0

/-! ## Launch 2's operands -/

/-- The merged heads of launch 1's result. -/
theorem entry2_A : (V7 m c main_v54 : S2048x2048.Idx → EReal)
    = Cert.Attn.merge (W6 m c (Proc.devRef .tc main_v52)) := by
  have e : (V7 m c main_v54 : S2048x2048.Idx → EReal)
      = shapeCast S2048x2048 (transpose S2048x32x64 [1, 0, 2] (W6 m c (Proc.devRef .tc main_v52))
          transposes_S32x2048x64_S2048x32x64_1_0_2) shapeCasts_S2048x32x64_S2048x2048 := by
    show StableHlo.after hostOps2 (W6 m c) (Proc.devRef .tc main_v54) = _
    after_results
    rfl
  rw [e]
  exact Cert.Attn.merge_eq _ _ _

/-- The output weights reach launch 2 as launched. -/
theorem entry2_W : (V7 m c main_arg4 : S2048x2048.Idx → EReal) = aWo m c := by
  show StableHlo.after hostOps2 (W6 m c) (Proc.devRef .tc main_arg4) = _
  after_results
  refine (W6_of_ne m c main_arg4 (by decide)).trans ?_
  show StableHlo.after hostOps1_2 (StableHlo.after hostOps1_1 (StableHlo.after hostOps1 (W2 m c))) (Proc.devRef .tc main_arg4) = _
  after_results
  refine (W2_of_ne m c main_arg4 (by decide)).trans ?_
  show StableHlo.after hostOps0 (W0 m c) (Proc.devRef .tc main_arg4) = _
  after_results

end Cert.KernelIdeal.Hand

end
-- ==== Proof.LibPlainDot.lean ====
/-
  A matrix product contracted over ONE axis, read at an entry as a sum over `Fin n`.

  The library reads a product at an entry `j` as a sum over the contraction's own index type, the operands read at the
  product's operand indices. When the contraction has one axis of extent `n`, and the operand indices at `j` are known
  functions `li`, `ri` of that axis's coordinate, the sum is over `k : Fin n` of the left operand at `li k` times the
  right operand at `ri k`. Also here: two rank-2 indices are equal when their coordinates are.
-/
import Idealize.ShloMosaic.Lib.ValueIdx
import Idealize.ShloMosaic.PureOps.Ideal.Laws

noncomputable section

namespace Cert.LibPlainDot

open Idealize.ShloMosaic

/-- Two indices of a rank-2 shape are equal when their two coordinates are equal as numbers. -/
theorem ext2 {n0 n1 : ℕ} (i i' : (⟨2, ![n0, n1]⟩ : Shape).Idx) (h0 : (i 0).val = (i' 0).val) (h1 : (i 1).val = (i' 1).val) :
    i = i' :=
  funext fun a => Fin.ext (match a with
    | ⟨0, _⟩ => h0
    | ⟨1, _⟩ => h1)

/-- The sum over a one-axis contraction, re-indexed by the axis's coordinate `k : Fin n`: given what the two operand
    indices are at each contraction index (`hl`, `hr`, stated through the coordinate), the product's sum at `j` is
    `∑ k, f (li k) * g (ri k)`. -/
theorem sum_contr {sl sr so : Shape} (d : DotDims sl sr so) (n : ℕ) (hrk : d.contr.rank = 1)
    (hs : d.contr.size ⟨0, by omega⟩ = n) (j : so.Idx) (f : sl.Idx → EReal) (g : sr.Idx → EReal)
    (li : Fin n → sl.Idx) (ri : Fin n → sr.Idx)
    (hl : ∀ q : d.contr.Idx, d.lhsIdx j q = li (ValueIdx.contrEquiv1 d n hrk hs q))
    (hr : ∀ q : d.contr.Idx, d.rhsIdx j q = ri (ValueIdx.contrEquiv1 d n hrk hs q)) :
    ∑ q : d.contr.Idx, f (d.lhsIdx j q) * g (d.rhsIdx j q) = ∑ k : Fin n, f (li k) * g (ri k) := by
  rw [← Equiv.sum_comp (ValueIdx.contrEquiv1 d n hrk hs)]
  exact Finset.sum_congr rfl fun q _ => by rw [hl q, hr q]

/-- A product into a zero accumulator on the vector unit, at the exact instance, read at an entry over `Fin n`. -/
theorem matmul_zero_apply {sl sr so : Shape} {φ₁ φ₂ : FTy} (d : DotDims sl sr so) (prec : Option ContractPrecision)
    (n : ℕ) (hrk : d.contr.rank = 1) (hs : d.contr.size ⟨0, by omega⟩ = n)
    (lhs : FVec Ideal sl φ₁) (rhs : FVec Ideal sr φ₂) (j : so.Idx)
    (li : Fin n → sl.Idx) (ri : Fin n → sr.Idx)
    (hl : ∀ q : d.contr.Idx, d.lhsIdx j q = li (ValueIdx.contrEquiv1 d n hrk hs q))
    (hr : ∀ q : d.contr.Idx, d.rhsIdx j q = ri (ValueIdx.contrEquiv1 d n hrk hs q)) :
    FloatOps.matmul d prec lhs rhs (constant so .f32 0x00000000#32) j = ∑ k : Fin n, lhs (li k) * rhs (ri k) :=
  (Ideal.matmul_constant_zero_apply d prec lhs rhs j).trans (sum_contr d n hrk hs j lhs rhs li ri hl hr)

/-- A host product at the exact instance, read at an entry over `Fin n`. -/
theorem dotGeneral_apply {sl sr so : Shape} {φ₁ φ₂ : FTy} (d : DotDims sl sr so) (prec : Option ContractPrecision)
    (sched : HostSchedule) (n : ℕ) (hrk : d.contr.rank = 1) (hs : d.contr.size ⟨0, by omega⟩ = n)
    (lhs : FVec Ideal sl φ₁) (rhs : FVec Ideal sr φ₂) (j : so.Idx)
    (li : Fin n → sl.Idx) (ri : Fin n → sr.Idx)
    (hl : ∀ q : d.contr.Idx, d.lhsIdx j q = li (ValueIdx.contrEquiv1 d n hrk hs q))
    (hr : ∀ q : d.contr.Idx, d.rhsIdx j q = ri (ValueIdx.contrEquiv1 d n hrk hs q)) :
    FloatOps.dotGeneral d prec sched lhs rhs j = ∑ k : Fin n, lhs (li k) * rhs (ri k) :=
  (Ideal.dotGeneral_apply d prec sched lhs rhs j).trans (sum_contr d n hrk hs j lhs rhs li ri hl hr)

end Cert.LibPlainDot

end
-- ==== Proof.KI.ValAttnTile.lean ====
/-
  One tile of attention, read at an entry.

  A tile is 256 queries of one head against all 2048 keys of that head. The body re-reads its four blocks without their
  leading unit axis, forms the scores s(r, t) = Σ_e q(r, e)·k(t, e) + bias(r, t), takes each row's maximum M(r) from −∞,
  the exponentials exp(s(r, t) − M(r)), each row's sum of those, the quotients, and multiplies the quotients into the
  values: out(r, d) = Σ_t w(r, t)·v(t, d), stored under a leading unit axis again. Read at (0, r, d) that is the softmax
  weights of row r's scores against column d of the values — the specification's `weight`, row by row.

  The pieces: a vector re-read as a column and a column spread over a row's entries (the two layout steps between a row
  reduction and its use), the row maximum and row sum as a fold and a sum over the 2048 keys, the two products as sums over
  the contracted coordinate, then the scores, the exponentials and the weights at an entry, and the tile.
-/
import proofs.«125511_j29764123361587_2_alg».proof.Proof.KI.Data
import proofs.«125511_j29764123361587_2_alg».proof.Proof.Spec
import proofs.«125511_j29764123361587_2_alg».proof.Proof.LibDense
import proofs.«125511_j29764123361587_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.ValueIdx
open Cert.KernelIdeal Cert.KernelIdeal.Gen
open scoped BigOperators

/-! ## The two keepdims layout steps: a vector as a column, a column spread over the columns -/

/-- An `[a]` array cast to `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The reductions along a row -/

/-- Row `r` of a `[256, 2048]` array with coordinate `t` inserted on the reduced axis is `(r, t)`. -/
theorem lift_row (r : Fin 256) (t : Fin 2048) :
    reduces_S256x2048_S256.lift (ix1 r) t = ix2 r t :=
  funext fun a => Fin.ext (by
    match a with
    | ⟨0, _⟩ => rfl
    | ⟨1, _⟩ => rfl)

/-- The maximum along a row, from the word of −∞. -/
theorem rowMax_apply (src : FVec Ideal S256x2048 .f32) (hφ : FKind.Formats .f32)
    (hacc : (0xFF800000#32 : BitVec 32) = FKind.maximumf.neutral .f32 hφ) (r : Fin 256) :
    multiReduction (F := Ideal) .maximumf [1] S256 src 0xFF800000#32 reduces_S256x2048_S256 hφ hacc (ix1 r)
      = Cert.Attn.rowMax (fun t => src (ix2 r t)) := by
  refine (Ideal.multiReduction_maximumf_single src _ reduces_S256x2048_S256 hφ hacc (ix1 r)).trans ?_
  unfold Cert.Attn.rowMax
  exact congrArg (Finset.fold max (Ideal.ofBits .f32 0xFF800000#32) · (Finset.univ : Finset (Fin 2048)))
    (funext fun t => congrArg src (lift_row r t))

/-- The sum along a row. -/
theorem rowSum_apply (src : FVec Ideal S256x2048 .f32) (hφ : FKind.Formats .f32)
    (hacc : (0x00000000#32 : BitVec 32) = FKind.add.neutral .f32 hφ) (r : Fin 256) :
    multiReduction (F := Ideal) .add [1] S256 src 0x00000000#32 reduces_S256x2048_S256 hφ hacc (ix1 r)
      = ∑ t : Fin 2048, src (ix2 r t) := by
  refine (Ideal.multiReduction_add_single src _ reduces_S256x2048_S256 hφ hacc (ix1 r)).trans ?_
  exact Finset.sum_congr rfl fun t _ => congrArg src (lift_row r t)

/-! ## The two products of the tile -/

/-- Queries against keys: both operands contracted along their second axis. -/
theorem qk_apply (a : FVec Ideal S256x64 .f32) (b : FVec Ideal S2048x64 .f32) (r : Fin 256) (t : Fin 2048) :
    matmul dot_S256x64_S2048x64_S256x2048_1_1_0_0_n_n (some .fp32) a b
        (constant (F := Ideal) S256x2048 .f32 0x00000000#32) (ix2 r t)
      = ∑ e : Fin 64, a (ix2 r e) * b (ix2 t e) :=
  Cert.LibPlainDot.matmul_zero_apply dot_S256x64_S2048x64_S256x2048_1_1_0_0_n_n (some .fp32) 64 rfl rfl a b (ix2 r t)
    (fun e => ix2 r e) (fun e => ix2 t e)
    (fun q => funext fun ax => Fin.ext (by
      match ax with
      | ⟨0, _⟩ => rfl
      | ⟨1, _⟩ => rfl))
    (fun q => funext fun ax => Fin.ext (by
      match ax with
      | ⟨0, _⟩ => rfl
      | ⟨1, _⟩ => rfl))

/-- Weights against values: the weights' second axis contracted with the values' first. -/
theorem pv_apply (a : FVec Ideal S256x2048 .f32) (b : FVec Ideal S2048x64 .f32) (r : Fin 256) (d : Fin 64) :
    matmul dot_S256x2048_S2048x64_S256x64_1_0_0_1_n_n (some .fp32) a b
        (constant (F := Ideal) S256x64 .f32 0x00000000#32) (ix2 r d)
      = ∑ t : Fin 2048, a (ix2 r t) * b (ix2 t d) :=
  Cert.LibPlainDot.matmul_zero_apply dot_S256x2048_S2048x64_S256x64_1_0_0_1_n_n (some .fp32) 2048 rfl rfl a b (ix2 r d)
    (fun t => ix2 r t) (fun t => ix2 t d)
    (fun q => funext fun ax => Fin.ext (by
      match ax with
      | ⟨0, _⟩ => rfl
      | ⟨1, _⟩ => rfl))
    (fun q => funext fun ax => Fin.ext (by
      match ax with
      | ⟨0, _⟩ => rfl
      | ⟨1, _⟩ => rfl))

/-! ## The tile's scores, exponentials and weights at an index -/

/-- The scores of query row `r` against key `t`: the product of the two rows plus the bias entry. -/
theorem scores_apply (x0 : Vec Ideal S1x256x64 .f32) (x1 : Vec Ideal S1x2048x64 .f32) (x3 : Vec Ideal S1x256x2048 .f32)
    (r : Fin 256) (t : Fin 2048) :
    addf (matmul dot_S256x64_S2048x64_S256x2048_1_1_0_0_n_n (some .fp32)
          (shapeCast S256x64 x0 shapeCasts_S1x256x64_S256x64 : FVec Ideal S256x64 .f32)
          (shapeCast S2048x64 x1 shapeCasts_S1x2048x64_S2048x64 : FVec Ideal S2048x64 .f32)
          (constant (F := Ideal) S256x2048 .f32 0x00000000#32))
        (shapeCast S256x2048 x3 shapeCasts_S1x256x2048_S256x2048 : FVec Ideal S256x2048 .f32) (ix2 r t)
      = (∑ e : Fin 64, x0 (ix3 (0 : Fin 1) r e) * x1 (ix3 (0 : Fin 1) t e)) + x3 (ix3 (0 : Fin 1) r t) := by
  refine (addf_apply _ _ _).trans ?_
  refine congrArg₂ (· + ·) ?_ (shapeCast_1ab_ab_apply x3 _ r t)
  refine (qk_apply _ _ r t).trans ?_
  exact Finset.sum_congr rfl fun e _ =>
    congrArg₂ (· * ·) (shapeCast_1ab_ab_apply x0 _ r e) (shapeCast_1ab_ab_apply x1 _ t e)

/-- The exponential of a score less its row's maximum, the maximum spread back over the row. -/
theorem expo_apply (s : FVec Ideal S256x2048 .f32) (hφ : FKind.Formats .f32)
    (hm : (0xFF800000#32 : BitVec 32) = FKind.maximumf.neutral .f32 hφ) (r : Fin 256) (t : Fin 2048) :
    exp (subf s (broadcastTo S256x2048 (shapeCast S256x1
          (multiReduction (F := Ideal) .maximumf [1] S256 s 0xFF800000#32 reduces_S256x2048_S256 hφ hm)
          shapeCasts_S256_S256x1) broadcasts_S256x1_S256x2048)) (ix2 r t)
      = Cert.Attn.expo (fun u => s (ix2 r u)) t := by
  unfold Cert.Attn.expo
  show Ideal.exp (s (ix2 r t) - _) = _
  refine congrArg (fun m => Ideal.exp (s (ix2 r t) - m)) ?_
  refine (broadcastTo_a1_ab_apply _ _ r t).trans ?_
  refine (shapeCast_a_a1_apply _ _ r (0 : Fin 1)).trans ?_
  exact rowMax_apply s hφ hm r

/-- A row's exponentials divided by their sum, the sum spread back over the row. -/
theorem weight_apply (E : FVec Ideal S256x2048 .f32) (f : Fin 2048 → EReal) (hφ : FKind.Formats .f32)
    (ha : (0x00000000#32 : BitVec 32) = FKind.add.neutral .f32 hφ) (r : Fin 256) (t : Fin 2048)
    (hE : ∀ u, E (ix2 r u) = Cert.Attn.expo f u) :
    divf E (broadcastTo S256x2048 (shapeCast S256x1
          (multiReduction (F := Ideal) .add [1] S256 E 0x00000000#32 reduces_S256x2048_S256 hφ ha)
          shapeCasts_S256_S256x1) broadcasts_S256x1_S256x2048) (ix2 r t)
      = Cert.Attn.weight f t := by
  unfold Cert.Attn.weight
  refine (divf_apply _ _ _).trans ?_
  refine congrArg₂ Ideal.div (hE t) ?_
  refine (broadcastTo_a1_ab_apply _ _ r t).trans ?_
  refine (shapeCast_a_a1_apply _ _ r (0 : Fin 1)).trans ?_
  refine (rowSum_apply E hφ ha r).trans ?_
  exact Finset.sum_congr rfl fun u _ => hE u

/-! ## The tile -/

/-- The stored tile at row `r`, column `d`: the softmax weights of the row's scores against the values' column. -/
theorem k1_pay1_apply (x0 : Vec Ideal S1x256x64 .f32) (x1 x2 : Vec Ideal S1x2048x64 .f32) (x3 : Vec Ideal S1x256x2048 .f32)
    (r : Fin 256) (d : Fin 64) :
    Gen.k1_pay1 x0 x1 x2 x3 (ix3 (0 : Fin 1) r d)
      = ∑ t : Fin 2048,
          Cert.Attn.weight (fun t => (∑ e : Fin 64, x0 (ix3 (0 : Fin 1) r e) * x1 (ix3 (0 : Fin 1) t e))
            + x3 (ix3 (0 : Fin 1) r t)) t * x2 (ix3 (0 : Fin 1) t d) := by
  unfold Gen.k1_pay1
  refine (shapeCast_ab_1ab_apply _ _ (0 : Fin 1) r d).trans ?_
  refine (pv_apply _ _ r d).trans ?_
  refine Finset.sum_congr rfl fun t _ => ?_
  refine congrArg₂ (· * ·) ?_ (shapeCast_1ab_ab_apply x2 _ t d)
  refine weight_apply _ _ _ _ r t fun u => ?_
  refine (expo_apply _ _ _ r u).trans ?_
  exact congrArg (fun f => Cert.Attn.expo f u) (funext fun w => scores_apply x0 x1 x3 r w)

end Cert.KernelIdeal.Hand

end
-- ==== Proof.KI.ValAttn.lean ====
/-
  From the tiles to the whole attention output.

  Launch 1 runs over a 32 × 8 grid: point t is head t / 8 and query tile t % 8. Its query, bias and result blocks are the
  256 rows 256·(t % 8) … of head t / 8, its key and value blocks all 2048 rows of that head. A block's coordinate on an axis
  is the block index times the block's extent plus the coordinate inside the block, so each block read at an entry is its
  array read at the matching entry of the head. With the tile read at an entry (the softmax weights of a row's scores against
  a column of the values) this makes what point t writes back its block of ONE function of the four arrays: attention,
  entry by entry. Entry (h, s, d) of the result lies in the block of point 8·h + s / 256, every point writes its block
  back, and so the result array after the launch is attention of the arrays the launch was entered with — whatever those
  arrays hold.
-/
import proofs.«125511_j29764123361587_2_alg».proof.Proof.KI.ValAttnTile
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat)
open Cert.KernelIdeal Cert.KernelIdeal.Gen
open scoped BigOperators

variable (V : (c : Dev nD) → (b : Ref sig .tc) → Buf (Elt Ideal) ((c : Thread nD τ).loc b))

/-! ## Where launch 1's blocks lie -/

theorem hz3 : (![0, 0, 0] : Fin 3 → Nat) = fun _ => 0 := funext fun a => by fin_cases a <;> rfl

/-- Point `t` of the 32 × 8 grid is head `t / 8`, query tile `t % 8`: the query, bias and result blocks sit at
    (t / 8, t % 8, 0), the key and value blocks at (t / 8, 0, 0). Decided over the 256 points. -/
theorem idx_facts1 : ∀ t : Fin cfg1.N,
    (win1_0.index t (0 : Fin 3) = t.val / 8 ∧ win1_0.index t (1 : Fin 3) = t.val % 8 ∧ win1_0.index t (2 : Fin 3) = 0)
    ∧ (win1_1.index t (0 : Fin 3) = t.val / 8 ∧ win1_1.index t (1 : Fin 3) = 0 ∧ win1_1.index t (2 : Fin 3) = 0)
    ∧ (win1_2.index t (0 : Fin 3) = t.val / 8 ∧ win1_2.index t (1 : Fin 3) = 0 ∧ win1_2.index t (2 : Fin 3) = 0)
    ∧ (win1_3.index t (0 : Fin 3) = t.val / 8 ∧ win1_3.index t (1 : Fin 3) = t.val % 8 ∧ win1_3.index t (2 : Fin 3) = 0)
    ∧ (win1_4.index t (0 : Fin 3) = t.val / 8 ∧ win1_4.index t (1 : Fin 3) = t.val % 8 ∧ win1_4.index t (2 : Fin 3) = 0) :=
  (by decide +kernel : ∀ t : Fin grid1.N, _)

/-! ## The four input blocks as parts of their arrays

  A block's coordinate on an axis is the block index times the block's extent plus the coordinate inside the block. -/

/-- The query block at point `t`: rows 256·(t % 8) … of head t / 8. -/
theorem blk1_0_apply (c : Dev nD) (t : Fin cfg1.N) (r : Fin 256) (e : Fin 64) (h : Fin 32) (s : Fin 2048)
    (hh : h.val = t.val / 8) (hs : s.val = 256 * (t.val % 8) + r.val) :
    (blk1 V c 0 t : Vec Ideal S1x256x64 .f32) (ix3 (0 : Fin 1) r e) = (V c main_v6 : S32x2048x64.Idx → EReal) (ix3 h s e) := by
  obtain ⟨⟨e0, e1, e2⟩, -⟩ := idx_facts1 t
  unfold blk1
  rw [View.read_apply]
  show V c main_v6 _ = V c main_v6 _
  refine congrArg (V c main_v6) (funext fun a => Fin.ext ?_)
  match a with
  | ⟨0, _⟩ => show win1_0.index t (0 : Fin 3) * 1 + 1 * 0 = h.val; omega
  | ⟨1, _⟩ => show win1_0.index t (1 : Fin 3) * 256 + 1 * r.val = s.val; omega
  | ⟨2, _⟩ => show win1_0.index t (2 : Fin 3) * 64 + 1 * e.val = e.val; omega

/-- The key block at point `t`: all of head t / 8. -/
theorem blk1_1_apply (c : Dev nD) (t : Fin cfg1.N) (u : Fin 2048) (e : Fin 64) (h : Fin 32)
    (hh : h.val = t.val / 8) :
    (blk1 V c 1 t : Vec Ideal S1x2048x64 .f32) (ix3 (0 : Fin 1) u e) = (V c main_v8 : S32x2048x64.Idx → EReal) (ix3 h u e) := by
  obtain ⟨-, ⟨e0, e1, e2⟩, -⟩ := idx_facts1 t
  unfold blk1
  rw [View.read_apply]
  show V c main_v8 _ = V c main_v8 _
  refine congrArg (V c main_v8) (funext fun a => Fin.ext ?_)
  match a with
  | ⟨0, _⟩ => show win1_1.index t (0 : Fin 3) * 1 + 1 * 0 = h.val; omega
  | ⟨1, _⟩ => show win1_1.index t (1 : Fin 3) * 2048 + 1 * u.val = u.val; omega
  | ⟨2, _⟩ => show win1_1.index t (2 : Fin 3) * 64 + 1 * e.val = e.val; omega

/-- The value block at point `t`: all of head t / 8. -/
theorem blk1_2_apply (c : Dev nD) (t : Fin cfg1.N) (u : Fin 2048) (e : Fin 64) (h : Fin 32)
    (hh : h.val = t.val / 8) :
    (blk1 V c 2 t : Vec Ideal S1x2048x64 .f32) (ix3 (0 : Fin 1) u e) = (V c main_v10 : S32x2048x64.Idx → EReal) (ix3 h u e) := by
  obtain ⟨-, -, ⟨e0, e1, e2⟩, -⟩ := idx_facts1 t
  unfold blk1
  rw [View.read_apply]
  show V c main_v10 _ = V c main_v10 _
  refine congrArg (V c main_v10) (funext fun a => Fin.ext ?_)
  match a with
  | ⟨0, _⟩ => show win1_2.index t (0 : Fin 3) * 1 + 1 * 0 = h.val; omega
  | ⟨1, _⟩ => show win1_2.index t (1 : Fin 3) * 2048 + 1 * u.val = u.val; omega
  | ⟨2, _⟩ => show win1_2.index t (2 : Fin 3) * 64 + 1 * e.val = e.val; omega

/-- The bias block at point `t`: rows 256·(t % 8) … of head t / 8, against every key. -/
theorem blk1_3_apply (c : Dev nD) (t : Fin cfg1.N) (r : Fin 256) (u : Fin 2048) (h : Fin 32) (s : Fin 2048)
    (hh : h.val = t.val / 8) (hs : s.val = 256 * (t.val % 8) + r.val) :
    (blk1 V c 3 t : Vec Ideal S1x256x2048 .f32) (ix3 (0 : Fin 1) r u) = (V c main_v51 : S32x2048x2048.Idx → EReal) (ix3 h s u) := by
  obtain ⟨-, -, -, ⟨e0, e1, e2⟩, -⟩ := idx_facts1 t
  unfold blk1
  rw [View.read_apply]
  show V c main_v51 _ = V c main_v51 _
  refine congrArg (V c main_v51) (funext fun a => Fin.ext ?_)
  match a with
  | ⟨0, _⟩ => show win1_3.index t (0 : Fin 3) * 1 + 1 * 0 = h.val; omega
  | ⟨1, _⟩ => show win1_3.index t (1 : Fin 3) * 256 + 1 * r.val = s.val; omega
  | ⟨2, _⟩ => show win1_3.index t (2 : Fin 3) * 2048 + 1 * u.val = u.val; omega

/-! ## One tile is a tile of attention -/

/-- The tile at (0, r, d), its four blocks being the rows of head `h` they are cut from, is attention at (h, s, d),
    `s` the query's row in the head. -/
theorem tile_entry (Q K W : Cert.Attn.Heads) (B : Cert.Attn.Bias)
    (x0 : Vec Ideal S1x256x64 .f32) (x1 x2 : Vec Ideal S1x2048x64 .f32) (x3 : Vec Ideal S1x256x2048 .f32)
    (h : Fin 32) (s : Fin 2048) (r : Fin 256) (d : Fin 64)
    (h0 : ∀ e : Fin 64, x0 (ix3 (0 : Fin 1) r e) = Q (ix3 h s e))
    (h1 : ∀ (u : Fin 2048) (e : Fin 64), x1 (ix3 (0 : Fin 1) u e) = K (ix3 h u e))
    (h2 : ∀ u : Fin 2048, x2 (ix3 (0 : Fin 1) u d) = W (ix3 h u d))
    (h3 : ∀ u : Fin 2048, x3 (ix3 (0 : Fin 1) r u) = B (ix3 h s u)) :
    Gen.k1_pay1 x0 x1 x2 x3 (ix3 (0 : Fin 1) r d) = Cert.Attn.attend Q K W B (ix3 h s d) := by
  refine (k1_pay1_apply x0 x1 x2 x3 r d).trans ?_
  unfold Cert.Attn.attend Cert.Attn.scores
  refine Finset.sum_congr rfl fun u _ => ?_
  refine congrArg₂ (· * ·) ?_ (h2 u)
  refine congrArg (fun f => Cert.Attn.weight f u) (funext fun w => ?_)
  exact congrArg₂ (· + ·) (Finset.sum_congr rfl fun e _ => congrArg₂ (· * ·) (h0 e) (h1 w e)) (h3 w)

/-! ## What each point writes back, and the array after the launch -/

/-- Point `t` writes back its block of attention of the four arrays as the launch finds them. -/
theorem flushed4_eq (c : Dev nD) (t : Fin cfg1.N) :
    (dat1 (F := Ideal) V c).flushed 4 t = ((cfg1.win 4).blk t).view.read (Elt Ideal)
      (Cert.Attn.attend (V c main_v6) (V c main_v8) (V c main_v10) (V c main_v51)) := by
  show (cfg1.win 4).cut (grid1.coords t) ((dat1 V c).after 4 t) = _
  rw [dat1_after4]
  unfold attn1
  rw [View.canon_unit_zero hz3]
  simp only [View.ld_unit_zero (S := S1x256x64) hz3, View.ld_unit_zero (S := S1x2048x64) hz3, View.ld_unit_zero (S := S1x256x2048) hz3]
  funext j
  obtain ⟨u, r, d, rfl⟩ : ∃ (u : Fin 1) (r : Fin 256) (d : Fin 64), j = ix3 u r d := ⟨j 0, j 1, j 2, eq_ix3 j⟩
  obtain rfl : u = 0 := Subsingleton.elim _ _
  obtain ⟨-, -, -, -, ⟨e0, e1, e2⟩⟩ := idx_facts1 t
  have ht : t.val < 256 := t.isLt
  have hsb : 256 * (t.val % 8) + r.val < 2048 := by omega
  have hhb : t.val / 8 < 32 := by omega
  rw [View.read_apply]
  have hemb : ((View.whole main_v52).slice ((win1 4).rect t)).emb (ix3 (0 : Fin 1) r d)
      = (ix3 (⟨t.val / 8, hhb⟩ : Fin 32) (⟨256 * (t.val % 8) + r.val, hsb⟩ : Fin 2048) d : S32x2048x64.Idx) := by
    refine funext fun a => Fin.ext ?_
    match a with
    | ⟨0, _⟩ => show win1_4.index t (0 : Fin 3) * 1 + 1 * 0 = t.val / 8; omega
    | ⟨1, _⟩ => show win1_4.index t (1 : Fin 3) * 256 + 1 * r.val = 256 * (t.val % 8) + r.val; omega
    | ⟨2, _⟩ => show win1_4.index t (2 : Fin 3) * 64 + 1 * d.val = d.val; omega
  rw [hemb]
  exact tile_entry (V c main_v6) (V c main_v8) (V c main_v10) (V c main_v51)
    (blk1 V c 0 t) (blk1 V c 1 t) (blk1 V c 2 t) (blk1 V c 3 t) ⟨t.val / 8, hhb⟩ ⟨256 * (t.val % 8) + r.val, hsb⟩ r d
    (fun e => blk1_0_apply V c t r e _ _ rfl rfl) (fun w e => blk1_1_apply V c t w e _ rfl)
    (fun w => blk1_2_apply V c t w d _ rfl) (fun w => blk1_3_apply V c t r w _ _ rfl rfl)

/-- An entry of the result array is in point `t`'s block iff each coordinate is in the block's range on its axis. -/
theorem mem_blk4 (t : Fin cfg1.N) (i : S32x2048x64.Idx) :
    i ∈ ((cfg1.win 4).blk t).view.set ↔ ∀ a : Fin 3, win1_4.index t a * S1x256x64.size a ≤ (i a).val
      ∧ (i a).val < win1_4.index t a * S1x256x64.size a + S1x256x64.size a := by
  show i ∈ ((View.whole main_v52).slice (win1_4.rect t)).set ↔ _
  rw [View.set_slice_whole, Rect.mem_set_unit]
  exact Iff.rfl

/-- Every entry (h, s, d) of the result is written: by point 8·h + s / 256. -/
theorem cover4 (i : S32x2048x64.Idx) :
    ∃ t : Fin cfg1.N, (cfg1.win 4).flush t = true ∧ i ∈ ((cfg1.win 4).blk t).view.set := by
  have hi0 : (i 0).val < 32 := (i 0).isLt
  have hi1 : (i 1).val < 2048 := (i 1).isLt
  have hi2 : (i 2).val < 64 := (i 2).isLt
  obtain ⟨t, ht⟩ : ∃ t : Fin cfg1.N, t.val = 8 * (i 0).val + (i 1).val / 256 :=
    ⟨⟨8 * (i 0).val + (i 1).val / 256, by show _ < 256; omega⟩, rfl⟩
  obtain ⟨-, -, -, -, ⟨e0, e1, e2⟩⟩ := idx_facts1 t
  refine ⟨t, flush1_4 t, ?_⟩
  rw [mem_blk4]
  intro a
  match a with
  | ⟨0, _⟩ =>
    show win1_4.index t (0 : Fin 3) * 1 ≤ (i 0).val ∧ (i 0).val < win1_4.index t (0 : Fin 3) * 1 + 1
    omega
  | ⟨1, _⟩ =>
    show win1_4.index t (1 : Fin 3) * 256 ≤ (i 1).val ∧ (i 1).val < win1_4.index t (1 : Fin 3) * 256 + 256
    omega
  | ⟨2, _⟩ =>
    show win1_4.index t (2 : Fin 3) * 64 ≤ (i 2).val ∧ (i 2).val < win1_4.index t (2 : Fin 3) * 64 + 64
    omega

/-- The result array after launch 1 is attention of the four arrays the launch is entered with. -/
theorem final1 (c : Dev nD) :
    (dat1 (F := Ideal) V c).arrAt 4 cfg1.N
      = Cert.Attn.attend (V c main_v6) (V c main_v8) (V c main_v10) (V c main_v51) :=
  (dat1 (F := Ideal) V c).arrAt_eq_of_cover 4
    (Cert.Attn.attend (V c main_v6) (V c main_v8) (V c main_v10) (V c main_v51))
    (fun t _ => flushed4_eq V c t) cover4

end Cert.KernelIdeal.Hand

end
-- ==== Proof.KI.Result.lean ====
/-
  The kernel program's result array, at the exact instance, is the attention layer of its arguments: launch 1 turns the three head
  arrays and the bias into the attention output, the merge and launch 2 turn that into the product with Wo.
-/
import proofs.«125511_j29764123361587_2_alg».proof.Proof.KI.Host
import proofs.«125511_j29764123361587_2_alg».proof.Proof.KI.ValAttn

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen

variable (m : (ℓ : Loc nD τ sig) → Buf (Elt Ideal) ℓ) (c : Dev nD)

/-- Launch 1 leaves the attention output of the three projections under the bias. -/
theorem attended : (W6 m c (Proc.devRef .tc main_v52) : S32x2048x64.Idx → EReal)
    = Cert.Attn.attend (Cert.Attn.heads (Cert.Dense.mm (aX m c) (aWq m c))) (Cert.Attn.heads (Cert.Dense.mm (aX m c) (aWk m c)))
        (Cert.Attn.heads (Cert.Dense.mm (aX m c) (aWv m c))) (Cert.Attn.biasOf (aE m c) (V5 m c main_v49)) := by
  refine (W6_arr m c 4).trans ?_
  rw [final1 (V5 m) c, entry1_q, entry1_k, entry1_v, entry1_b]

/-- Launch 2 leaves the layer's result. -/
theorem result : (W8 m c (Proc.devRef .tc main_v55) : S2048x2048.Idx → EReal)
    = Cert.Attn.layer (aX m c) (aWq m c) (aWk m c) (aWv m c) (aWo m c) (Cert.Attn.biasOf (aE m c) (V5 m c main_v49)) := by
  refine (W8_arr m c 2).trans ?_
  rw [final2 (V7 m) c, entry2_A, entry2_W, attended]
  rfl

end Cert.KernelIdeal.Hand

end
-- ==== Proof.RefValue.lean ====
/-
  The reference program computes the attention layer of Spec.lean, index by index.

  The generated reading of the reference gives every operation's result at an index from its operands at an index. Chained from
  the last operation back: the three projections X·Wq, X·Wk, X·Wv are plain matrix products; the reshape to [2048, 32, 64]
  followed by the transposition to [32, 2048, 64] reads entry (s, 64·h + d) at (h, s, d); the batched product over d plus the bias
  is the score; the maximum over the keys (a fold of max from −∞, then once more against −∞) is the row's maximum; the exponential
  of the difference, its sum from the zero word, and the quotient are the softmax weight; the batched product over the keys is the
  head's output; the transposition back and the reshape to [2048, 2048] read entry (j / 64, s, j % 64) at (s, j); the last product
  is with Wo. The bias operand is left as the program's own term of the embedding table.
-/
import proofs.«125511_j29764123361587_2_alg».proof.Proof.RefRead
import proofs.«125511_j29764123361587_2_alg».proof.Proof.Spec
import proofs.«125511_j29764123361587_2_alg».proof.Proof.BiasSpec

noncomputable section

open scoped BigOperators

namespace Cert.ReferenceIdeal.RefValue

open Cert.ReferenceIdeal Cert.ReferenceIdeal.Gen Cert.ReferenceIdeal.ReadP Idealize.ShloMosaic Idealize.ShloMosaic.TcCoe
  Idealize.SL.Sem Idealize.ShloMosaic.StableHlo Idealize.ShloMosaic.ValueIdx Cert.Attn

/-- The reference's array of bucket words, [2048, 2048] of 32-bit integers, as its program computes it: from the two position
    ranges, the relative position n = −(t − s); 16 where n < 0, plus, on |n|, either |n| itself (where |n| < 8) or
    min (8 + z) 15 with z the conversion to a 32-bit integer of log (max |n| 1 / 8) / c · 8, c the f32 word 0x40317218; then 32
    added where that sum is negative. The program's own closed term, every shared value written out where it is used. -/
def refIdx : IVec ⟨2, ![2048, 2048]⟩ 32 :=
  select (cmpi .slt (addi (select (cmpi .slt (absi (negi (subi (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0)))))) (broadcastInDim S2048x2048 ![] bcast_S_S2048x2048 (constantI S_ 32 8#32))) (absi (negi (subi (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0)))))) (minsi (addi (broadcastInDim S2048x2048 ![] bcast_S_S2048x2048 (constantI S_ 32 8#32)) (fptosi (F := Ideal) 32 (mulf (Host.divf (Host.log (Host.divf (sitofp .f32 (maxsi (absi (negi (subi (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0)))))) (broadcastInDim S2048x2048 ![] bcast_S_S2048x2048 (constantI S_ 32 1#32)))) (broadcastInDim S2048x2048 ![] bcast_S_S2048x2048 (constant S_ .f32 0x41000000#32)))) (broadcastInDim S2048x2048 ![] bcast_S_S2048x2048 (constant S_ .f32 0x40317218#32))) (broadcastInDim S2048x2048 ![] bcast_S_S2048x2048 (constant S_ .f32 0x41000000#32))))) (broadcastInDim S2048x2048 ![] bcast_S_S2048x2048 (constantI S_ 32 15#32)))) (muli (extui 32 (cmpi .slt (negi (subi (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0))))) (broadcastInDim S2048x2048 ![] bcast_S_S2048x2048 (constantI S_ 32 0#32))) natLt_1_32) (broadcastInDim S2048x2048 ![] bcast_S_S2048x2048 (constantI S_ 32 16#32)))) (broadcastInDim S2048x2048 ![] bcast_S_S2048x2048 (constantI S_ 32 0#32))) (addi (addi (select (cmpi .slt (absi (negi (subi (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0)))))) (broadcastInDim S2048x2048 ![] bcast_S_S2048x2048 (constantI S_ 32 8#32))) (absi (negi (subi (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0)))))) (minsi (addi (broadcastInDim S2048x2048 ![] bcast_S_S2048x2048 (constantI S_ 32 8#32)) (fptosi (F := Ideal) 32 (mulf (Host.divf (Host.log (Host.divf (sitofp .f32 (maxsi (absi (negi (subi (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0)))))) (broadcastInDim S2048x2048 ![] bcast_S_S2048x2048 (constantI S_ 32 1#32)))) (broadcastInDim S2048x2048 ![] bcast_S_S2048x2048 (constant S_ .f32 0x41000000#32)))) (broadcastInDim S2048x2048 ![] bcast_S_S2048x2048 (constant S_ .f32 0x40317218#32))) (broadcastInDim S2048x2048 ![] bcast_S_S2048x2048 (constant S_ .f32 0x41000000#32))))) (broadcastInDim S2048x2048 ![] bcast_S_S2048x2048 (constantI S_ 32 15#32)))) (muli (extui 32 (cmpi .slt (negi (subi (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0))))) (broadcastInDim S2048x2048 ![] bcast_S_S2048x2048 (constantI S_ 32 0#32))) natLt_1_32) (broadcastInDim S2048x2048 ![] bcast_S_S2048x2048 (constantI S_ 32 16#32)))) (broadcastInDim S2048x2048 ![] bcast_S_S2048x2048 (constantI S_ 32 32#32))) (addi (select (cmpi .slt (absi (negi (subi (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0)))))) (broadcastInDim S2048x2048 ![] bcast_S_S2048x2048 (constantI S_ 32 8#32))) (absi (negi (subi (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0)))))) (minsi (addi (broadcastInDim S2048x2048 ![] bcast_S_S2048x2048 (constantI S_ 32 8#32)) (fptosi (F := Ideal) 32 (mulf (Host.divf (Host.log (Host.divf (sitofp .f32 (maxsi (absi (negi (subi (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0)))))) (broadcastInDim S2048x2048 ![] bcast_S_S2048x2048 (constantI S_ 32 1#32)))) (broadcastInDim S2048x2048 ![] bcast_S_S2048x2048 (constant S_ .f32 0x41000000#32)))) (broadcastInDim S2048x2048 ![] bcast_S_S2048x2048 (constant S_ .f32 0x40317218#32))) (broadcastInDim S2048x2048 ![] bcast_S_S2048x2048 (constant S_ .f32 0x41000000#32))))) (broadcastInDim S2048x2048 ![] bcast_S_S2048x2048 (constantI S_ 32 15#32)))) (muli (extui 32 (cmpi .slt (negi (subi (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0))))) (broadcastInDim S2048x2048 ![] bcast_S_S2048x2048 (constantI S_ 32 0#32))) natLt_1_32) (broadcastInDim S2048x2048 ![] bcast_S_S2048x2048 (constantI S_ 32 16#32))))

/-- The same array as the generated reading names it. -/
theorem refIdx_eq : refIdx = val_main_v47 (F := Ideal) := rfl

/-- The reference's bias array, as its program computes it from the embedding table: the table's rows looked up at the bucket
    words, the head axis in front. -/
def refBias (E : (⟨2, ![32, 32]⟩ : Shape).Idx → EReal) : Cert.Attn.Bias := Cert.Attn.biasOf E refIdx

/-- The gather of the table's rows at the bucket words and the transposition that follows are that array. -/
theorem bias_eq (E : (⟨2, ![32, 32]⟩ : Shape).Idx → EReal) : val_main_v50 (F := Ideal) E = refBias E := by
  unfold refBias
  rw [refIdx_eq]
  exact Cert.Attn.bias_last E (val_main_v47 (F := Ideal)) gather_S32x32_S2048x2048x1_S2048x2048x32_2_0_n_n_0_2_132_wf
    bcast_S2048x2048_S2048x2048x1_0_1 transposes_S2048x2048x32_S32x2048x2048_2_0_1

/-! ## The two re-readings -/

/-- The reshape to [2048, 32, 64] then the transposition to [32, 2048, 64], read at an index, is the re-reading by heads. -/
theorem heads_read (Y : Mat) (i : S32x2048x64.Idx) : Y (idx_main_v1 (idx_main_v2 i)) = heads Y i := by
  unfold heads
  refine congrArg Y (funext fun a => Fin.ext ?_)
  have h0 : (i 0).val < 32 := (i 0).isLt
  have h1 : (i 1).val < 2048 := (i 1).isLt
  have h2 : (i 2).val < 64 := (i 2).isLt
  match a with
  | ⟨0, _⟩ =>
    show (((i 1).val * 32 + (i 0).val) * 64 + (i 2).val) / 2048 = (i 1).val
    omega
  | ⟨1, _⟩ =>
    show (((i 1).val * 32 + (i 0).val) * 64 + (i 2).val) % 2048 = 64 * (i 0).val + (i 2).val
    omega

/-- The transposition to [2048, 32, 64] then the reshape to [2048, 2048], read at an index, is the inverse re-reading. -/
theorem merge_read (Y : Heads) (i : S2048x2048.Idx) : Y (idx_main_v64 (idx_main_v65 i)) = merge Y i := by
  unfold merge
  refine congrArg Y (funext fun a => Fin.ext ?_)
  have h0 : (i 0).val < 2048 := (i 0).isLt
  have h1 : (i 1).val < 2048 := (i 1).isLt
  match a with
  | ⟨0, _⟩ =>
    show ((i 0).val * 2048 + (i 1).val) / 64 % 32 = (i 1).val / 64
    omega
  | ⟨1, _⟩ =>
    show ((i 0).val * 2048 + (i 1).val) / 2048 = (i 0).val
    omega
  | ⟨2, _⟩ =>
    show ((i 0).val * 2048 + (i 1).val) % 64 = (i 1).val % 64
    omega

/-! ## The projections -/

/-- A plain product of two [2048, 2048] matrices, as the reading states it, is `Cert.Dense.mm`. -/
theorem proj0 (x0 x1 : Mat) : val_main_v0 (F := Ideal) x0 x1 = Cert.Dense.mm x0 x1 := by
  funext i
  rw [val_main_v0_apply]
  unfold Cert.Dense.mm
  refine Finset.sum_congr rfl fun k _ => ?_
  congr 1
  · exact congrArg x0 (funext fun a => by match a with | ⟨0, _⟩ => rfl | ⟨1, _⟩ => rfl)
  · exact congrArg x1 (funext fun a => by match a with | ⟨0, _⟩ => rfl | ⟨1, _⟩ => rfl)

theorem proj_q (x0 x1 : Mat) : val_main_v2 (F := Ideal) x0 x1 = heads (Cert.Dense.mm x0 x1) := by
  funext i
  rw [val_main_v2_apply, val_main_v1_apply, proj0]
  exact heads_read _ i

theorem proj_k (x0 x2 : Mat) : val_main_v5 (F := Ideal) x0 x2 = heads (Cert.Dense.mm x0 x2) := by
  funext i
  rw [val_main_v5_apply, val_main_v4_apply]
  exact (congrFun (proj0 x0 x2) _).trans (heads_read _ i)

theorem proj_v (x0 x3 : Mat) : val_main_v8 (F := Ideal) x0 x3 = heads (Cert.Dense.mm x0 x3) := by
  funext i
  rw [val_main_v8_apply, val_main_v7_apply]
  exact (congrFun (proj0 x0 x3) _).trans (heads_read _ i)

/-! ## Scores, the row maximum, the softmax weights -/

/-- The score array at (h, s, t). -/
theorem scores_eq (x0 x1 x2 : Mat) (x5 : (⟨2, ![32, 32]⟩ : Shape).Idx → EReal) (h : Fin 32) (s t : Fin 2048) :
    val_main_v51 (F := Ideal) x0 x1 x2 x5 (ix3 h s t)
      = scores (heads (Cert.Dense.mm x0 x1)) (heads (Cert.Dense.mm x0 x2)) (refBias x5) h s t := by
  rw [val_main_v51_apply, val_main_v9_apply, proj_q, proj_k, bias_eq, Ideal.addf_def]
  unfold scores
  refine congrArg (· + refBias x5 (ix3 h s t)) (Finset.sum_congr rfl fun d _ => ?_)
  have el : lidx_main_v9 (ix3 h s t) d = ix3 h s d :=
    funext fun a => by match a with | ⟨0, _⟩ => rfl | ⟨1, _⟩ => rfl | ⟨2, _⟩ => rfl
  have er : ridx_main_v9 (ix3 h s t) d = ix3 h t d :=
    funext fun a => by match a with | ⟨0, _⟩ => rfl | ⟨1, _⟩ => rfl | ⟨2, _⟩ => rfl
  rw [el, er]

/-- Head h's scores of query s against every key, as the reference's array holds them. -/
def row (x0 x1 x2 : Mat) (x5 : (⟨2, ![32, 32]⟩ : Shape).Idx → EReal) (h : Fin 32) (s : Fin 2048) : Fin 2048 → EReal :=
  fun t => val_main_v51 (F := Ideal) x0 x1 x2 x5 (ix3 h s t)

theorem row_eq (x0 x1 x2 : Mat) (x5 : (⟨2, ![32, 32]⟩ : Shape).Idx → EReal) (h : Fin 32) (s : Fin 2048) :
    row x0 x1 x2 x5 h s = scores (heads (Cert.Dense.mm x0 x1)) (heads (Cert.Dense.mm x0 x2)) (refBias x5) h s :=
  funext fun t => scores_eq x0 x1 x2 x5 h s t

/-- The maximum over the keys: a fold of max from −∞ over the key axis, then once more against −∞, which changes nothing. -/
theorem max_eq (x0 x1 x2 : Mat) (x5 : (⟨2, ![32, 32]⟩ : Shape).Idx → EReal) (h : Fin 32) (s : Fin 2048) :
    val_main_v54 (F := Ideal) x0 x1 x2 x5 (ix2 h s) = rowMax (row x0 x1 x2 x5 h s) := by
  rw [val_main_v54_apply, val_main_v53_apply, val_main_cst_10_apply]
  unfold val_main_v52 rowMax
  rw [Host.reduce_eq_fold_single FloatOps.maximumf _ _ reducesTo_S32x2048x2048_S32x2048_d2 (by decide) h_S_]
  refine (max_eq_right ((Finset.le_fold_max _).2 (Or.inl le_rfl))).trans ?_
  refine Finset.fold_congr fun t _ => ?_
  exact congrArg (val_main_v51 (F := Ideal) x0 x1 x2 x5)
    (funext fun a => Fin.ext (by match a with | ⟨0, _⟩ => rfl | ⟨1, _⟩ => rfl | ⟨2, _⟩ => rfl))

/-- The exponential of a score less its row's maximum. -/
theorem expo_eq (x0 x1 x2 : Mat) (x5 : (⟨2, ![32, 32]⟩ : Shape).Idx → EReal) (h : Fin 32) (s t : Fin 2048) :
    val_main_v58 (F := Ideal) x0 x1 x2 x5 (ix3 h s t) = expo (row x0 x1 x2 x5 h s) t := by
  rw [val_main_v58_apply, val_main_v57_apply, val_main_v56_apply, val_main_v55_apply]
  have e : idx_main_v55 (idx_main_v56 (ix3 h s t)) = ix2 h s :=
    funext fun a => by match a with | ⟨0, _⟩ => rfl | ⟨1, _⟩ => rfl
  rw [e, max_eq]
  rfl

/-- The sum of a row's exponentials, from the zero word. -/
theorem sum_eq (x0 x1 x2 : Mat) (x5 : (⟨2, ![32, 32]⟩ : Shape).Idx → EReal) (h : Fin 32) (s : Fin 2048) :
    val_main_v59 (F := Ideal) x0 x1 x2 x5 (ix2 h s) = ∑ u : Fin 2048, expo (row x0 x1 x2 x5 h s) u := by
  rw [val_main_v59_apply, val_main_cst_11_apply, Ideal.ofBits_def, Ideal.ofBits_zero_f32, zero_add]
  refine Finset.sum_congr rfl fun u _ => ?_
  have e : idx_main_v59 (ix2 h s) u = ix3 h s u :=
    funext fun a => by match a with | ⟨0, _⟩ => rfl | ⟨1, _⟩ => rfl | ⟨2, _⟩ => rfl
  rw [e]
  exact expo_eq x0 x1 x2 x5 h s u

/-- The softmax weight. -/
theorem weight_eq (x0 x1 x2 : Mat) (x5 : (⟨2, ![32, 32]⟩ : Shape).Idx → EReal) (h : Fin 32) (s t : Fin 2048) :
    val_main_v62 (F := Ideal) x0 x1 x2 x5 (ix3 h s t) = weight (row x0 x1 x2 x5 h s) t := by
  rw [val_main_v62_apply, val_main_v61_apply, val_main_v60_apply]
  have e : idx_main_v60 (idx_main_v61 (ix3 h s t)) = ix2 h s :=
    funext fun a => by match a with | ⟨0, _⟩ => rfl | ⟨1, _⟩ => rfl
  rw [e, sum_eq, expo_eq]
  rfl

/-! ## The heads' outputs and the layer -/

theorem attend_eq (x0 x1 x2 x3 : Mat) (x5 : (⟨2, ![32, 32]⟩ : Shape).Idx → EReal) :
    val_main_v63 (F := Ideal) x0 x1 x2 x3 x5
      = attend (heads (Cert.Dense.mm x0 x1)) (heads (Cert.Dense.mm x0 x2)) (heads (Cert.Dense.mm x0 x3)) (refBias x5) := by
  funext i
  rw [val_main_v63_apply, proj_v]
  unfold attend
  refine Finset.sum_congr rfl fun t _ => ?_
  have el : lidx_main_v63 i t = ix3 (⟨(i 0).val, (i 0).isLt⟩ : Fin 32) (⟨(i 1).val, (i 1).isLt⟩ : Fin 2048) t :=
    funext fun a => by match a with | ⟨0, _⟩ => rfl | ⟨1, _⟩ => rfl | ⟨2, _⟩ => rfl
  have er : ridx_main_v63 i t = ix3 (⟨(i 0).val, (i 0).isLt⟩ : Fin 32) t (⟨(i 2).val, (i 2).isLt⟩ : Fin 64) :=
    funext fun a => by match a with | ⟨0, _⟩ => rfl | ⟨1, _⟩ => rfl | ⟨2, _⟩ => rfl
  rw [el, er, weight_eq, row_eq]

theorem layer_apply (X Wq Wk Wv Wo : Mat) (b : Bias) (i : (⟨2, ![2048, 2048]⟩ : Shape).Idx) :
    layer X Wq Wk Wv Wo b i
      = ∑ k : Fin 2048, merge (attend (heads (Cert.Dense.mm X Wq)) (heads (Cert.Dense.mm X Wk)) (heads (Cert.Dense.mm X Wv)) b)
          (ix2 (i 0) k) * Wo (ix2 k (i 1)) := rfl

/-- The reference's result, as a function of its six arguments, is the layer. -/
theorem layer_eq (x0 x1 x2 x3 x4 : Mat) (x5 : (⟨2, ![32, 32]⟩ : Shape).Idx → EReal) :
    val_main_v66 (F := Ideal) x0 x1 x2 x3 x4 x5 = layer x0 x1 x2 x3 x4 (refBias x5) := by
  funext i
  rw [val_main_v66_apply, layer_apply]
  refine Finset.sum_congr rfl fun k _ => ?_
  have el : lidx_main_v66 i k = ix2 (i 0) k := funext fun a => by match a with | ⟨0, _⟩ => rfl | ⟨1, _⟩ => rfl
  have er : ridx_main_v66 i k = ix2 k (i 1) := funext fun a => by match a with | ⟨0, _⟩ => rfl | ⟨1, _⟩ => rfl
  have e1 : val_main_v65 (F := Ideal) x0 x1 x2 x3 x5 (lidx_main_v66 i k)
      = merge (attend (heads (Cert.Dense.mm x0 x1)) (heads (Cert.Dense.mm x0 x2)) (heads (Cert.Dense.mm x0 x3)) (refBias x5))
          (ix2 (i 0) k) := by
    refine (val_main_v65_apply (F := Ideal) x0 x1 x2 x3 x5 _).trans ((val_main_v64_apply (F := Ideal) x0 x1 x2 x3 x5 _).trans ?_)
    refine (congrFun (attend_eq x0 x1 x2 x3 x5) _).trans ?_
    exact (merge_read _ _).trans (congrArg _ el)
  exact congrArg₂ (· * ·) e1 (congrArg x4 er)

/-! ## The run -/

/-- Every weakly fair execution of the reference ends with its result at the layer of the argument arrays, the arguments
    unchanged. -/
theorem run_layer (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
        r.2.mem ((c.tc : Thread Cert.ReferenceIdeal.nD Cert.ReferenceIdeal.τ).loc Cert.ReferenceIdeal.main_v66)
            = Cert.Attn.layer
                (m ((c.tc : Thread Cert.ReferenceIdeal.nD Cert.ReferenceIdeal.τ).loc Cert.ReferenceIdeal.main_arg0))
                (m ((c.tc : Thread Cert.ReferenceIdeal.nD Cert.ReferenceIdeal.τ).loc Cert.ReferenceIdeal.main_arg1))
                (m ((c.tc : Thread Cert.ReferenceIdeal.nD Cert.ReferenceIdeal.τ).loc Cert.ReferenceIdeal.main_arg2))
                (m ((c.tc : Thread Cert.ReferenceIdeal.nD Cert.ReferenceIdeal.τ).loc Cert.ReferenceIdeal.main_arg3))
                (m ((c.tc : Thread Cert.ReferenceIdeal.nD Cert.ReferenceIdeal.τ).loc Cert.ReferenceIdeal.main_arg4))
                (refBias (m ((c.tc : Thread Cert.ReferenceIdeal.nD Cert.ReferenceIdeal.τ).loc Cert.ReferenceIdeal.main_arg5)))
          ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)) :=
  (θ_run (Cert.ReferenceIdeal.defs (F := Ideal)) _ _).mono
    (fun _ hr c => ⟨(hr c).1.trans ((val_main_v66_eq (F := Ideal) m c).trans (layer_eq _ _ _ _ _ _)), (hr c).2⟩)
    (Cert.ReferenceIdeal.ValueP.run (F := Ideal) m ρ)

end Cert.ReferenceIdeal.RefValue

end
-- ==== Proof.Words.lean ====
/-
  Both programs compute the array of bucket words by the same integer arithmetic on the same two position ranges: the word-level
  steps — the relative position, its sign bit times 16, the small and the logarithmic branch, the final wrap by 32 — are the same
  operations on the same constants, so the two closed terms are one.
-/
import proofs.«125511_j29764123361587_2_alg».proof.Proof.KI.Fold
import proofs.«125511_j29764123361587_2_alg».proof.Proof.RefValue
import Idealize.ShloMosaic.Lib.StableHlo.Run
import Idealize.ShloMosaic.PureOps.Ideal

noncomputable section

namespace Cert.KernelIdeal.Hand

open Idealize.ShloMosaic Idealize.ShloMosaic.TcCoe
open Idealize.SL Idealize.SL.Sem
open Cert.KernelIdeal Cert.KernelIdeal.Gen

variable (m : (ℓ : Loc nD τ sig) → Buf (Elt Ideal) ℓ) (c : Dev nD)

set_option maxHeartbeats 16000000 in
/-- The kernel program's bucket words are the reference's. -/
theorem words_eq : (V5 m c main_v49 : S2048x2048.Idx → BitVec 32) = Cert.ReferenceIdeal.RefValue.refIdx := by
  show StableHlo.after hostOps1_2 (StableHlo.after hostOps1_1 (StableHlo.after hostOps1 (W2 m c))) (Proc.devRef .tc main_v49) = _
  after_results
  rfl

end Cert.KernelIdeal.Hand

end
-- ==== Proof.lean ====
/-
  The certificate of the attention layer: a kernel program of three launches — the fused projection X·[Wq | Wk | Wv], attention
  per (head, query tile) with a precomputed relative-position bias, the output projection — against the same layer written with
  plain array operations.

  Frames. Each launch of the kernel program stores, at every grid point, one value through the whole staging buffer of its
  result window; its inputs are read through whole staging buffers. So every launch runs at every point, writes only its result
  array, and @main's host stretches write only their own results: the six arguments end as launched (at the word-level instance
  and at the exact one, by the same text). The reference has no launch; its run is read back operation by operation.

  Values. At the exact instance launch 0 leaves the matrix product with the concatenated weights, whose three bands of 2048
  columns are the three projections; the head split of each is launch 1's operand. Both programs index the 32 × 32 embedding
  table with the same array of bucket words (the same integer arithmetic on the same position ranges), one by rows and a
  rotation of axes, the other by columns of the transposed table: one bias array. The attention tile is, entry by entry, the
  softmax-weighted sum Σ_t exp(score t − max) / Σ_u exp(score u − max) · V(h, t, d), the same expression the reference evaluates
  on whole arrays; no law of arithmetic beyond re-indexing of sums is used, so the precondition is never opened. The merged heads
  times Wo is the result on both sides: `Cert.Attn.layer`.
-/
import proofs.«125511_j29764123361587_2_alg».proof.Defs
import proofs.«125511_j29764123361587_2_alg».proof.Proof.Gen.Kernel
import proofs.«125511_j29764123361587_2_alg».proof.Proof.Gen.KernelIdeal
import proofs.«125511_j29764123361587_2_alg».proof.Proof.Gen.ReferenceIdeal
import proofs.«125511_j29764123361587_2_alg».proof.Proof.Gen.Pre_finite_inputs
import proofs.«125511_j29764123361587_2_alg».proof.Proof.KB.Run
import proofs.«125511_j29764123361587_2_alg».proof.Proof.KI.Run
import proofs.«125511_j29764123361587_2_alg».proof.Proof.KI.Result
import proofs.«125511_j29764123361587_2_alg».proof.Proof.RefValue
import proofs.«125511_j29764123361587_2_alg».proof.Proof.Words

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Hand.frame m ρ

/-- So does the kernel program at the exact instance. -/
theorem frame_kernelIdeal : Cert.frame_KernelIdeal := fun m ρ _ => Cert.KernelIdeal.Hand.frame m ρ

/-- The reference's run, its result forgotten. -/
theorem frame_reference : Cert.frame_ReferenceIdeal := fun m ρ _ =>
  (θ_run Cert.ReferenceIdeal.defs _ _).mono (fun _ h c => (h c).2) (Cert.ReferenceIdeal.RefValue.run_layer m ρ)

/-- The idealization rewrote nothing. -/
theorem preserves : Cert.preserves_Kernel_KernelIdeal := trivial

/-- From memories agreeing on the arguments both programs end with the attention layer of the arguments. -/
theorem algebraic : Cert.algebraic_KernelIdeal_ReferenceIdeal := by
  intro m ρ m' ρ' _ hagree
  refine ⟨fun c => Cert.Attn.layer (Cert.KernelIdeal.Hand.aX m c) (Cert.KernelIdeal.Hand.aWq m c) (Cert.KernelIdeal.Hand.aWk m c)
      (Cert.KernelIdeal.Hand.aWv m c) (Cert.KernelIdeal.Hand.aWo m c)
      (Cert.Attn.biasOf (Cert.KernelIdeal.Hand.aE m c) Cert.ReferenceIdeal.RefValue.refIdx), ?_, ?_⟩
  · refine (θ_run Cert.KernelIdeal.defs _ _).mono (fun r h c => ⟨?_, ?_⟩) (Cert.KernelIdeal.Hand.run_all m ρ)
    · refine (h c _ (Cert.KernelIdeal.Hand.mem_uc Cert.KernelIdeal.main_v55 (by decide))).trans ?_
      rw [← Cert.KernelIdeal.Hand.words_eq m c]
      exact Cert.KernelIdeal.Hand.result m c
    · exact ⟨(h c _ (Cert.KernelIdeal.Hand.mem_uc Cert.KernelIdeal.main_arg0 (by decide))).trans (Cert.KernelIdeal.Hand.W8_main_arg0 m c),
        (h c _ (Cert.KernelIdeal.Hand.mem_uc Cert.KernelIdeal.main_arg1 (by decide))).trans (Cert.KernelIdeal.Hand.W8_main_arg1 m c),
        (h c _ (Cert.KernelIdeal.Hand.mem_uc Cert.KernelIdeal.main_arg2 (by decide))).trans (Cert.KernelIdeal.Hand.W8_main_arg2 m c),
        (h c _ (Cert.KernelIdeal.Hand.mem_uc Cert.KernelIdeal.main_arg3 (by decide))).trans (Cert.KernelIdeal.Hand.W8_main_arg3 m c),
        (h c _ (Cert.KernelIdeal.Hand.mem_uc Cert.KernelIdeal.main_arg4 (by decide))).trans (Cert.KernelIdeal.Hand.W8_main_arg4 m c),
        (h c _ (Cert.KernelIdeal.Hand.mem_uc Cert.KernelIdeal.main_arg5 (by decide))).trans (Cert.KernelIdeal.Hand.W8_main_arg5 m c)⟩
  · refine (θ_run Cert.ReferenceIdeal.defs _ _).mono (fun r h c => ⟨(h c).1.trans ?_, (h c).2⟩)
      (Cert.ReferenceIdeal.RefValue.run_layer m' ρ')
    rw [(hagree c).1, (hagree c).2.1, (hagree c).2.2.1, (hagree c).2.2.2.1, (hagree c).2.2.2.2.1, (hagree c).2.2.2.2.2]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
